-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x1024 : Shape := ⟨3, ![128, 32, 1024]⟩
abbrev S1024x1024 : Shape := ⟨2, ![1024, 1024]⟩
abbrev S256x1024 : Shape := ⟨2, ![256, 1024]⟩
abbrev S1x1024 : Shape := ⟨2, ![1, 1024]⟩
abbrev S256x512 : Shape := ⟨2, ![256, 512]⟩
abbrev S1x512 : Shape := ⟨2, ![1, 512]⟩
abbrev S_ : Shape := ⟨0, ![]⟩

class Facts : Prop where
  bcast_S_S128x32x1024 : S_.BroadcastsInDim S128x32x1024 (![] : Fin 0 → Fin S128x32x1024.rank)
  reducesTo_S128x32x1024_S_d0_1_2 : S128x32x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S256x512 .f32) (main_arg5 : FVec F S1x512 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S128x32x1024 .f32) (main_arg1 : FVec F S1024x1024 .f32) (main_arg2 : FVec F S256x1024 .f32) (main_arg3 : FVec F S1x1024 .f32) (main_arg4 : FVec F S256x512 .f32) (main_arg5 : FVec F S1x512 .f32) : IVec S_ 1 :=
  let main_v0 : FVec F S128x32x1024 .f32 := Host.absf main_arg0
  let main_cst : FVec F S_ .f32 := constant S_ .f32 0x7F800000#32
  let main_v1 : FVec F S128x32x1024 .f32 := broadcastInDim S128x32x1024 ![] bcast_S_S128x32x1024 main_cst
  let main_v2 : IVec S128x32x1024 1 := cmpf .olt main_v0 main_v1
  let main_c : IVec S_ 1 := constantI S_ 1 1#1
  let main_v3 : IVec S_ 1 := (fun x v => Host.reduce IntOp.andi x v reducesTo_S128x32x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S128x32x1024 : Shape := ⟨3, ![128, 32, 1024]⟩
abbrev S1024x1024 : Shape := ⟨2, ![1024, 1024]⟩
abbrev S256x1024 : Shape := ⟨2, ![256, 1024]⟩
abbrev S1x1024 : Shape := ⟨2, ![1, 1024]⟩
abbrev S256x512 : Shape := ⟨2, ![256, 512]⟩
abbrev S1x512 : Shape := ⟨2, ![1, 512]⟩
abbrev S32x128x1024 : Shape := ⟨3, ![32, 128, 1024]⟩
abbrev S32x128x256 : Shape := ⟨3, ![32, 128, 256]⟩
abbrev S32x128x512 : Shape := ⟨3, ![32, 128, 512]⟩
abbrev S32x64x1024 : Shape := ⟨3, ![32, 64, 1024]⟩
abbrev S32x64x256 : Shape := ⟨3, ![32, 64, 256]⟩
abbrev S32x64x512 : Shape := ⟨3, ![32, 64, 512]⟩
abbrev S2048x1024 : Shape := ⟨2, ![2048, 1024]⟩
abbrev S64x256 : Shape := ⟨2, ![64, 256]⟩
abbrev S64x1024 : Shape := ⟨2, ![64, 1024]⟩
abbrev S1x64x256 : Shape := ⟨3, ![1, 64, 256]⟩
abbrev S2048x256 : Shape := ⟨2, ![2048, 256]⟩
abbrev S2048x512 : Shape := ⟨2, ![2048, 512]⟩
abbrev S128x32x256 : Shape := ⟨3, ![128, 32, 256]⟩
abbrev S128x32x512 : Shape := ⟨3, ![128, 32, 512]⟩
abbrev S128x32x128 : Shape := ⟨3, ![128, 32, 128]⟩

abbrev nBuf : Space → Nat
  | .hbm => 15
  | .vmem => 14
  | .smem => 0
  | _ => 0

abbrev bufTy : (tb : Table) → Fin (tcTables nBuf tb) → BufTy
  | .hbm, ⟨0, _⟩ => ⟨S128x32x1024, .f32⟩
  | .hbm, ⟨1, _⟩ => ⟨S1024x1024, .f32⟩
  | .hbm, ⟨2, _⟩ => ⟨S256x1024, .f32⟩
  | .hbm, ⟨3, _⟩ => ⟨S1x1024, .f32⟩
  | .hbm, ⟨4, _⟩ => ⟨S256x512, .f32⟩
  | .hbm, ⟨5, _⟩ => ⟨S1x512, .f32⟩
  | .hbm, ⟨6, _⟩ => ⟨S32x128x1024, .f32⟩
  | .hbm, ⟨7, _⟩ => ⟨S32x128x256, .f32⟩
  | .hbm, ⟨8, _⟩ => ⟨S32x128x512, .f32⟩
  | .hbm, ⟨9, _⟩ => ⟨S128x32x256, .f32⟩
  | .hbm, ⟨10, _⟩ => ⟨S128x32x512, .f32⟩
  | .hbm, ⟨11, _⟩ => ⟨S128x32x128, .f32⟩
  | .hbm, ⟨12, _⟩ => ⟨S128x32x128, .f32⟩
  | .hbm, ⟨13, _⟩ => ⟨S128x32x128, .f32⟩
  | .hbm, ⟨14, _⟩ => ⟨S128x32x128, .f32⟩
  | .local _ .vmem, ⟨0, _⟩ => ⟨S32x64x1024, .f32⟩
  | .local _ .vmem, ⟨1, _⟩ => ⟨S32x64x1024, .f32⟩
  | .local _ .vmem, ⟨2, _⟩ => ⟨S1024x1024, .f32⟩
  | .local _ .vmem, ⟨3, _⟩ => ⟨S256x1024, .f32⟩
  | .local _ .vmem, ⟨4, _⟩ => ⟨S1x1024, .f32⟩
  | .local _ .vmem, ⟨5, _⟩ => ⟨S256x512, .f32⟩
  | .local _ .vmem, ⟨6, _⟩ => ⟨S1x512, .f32⟩
  | .local _ .vmem, ⟨7, _⟩ => ⟨S32x64x256, .f32⟩
  | .local _ .vmem, ⟨8, _⟩ => ⟨S32x64x256, .f32⟩
  | .local _ .vmem, ⟨9, _⟩ => ⟨S32x64x512, .f32⟩
  | .local _ .vmem, ⟨10, _⟩ => ⟨S32x64x512, .f32⟩
  | .local _ .vmem, ⟨11, _⟩ => ⟨S2048x1024, .f32⟩
  | .local _ .vmem, ⟨12, _⟩ => ⟨S64x256, .f32⟩
  | .local _ .vmem, ⟨13, _⟩ => ⟨S64x256, .f32⟩
  | _, _ => ⟨S128x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x32x1024_S32x128x1024_1_0_2 : S128x32x1024.Transposes [1, 0, 2] S32x128x1024
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S32x64x1024 : S32x64x1024.ShapeCasts S32x64x1024
  shapeCasts_S32x64x1024_S2048x1024 : S32x64x1024.ShapeCasts S2048x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x1024_S256x1024_0_0 : ∀ a, (![0, 0] : Fin 2 → Nat) a + S256x1024.size a ≤ S256x1024.size a
  h_S256x1024 : 0 < S256x1024.numel
  inb_S2048x1024_S64x1024_0_0 : ∀ a, (![0, 0] : Fin 2 → Nat) a + S64x1024.size a ≤ S2048x1024.size a
  h_S64x1024 : 0 < S64x1024.numel
  slices_S64x1024_o0_0_S64x256 : S64x1024.Slices ![0, 0] S64x256
  slices_S64x1024_o0_256_S64x256 : S64x1024.Slices ![0, 256] S64x256
  slices_S64x1024_o0_512_S64x256 : S64x1024.Slices ![0, 512] S64x256
  slices_S64x1024_o0_768_S64x256 : S64x1024.Slices ![0, 768] S64x256
  inb_S32x64x256_S1x64x256_0_0_0 : ∀ a, (![0, 0, 0] : Fin 3 → Nat) a + S1x64x256.size a ≤ S32x64x256.size a
  h_S1x64x256 : 0 < S1x64x256.numel
  shapeCasts_S1x64x256_S64x256 : S1x64x256.ShapeCasts S64x256
  shapeCasts_S64x256_S1x64x256 : S64x256.ShapeCasts S1x64x256
  inb_S2048x1024_S64x1024_64_0 : ∀ a, (![64, 0] : Fin 2 → Nat) a + S64x1024.size a ≤ S2048x1024.size a
  inb_S32x64x256_S1x64x256_1_0_0 : ∀ a, (![1, 0, 0] : Fin 3 → Nat) a + S1x64x256.size a ≤ S32x64x256.size a
  inb_S2048x1024_S64x1024_128_0 : ∀ a, (![128, 0] : Fin 2 → Nat) a + S64x1024.size a ≤ S2048x1024.size a
  inb_S32x64x256_S1x64x256_2_0_0 : ∀ a, (![2, 0, 0] : Fin 3 → Nat) a + S1x64x256.size a ≤ S32x64x256.size a
  inb_S2048x1024_S64x1024_192_0 : ∀ a, (![192, 0] : Fin 2 → Nat) a + S64x1024.size a ≤ S2048x1024.size a
  inb_S32x64x256_S1x64x256_3_0_0 : ∀ a, (![3, 0, 0] : Fin 3 → Nat) a + S1x64x256.size a ≤ S32x64x256.size a
  inb_S2048x1024_S64x1024_256_0 : ∀ a, (![256, 0] : Fin 2 → Nat) a + S64x1024.size a ≤ S2048x1024.size a
  inb_S32x64x256_S1x64x256_4_0_0 : ∀ a, (![4, 0, 0] : Fin 3 → Nat) a + S1x64x256.size a ≤ S32x64x256.size a
  inb_S2048x1024_S64x1024_320_0 : ∀ a, (![320, 0] : Fin 2 → Nat) a + S64x1024.size a ≤ S2048x1024.size a
  inb_S32x64x256_S1x64x256_5_0_0 : ∀ a, (![5, 0, 0] : Fin 3 → Nat) a + S1x64x256.size a ≤ S32x64x256.size a
  inb_S2048x1024_S64x1024_384_0 : ∀ a, (![384, 0] : Fin 2 → Nat) a + S64x1024.size a ≤ S2048x1024.size a
  inb_S32x64x256_S1x64x256_6_0_0 : ∀ a, (![6, 0, 0] : Fin 3 → Nat) a + S1x64x256.size a ≤ S32x64x256.size a
  inb_S2048x1024_S64x1024_448_0 : ∀ a, (![448, 0] : Fin 2 → Nat) a + S64x1024.size a ≤ S2048x1024.size a
  inb_S32x64x256_S1x64x256_7_0_0 : ∀ a, (![7, 0, 0] : Fin 3 → Nat) a + S1x64x256.size a ≤ S32x64x256.size a
  inb_S2048x1024_S64x1024_512_0 : ∀ a, (![512, 0] : Fin 2 → Nat) a + S64x1024.size a ≤ S2048x1024.size a
  inb_S32x64x256_S1x64x256_8_0_0 : ∀ a, (![8, 0, 0] : Fin 3 → Nat) a + S1x64x256.size a ≤ S32x64x256.size a
  inb_S2048x1024_S64x1024_576_0 : ∀ a, (![576, 0] : Fin 2 → Nat) a + S64x1024.size a ≤ S2048x1024.size a
  inb_S32x64x256_S1x64x256_9_0_0 : ∀ a, (![9, 0, 0] : Fin 3 → Nat) a + S1x64x256.size a ≤ S32x64x256.size a
  inb_S2048x1024_S64x1024_640_0 : ∀ a, (![640, 0] : Fin 2 → Nat) a + S64x1024.size a ≤ S2048x1024.size a
  inb_S32x64x256_S1x64x256_10_0_0 : ∀ a, (![10, 0, 0] : Fin 3 → Nat) a + S1x64x256.size a ≤ S32x64x256.size a
  inb_S2048x1024_S64x1024_704_0 : ∀ a, (![704, 0] : Fin 2 → Nat) a + S64x1024.size a ≤ S2048x1024.size a
  inb_S32x64x256_S1x64x256_11_0_0 : ∀ a, (![11, 0, 0] : Fin 3 → Nat) a + S1x64x256.size a ≤ S32x64x256.size a
  inb_S2048x1024_S64x1024_768_0 : ∀ a, (![768, 0] : Fin 2 → Nat) a + S64x1024.size a ≤ S2048x1024.size a
  inb_S32x64x256_S1x64x256_12_0_0 : ∀ a, (![12, 0, 0] : Fin 3 → Nat) a + S1x64x256.size a ≤ S32x64x256.size a
  inb_S2048x1024_S64x1024_832_0 : ∀ a, (![832, 0] : Fin 2 → Nat) a + S64x1024.size a ≤ S2048x1024.size a
  inb_S32x64x256_S1x64x256_13_0_0 : ∀ a, (![13, 0, 0] : Fin 3 → Nat) a + S1x64x256.size a ≤ S32x64x256.size a
  inb_S2048x1024_S64x1024_896_0 : ∀ a, (![896, 0] : Fin 2 → Nat) a + S64x1024.size a ≤ S2048x1024.size a
  inb_S32x64x256_S1x64x256_14_0_0 : ∀ a, (![14, 0, 0] : Fin 3 → Nat) a + S1x64x256.size a ≤ S32x64x256.size a
  inb_S2048x1024_S64x1024_960_0 : ∀ a, (![960, 0] : Fin 2 → Nat) a + S64x1024.size a ≤ S2048x1024.size a
  inb_S32x64x256_S1x64x256_15_0_0 : ∀ a, (![15, 0, 0] : Fin 3 → Nat) a + S1x64x256.size a ≤ S32x64x256.size a
  inb_S2048x1024_S64x1024_1024_0 : ∀ a, (![1024, 0] : Fin 2 → Nat) a + S64x1024.size a ≤ S2048x1024.size a
  inb_S32x64x256_S1x64x256_16_0_0 : ∀ a, (![16, 0, 0] : Fin 3 → Nat) a + S1x64x256.size a ≤ S32x64x256.size a
  inb_S2048x1024_S64x1024_1088_0 : ∀ a, (![1088, 0] : Fin 2 → Nat) a + S64x1024.size a ≤ S2048x1024.size a
  inb_S32x64x256_S1x64x256_17_0_0 : ∀ a, (![17, 0, 0] : Fin 3 → Nat) a + S1x64x256.size a ≤ S32x64x256.size a
  inb_S2048x1024_S64x1024_1152_0 : ∀ a, (![1152, 0] : Fin 2 → Nat) a + S64x1024.size a ≤ S2048x1024.size a
  inb_S32x64x256_S1x64x256_18_0_0 : ∀ a, (![18, 0, 0] : Fin 3 → Nat) a + S1x64x256.size a ≤ S32x64x256.size a
  inb_S2048x1024_S64x1024_1216_0 : ∀ a, (![1216, 0] : Fin 2 → Nat) a + S64x1024.size a ≤ S2048x1024.size a
  inb_S32x64x256_S1x64x256_19_0_0 : ∀ a, (![19, 0, 0] : Fin 3 → Nat) a + S1x64x256.size a ≤ S32x64x256.size a
  inb_S2048x1024_S64x1024_1280_0 : ∀ a, (![1280, 0] : Fin 2 → Nat) a + S64x1024.size a ≤ S2048x1024.size a
  inb_S32x64x256_S1x64x256_20_0_0 : ∀ a, (![20, 0, 0] : Fin 3 → Nat) a + S1x64x256.size a ≤ S32x64x256.size a
  inb_S2048x1024_S64x1024_1344_0 : ∀ a, (![1344, 0] : Fin 2 → Nat) a + S64x1024.size a ≤ S2048x1024.size a
  inb_S32x64x256_S1x64x256_21_0_0 : ∀ a, (![21, 0, 0] : Fin 3 → Nat) a + S1x64x256.size a ≤ S32x64x256.size a
  inb_S2048x1024_S64x1024_1408_0 : ∀ a, (![1408, 0] : Fin 2 → Nat) a + S64x1024.size a ≤ S2048x1024.size a
  inb_S32x64x256_S1x64x256_22_0_0 : ∀ a, (![22, 0, 0] : Fin 3 → Nat) a + S1x64x256.size a ≤ S32x64x256.size a
  inb_S2048x1024_S64x1024_1472_0 : ∀ a, (![1472, 0] : Fin 2 → Nat) a + S64x1024.size a ≤ S2048x1024.size a
  inb_S32x64x256_S1x64x256_23_0_0 : ∀ a, (![23, 0, 0] : Fin 3 → Nat) a + S1x64x256.size a ≤ S32x64x256.size a
  inb_S2048x1024_S64x1024_1536_0 : ∀ a, (![1536, 0] : Fin 2 → Nat) a + S64x1024.size a ≤ S2048x1024.size a
  inb_S32x64x256_S1x64x256_24_0_0 : ∀ a, (![24, 0, 0] : Fin 3 → Nat) a + S1x64x256.size a ≤ S32x64x256.size a
  inb_S2048x1024_S64x1024_1600_0 : ∀ a, (![1600, 0] : Fin 2 → Nat) a + S64x1024.size a ≤ S2048x1024.size a
  inb_S32x64x256_S1x64x256_25_0_0 : ∀ a, (![25, 0, 0] : Fin 3 → Nat) a + S1x64x256.size a ≤ S32x64x256.size a
  inb_S2048x1024_S64x1024_1664_0 : ∀ a, (![1664, 0] : Fin 2 → Nat) a + S64x1024.size a ≤ S2048x1024.size a
  inb_S32x64x256_S1x64x256_26_0_0 : ∀ a, (![26, 0, 0] : Fin 3 → Nat) a + S1x64x256.size a ≤ S32x64x256.size a
  inb_S2048x1024_S64x1024_1728_0 : ∀ a, (![1728, 0] : Fin 2 → Nat) a + S64x1024.size a ≤ S2048x1024.size a
  inb_S32x64x256_S1x64x256_27_0_0 : ∀ a, (![27, 0, 0] : Fin 3 → Nat) a + S1x64x256.size a ≤ S32x64x256.size a
  inb_S2048x1024_S64x1024_1792_0 : ∀ a, (![1792, 0] : Fin 2 → Nat) a + S64x1024.size a ≤ S2048x1024.size a
  inb_S32x64x256_S1x64x256_28_0_0 : ∀ a, (![28, 0, 0] : Fin 3 → Nat) a + S1x64x256.size a ≤ S32x64x256.size a
  inb_S2048x1024_S64x1024_1856_0 : ∀ a, (![1856, 0] : Fin 2 → Nat) a + S64x1024.size a ≤ S2048x1024.size a
  inb_S32x64x256_S1x64x256_29_0_0 : ∀ a, (![29, 0, 0] : Fin 3 → Nat) a + S1x64x256.size a ≤ S32x64x256.size a
  inb_S2048x1024_S64x1024_1920_0 : ∀ a, (![1920, 0] : Fin 2 → Nat) a + S64x1024.size a ≤ S2048x1024.size a
  inb_S32x64x256_S1x64x256_30_0_0 : ∀ a, (![30, 0, 0] : Fin 3 → Nat) a + S1x64x256.size a ≤ S32x64x256.size a
  inb_S2048x1024_S64x1024_1984_0 : ∀ a, (![1984, 0] : Fin 2 → Nat) a + S64x1024.size a ≤ S2048x1024.size a
  inb_S32x64x256_S1x64x256_31_0_0 : ∀ a, (![31, 0, 0] : Fin 3 → Nat) a + S1x64x256.size a ≤ S32x64x256.size a
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  shapeCasts_S32x64x256_S2048x256 : S32x64x256.ShapeCasts S2048x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S2048x512 : S1x512.Broadcasts S2048x512
  shapeCasts_S2048x512_S32x64x512 : S2048x512.ShapeCasts S32x64x512
  inb_S32x64x512_S32x64x512_0_0_0 : ∀ a, (![0, 0, 0] : Fin 3 → Nat) a + S32x64x512.size a ≤ S32x64x512.size a
  h_S32x64x512 : 0 < S32x64x512.numel
  transposes_S32x128x256_S128x32x256_1_0_2 : S32x128x256.Transposes [1, 0, 2] S128x32x256
  transposes_S32x128x512_S128x32x512_1_0_2 : S32x128x512.Transposes [1, 0, 2] S128x32x512
  slices_S128x32x512_S128x32x128_0_0_0 : S128x32x512.Slices ![0, 0, 0] S128x32x128
  slices_S128x32x512_S128x32x128_0_0_128 : S128x32x512.Slices ![0, 0, 128] S128x32x128
  slices_S128x32x512_S128x32x128_0_0_256 : S128x32x512.Slices ![0, 0, 256] S128x32x128
  slices_S128x32x512_S128x32x128_0_0_384 : S128x32x512.Slices ![0, 0, 384] S128x32x128
  dot_S2048x1024_S1024x1024_S2048x1024_1_0_0_1_n_n_wf : DotDims.WF S2048x1024 S1024x1024 S2048x1024 [1] [0] [0] [1] [] []
  dot_S64x256_S256x1024_S64x1024_1_0_0_1_n_n_wf : DotDims.WF S64x256 S256x1024 S64x1024 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S32x128x1024.size a
  hwx0_0 : ∀ i : grid0.Coords, EltTy.bits .f32 = 32 ∨ (Rect.block (s := S32x128x1024) S32x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x64x256.size a ≤ S32x128x256.size a
  hwx0_6 : ∀ i : grid0.Coords, EltTy.bits .f32 = 32 ∨ (Rect.block (s := S32x128x256) S32x64x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x64x512.size a ≤ S32x128x512.size a
  hwx0_7 : ∀ i : grid0.Coords, EltTy.bits .f32 = 32 ∨ (Rect.block (s := S32x128x512) S32x64x512.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S32x64x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S32x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x32x1024 : Shape := ⟨3, ![128, 32, 1024]⟩
abbrev S1024x1024 : Shape := ⟨2, ![1024, 1024]⟩
abbrev S256x1024 : Shape := ⟨2, ![256, 1024]⟩
abbrev S1x1024 : Shape := ⟨2, ![1, 1024]⟩
abbrev S256x512 : Shape := ⟨2, ![256, 512]⟩
abbrev S1x512 : Shape := ⟨2, ![1, 512]⟩
abbrev S32x128x1024 : Shape := ⟨3, ![32, 128, 1024]⟩
abbrev S4096x1024 : Shape := ⟨2, ![4096, 1024]⟩
abbrev S4096x256 : Shape := ⟨2, ![4096, 256]⟩
abbrev S4096x512 : Shape := ⟨2, ![4096, 512]⟩
abbrev S128x256 : Shape := ⟨2, ![128, 256]⟩
abbrev S128x1024 : Shape := ⟨2, ![128, 1024]⟩
abbrev S32x128x256 : Shape := ⟨3, ![32, 128, 256]⟩
abbrev S128x32x256 : Shape := ⟨3, ![128, 32, 256]⟩
abbrev S32x128x512 : Shape := ⟨3, ![32, 128, 512]⟩
abbrev S128x32x512 : Shape := ⟨3, ![128, 32, 512]⟩
abbrev S128x32x128 : Shape := ⟨3, ![128, 32, 128]⟩

abbrev nBuf : Space → Nat
  | .hbm => 18
  | .vmem => 11
  | .smem => 0
  | _ => 0

abbrev bufTy : (tb : Table) → Fin (tcTables nBuf tb) → BufTy
  | .hbm, ⟨0, _⟩ => ⟨S128x32x1024, .f32⟩
  | .hbm, ⟨1, _⟩ => ⟨S1024x1024, .f32⟩
  | .hbm, ⟨2, _⟩ => ⟨S256x1024, .f32⟩
  | .hbm, ⟨3, _⟩ => ⟨S1x1024, .f32⟩
  | .hbm, ⟨4, _⟩ => ⟨S256x512, .f32⟩
  | .hbm, ⟨5, _⟩ => ⟨S1x512, .f32⟩
  | .hbm, ⟨6, _⟩ => ⟨S32x128x1024, .f32⟩
  | .hbm, ⟨7, _⟩ => ⟨S4096x1024, .f32⟩
  | .hbm, ⟨8, _⟩ => ⟨S4096x256, .f32⟩
  | .hbm, ⟨9, _⟩ => ⟨S4096x512, .f32⟩
  | .hbm, ⟨10, _⟩ => ⟨S32x128x256, .f32⟩
  | .hbm, ⟨11, _⟩ => ⟨S128x32x256, .f32⟩
  | .hbm, ⟨12, _⟩ => ⟨S32x128x512, .f32⟩
  | .hbm, ⟨13, _⟩ => ⟨S128x32x512, .f32⟩
  | .hbm, ⟨14, _⟩ => ⟨S128x32x128, .f32⟩
  | .hbm, ⟨15, _⟩ => ⟨S128x32x128, .f32⟩
  | .hbm, ⟨16, _⟩ => ⟨S128x32x128, .f32⟩
  | .hbm, ⟨17, _⟩ => ⟨S128x32x128, .f32⟩
  | .local _ .vmem, ⟨0, _⟩ => ⟨S4096x1024, .f32⟩
  | .local _ .vmem, ⟨1, _⟩ => ⟨S1024x1024, .f32⟩
  | .local _ .vmem, ⟨2, _⟩ => ⟨S256x1024, .f32⟩
  | .local _ .vmem, ⟨3, _⟩ => ⟨S1x1024, .f32⟩
  | .local _ .vmem, ⟨4, _⟩ => ⟨S256x512, .f32⟩
  | .local _ .vmem, ⟨5, _⟩ => ⟨S1x512, .f32⟩
  | .local _ .vmem, ⟨6, _⟩ => ⟨S4096x256, .f32⟩
  | .local _ .vmem, ⟨7, _⟩ => ⟨S4096x512, .f32⟩
  | .local _ .vmem, ⟨8, _⟩ => ⟨S4096x1024, .f32⟩
  | .local _ .vmem, ⟨9, _⟩ => ⟨S128x256, .f32⟩
  | .local _ .vmem, ⟨10, _⟩ => ⟨S128x256, .f32⟩
  | _, _ => ⟨S128x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c128_i32 : BitVec 32 := 128#32
  let v18 : BitVec 32 := Scalar.muli c0_i32 c128_i32
  v18
def k0_off1 (c0_i32 : BitVec 32) : Fin 2 → Nat :=
  let c128_i32 : BitVec 32 := 128#32
  let v18 : BitVec 32 := Scalar.muli c0_i32 c128_i32
  let v19 : BitVec 32 := v18
  let v21 : Index := Scalar.indexCast v19
  let c0_15 : Index := 0#32
  ![v21.toNat, 0]
def k0_off2 (c0_i32 : BitVec 32) : Fin 2 → Nat :=
  let c128_i32 : BitVec 32 := 128#32
  let v18 : BitVec 32 := Scalar.muli c0_i32 c128_i32
  let v19 : BitVec 32 := v18
  let v46 : Index := Scalar.indexCast v19
  let c0_25 : Index := 0#32
  ![v46.toNat, 0]
def k0_mult2 : BitVec 32 :=
  let c1_i32 : BitVec 32 := 1#32
  let c128_i32_26 : BitVec 32 := 128#32
  let v48 : BitVec 32 := Scalar.muli c1_i32 c128_i32_26
  v48
def k0_mult3 : BitVec 32 :=
  let c2_i32 : BitVec 32 := 2#32
  let c128_i32_40 : BitVec 32 := 128#32
  let v78 : BitVec 32 := Scalar.muli c2_i32 c128_i32_40
  v78
def k0_mult4 : BitVec 32 :=
  let c3_i32 : BitVec 32 := 3#32
  let c128_i32_54 : BitVec 32 := 128#32
  let v108 : BitVec 32 := Scalar.muli c3_i32 c128_i32_54
  v108
def k0_mult5 : BitVec 32 :=
  let c4_i32 : BitVec 32 := 4#32
  let c128_i32_68 : BitVec 32 := 128#32
  let v138 : BitVec 32 := Scalar.muli c4_i32 c128_i32_68
  v138
def k0_mult6 : BitVec 32 :=
  let c5_i32 : BitVec 32 := 5#32
  let c128_i32_82 : BitVec 32 := 128#32
  let v168 : BitVec 32 := Scalar.muli c5_i32 c128_i32_82
  v168
def k0_mult7 : BitVec 32 :=
  let c6_i32 : BitVec 32 := 6#32
  let c128_i32_96 : BitVec 32 := 128#32
  let v198 : BitVec 32 := Scalar.muli c6_i32 c128_i32_96
  v198
def k0_mult8 : BitVec 32 :=
  let c7_i32 : BitVec 32 := 7#32
  let c128_i32_110 : BitVec 32 := 128#32
  let v228 : BitVec 32 := Scalar.muli c7_i32 c128_i32_110
  v228
def k0_mult9 : BitVec 32 :=
  let c8_i32 : BitVec 32 := 8#32
  let c128_i32_124 : BitVec 32 := 128#32
  let v258 : BitVec 32 := Scalar.muli c8_i32 c128_i32_124
  v258
def k0_mult10 : BitVec 32 :=
  let c9_i32 : BitVec 32 := 9#32
  let c128_i32_138 : BitVec 32 := 128#32
  let v288 : BitVec 32 := Scalar.muli c9_i32 c128_i32_138
  v288
def k0_mult11 : BitVec 32 :=
  let c10_i32 : BitVec 32 := 10#32
  let c128_i32_152 : BitVec 32 := 128#32
  let v318 : BitVec 32 := Scalar.muli c10_i32 c128_i32_152
  v318
def k0_mult12 : BitVec 32 :=
  let c11_i32 : BitVec 32 := 11#32
  let c128_i32_166 : BitVec 32 := 128#32
  let v348 : BitVec 32 := Scalar.muli c11_i32 c128_i32_166
  v348
def k0_mult13 : BitVec 32 :=
  let c12_i32 : BitVec 32 := 12#32
  let c128_i32_180 : BitVec 32 := 128#32
  let v378 : BitVec 32 := Scalar.muli c12_i32 c128_i32_180
  v378
def k0_mult14 : BitVec 32 :=
  let c13_i32 : BitVec 32 := 13#32
  let c128_i32_194 : BitVec 32 := 128#32
  let v408 : BitVec 32 := Scalar.muli c13_i32 c128_i32_194
  v408
def k0_mult15 : BitVec 32 :=
  let c14_i32 : BitVec 32 := 14#32
  let c128_i32_208 : BitVec 32 := 128#32
  let v438 : BitVec 32 := Scalar.muli c14_i32 c128_i32_208
  v438
def k0_mult16 : BitVec 32 :=
  let c15_i32 : BitVec 32 := 15#32
  let c128_i32_222 : BitVec 32 := 128#32
  let v468 : BitVec 32 := Scalar.muli c15_i32 c128_i32_222
  v468
def k0_mult17 : BitVec 32 :=
  let c16_i32 : BitVec 32 := 16#32
  let c128_i32_236 : BitVec 32 := 128#32
  let v498 : BitVec 32 := Scalar.muli c16_i32 c128_i32_236
  v498
def k0_mult18 : BitVec 32 :=
  let c17_i32 : BitVec 32 := 17#32
  let c128_i32_250 : BitVec 32 := 128#32
  let v528 : BitVec 32 := Scalar.muli c17_i32 c128_i32_250
  v528
def k0_mult19 : BitVec 32 :=
  let c18_i32 : BitVec 32 := 18#32
  let c128_i32_264 : BitVec 32 := 128#32
  let v558 : BitVec 32 := Scalar.muli c18_i32 c128_i32_264
  v558
def k0_mult20 : BitVec 32 :=
  let c19_i32 : BitVec 32 := 19#32
  let c128_i32_278 : BitVec 32 := 128#32
  let v588 : BitVec 32 := Scalar.muli c19_i32 c128_i32_278
  v588
def k0_mult21 : BitVec 32 :=
  let c20_i32 : BitVec 32 := 20#32
  let c128_i32_292 : BitVec 32 := 128#32
  let v618 : BitVec 32 := Scalar.muli c20_i32 c128_i32_292
  v618
def k0_mult22 : BitVec 32 :=
  let c21_i32 : BitVec 32 := 21#32
  let c128_i32_306 : BitVec 32 := 128#32
  let v648 : BitVec 32 := Scalar.muli c21_i32 c128_i32_306
  v648
def k0_mult23 : BitVec 32 :=
  let c22_i32 : BitVec 32 := 22#32
  let c128_i32_320 : BitVec 32 := 128#32
  let v678 : BitVec 32 := Scalar.muli c22_i32 c128_i32_320
  v678
def k0_mult24 : BitVec 32 :=
  let c23_i32 : BitVec 32 := 23#32
  let c128_i32_334 : BitVec 32 := 128#32
  let v708 : BitVec 32 := Scalar.muli c23_i32 c128_i32_334
  v708
def k0_mult25 : BitVec 32 :=
  let c24_i32 : BitVec 32 := 24#32
  let c128_i32_348 : BitVec 32 := 128#32
  let v738 : BitVec 32 := Scalar.muli c24_i32 c128_i32_348
  v738
def k0_mult26 : BitVec 32 :=
  let c25_i32 : BitVec 32 := 25#32
  let c128_i32_362 : BitVec 32 := 128#32
  let v768 : BitVec 32 := Scalar.muli c25_i32 c128_i32_362
  v768
def k0_mult27 : BitVec 32 :=
  let c26_i32 : BitVec 32 := 26#32
  let c128_i32_376 : BitVec 32 := 128#32
  let v798 : BitVec 32 := Scalar.muli c26_i32 c128_i32_376
  v798
def k0_mult28 : BitVec 32 :=
  let c27_i32 : BitVec 32 := 27#32
  let c128_i32_390 : BitVec 32 := 128#32
  let v828 : BitVec 32 := Scalar.muli c27_i32 c128_i32_390
  v828
def k0_mult29 : BitVec 32 :=
  let c28_i32 : BitVec 32 := 28#32
  let c128_i32_404 : BitVec 32 := 128#32
  let v858 : BitVec 32 := Scalar.muli c28_i32 c128_i32_404
  v858
def k0_mult30 : BitVec 32 :=
  let c29_i32 : BitVec 32 := 29#32
  let c128_i32_418 : BitVec 32 := 128#32
  let v888 : BitVec 32 := Scalar.muli c29_i32 c128_i32_418
  v888
def k0_mult31 : BitVec 32 :=
  let c30_i32 : BitVec 32 := 30#32
  let c128_i32_432 : BitVec 32 := 128#32
  let v918 : BitVec 32 := Scalar.muli c30_i32 c128_i32_432
  v918
def k0_mult32 : BitVec 32 :=
  let c31_i32 : BitVec 32 := 31#32
  let c128_i32_446 : BitVec 32 := 128#32
  let v948 : BitVec 32 := Scalar.muli c31_i32 c128_i32_446
  v948
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  transposes_S128x32x1024_S32x128x1024_1_0_2 : S128x32x1024.Transposes [1, 0, 2] S32x128x1024
  shapeCasts_S32x128x1024_S4096x1024 : S32x128x1024.ShapeCasts S4096x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S4096x1024 : S1x1024.Broadcasts S4096x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S128x1024 : 0 < S128x1024.numel
  inb_S256x1024_S256x1024_0_0 : ∀ a, (![0, 0] : Fin 2 → Nat) a + S256x1024.size a ≤ S256x1024.size a
  h_S256x1024 : 0 < S256x1024.numel
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S4096x256_S32x128x256 : S4096x256.ShapeCasts S32x128x256
  transposes_S32x128x256_S128x32x256_1_0_2 : S32x128x256.Transposes [1, 0, 2] S128x32x256
  shapeCasts_S4096x512_S32x128x512 : S4096x512.ShapeCasts S32x128x512
  transposes_S32x128x512_S128x32x512_1_0_2 : S32x128x512.Transposes [1, 0, 2] S128x32x512
  slices_S128x32x512_S128x32x128_0_0_0 : S128x32x512.Slices ![0, 0, 0] S128x32x128
  slices_S128x32x512_S128x32x128_0_0_128 : S128x32x512.Slices ![0, 0, 128] S128x32x128
  slices_S128x32x512_S128x32x128_0_0_256 : S128x32x512.Slices ![0, 0, 256] S128x32x128
  slices_S128x32x512_S128x32x128_0_0_384 : S128x32x512.Slices ![0, 0, 384] S128x32x128
  dot_S4096x1024_S1024x1024_S4096x1024_1_0_0_1_n_n_wf : DotDims.WF S4096x1024 S1024x1024 S4096x1024 [1] [0] [0] [1] [] []
  dot_S128x256_S256x1024_S128x1024_1_0_0_1_n_n_wf : DotDims.WF S128x256 S256x1024 S128x1024 [1] [0] [0] [1] [] []
  dot_S4096x256_S256x512_S4096x512_1_0_0_1_n_n_wf : DotDims.WF S4096x256 S256x512 S4096x512 [1] [0] [0] [1] [] []
  hrank0 : 0 < grid0.rank
  k0_mult1_dvd : 128 ∣ k0_mult1.toNat
  k0_off1_inb : ∀ (r : Fin 32), ∀ a, (k0_off1 (BitVec.ofNat 32 r.val)) a + S128x1024.size a ≤ S4096x1024.size a
  k0_off2_inb : ∀ (r : Fin 32), ∀ a, (k0_off2 (BitVec.ofNat 32 r.val)) a + S128x256.size a ≤ S4096x256.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  k0_mult21_dvd : 128 ∣ k0_mult21.toNat
  k0_mult22_dvd : 128 ∣ k0_mult22.toNat
  k0_mult23_dvd : 128 ∣ k0_mult23.toNat
  k0_mult24_dvd : 128 ∣ k0_mult24.toNat
  k0_mult25_dvd : 128 ∣ k0_mult25.toNat
  k0_mult26_dvd : 128 ∣ k0_mult26.toNat
  k0_mult27_dvd : 128 ∣ k0_mult27.toNat
  k0_mult28_dvd : 128 ∣ k0_mult28.toNat
  k0_mult29_dvd : 128 ∣ k0_mult29.toNat
  k0_mult30_dvd : 128 ∣ k0_mult30.toNat
  k0_mult31_dvd : 128 ∣ k0_mult31.toNat
  k0_mult32_dvd : 128 ∣ k0_mult32.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .f32 = 32 ∨ (Rect.block (s := S4096x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x256.size a
  hwx0_6 : ∀ i : grid0.Coords, EltTy.bits .f32 = 32 ∨ (Rect.block (s := S4096x256) S4096x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S4096x512.size a
  hwx0_7 : ∀ i : grid0.Coords, EltTy.bits .f32 = 32 ∨ (Rect.block (s := S4096x512) S4096x512.size (cc0_transform_7 i) (hinb0_7 i)).WholeWords (EltTy.packing .f32)

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v1) S4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S4096x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S4096x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LstmSpec.lean ====
/-
  The recurrent cell of this kernel, one batch row at a time, on the extended reals.

  A batch row carries a hidden vector `h` and a cell vector `c`, both of length 256, starting at zero. At time step
  `s` the row's input vector (length 1024) is projected through the input weights and the bias is added; to that
  the hidden vector times the recurrent weights is added, giving 1024 gate pre-activations in four groups of 256:
  input, forget, candidate, output. The new cell vector is `σ(forget) · c + σ(input) · tanh(candidate)` and the new
  hidden vector `σ(output) · tanh(new cell)`. The hidden vectors of all steps are the first result; the classifier
  heads are the hidden vector times the head weights plus the head bias, cut into four groups of 128 columns.

  Nothing here depends on how rows are grouped into blocks: every quantity of a batch row is a function of that
  row's own inputs, and every sum runs over the same index in the same form on both sides, so no law of
  arithmetic beyond equality of the summands is needed (and no finiteness).
-/
import Idealize.ShloMosaic.Lib.ValueIdx
import Idealize.ShloMosaic.PureOps.Ideal

noncomputable section

open scoped BigOperators

namespace Cert.Lstm

open Idealize.ShloMosaic Idealize.ShloMosaic.ValueIdx

/-- The zero both state vectors start from (the f32 word of `0.0`, never evaluated). -/
def z : EReal := Ideal.ofBits .f32 0x00000000#32

/-- Column `o + j` of the 1024 gate columns: the `j`-th column of the group that starts at `o`. -/
def col (o : ℕ) (ho : o + 256 ≤ 1024) (j : Fin 256) : Fin 1024 := ⟨o + j.val, by have := j.isLt; omega⟩

/-- The gate pre-activations of one row: the projected input plus the hidden vector times the recurrent weights. -/
def gate (W : Fin 256 → Fin 1024 → EReal) (g : Fin 1024 → EReal) (h : Fin 256 → EReal) (n : Fin 1024) : EReal :=
  g n + ∑ k : Fin 256, h k * W k n

/-- The new cell vector: `σ(forget) · c + σ(input) · tanh(candidate)`. -/
def cellC (W : Fin 256 → Fin 1024 → EReal) (g : Fin 1024 → EReal) (h c : Fin 256 → EReal) (j : Fin 256) : EReal :=
  Ideal.logistic (gate W g h (col 256 (by norm_num) j)) * c j
    + Ideal.logistic (gate W g h (col 0 (by norm_num) j)) * Ideal.tanh (gate W g h (col 512 (by norm_num) j))

/-- The new hidden vector: `σ(output) · tanh(new cell)`. -/
def cellH (W : Fin 256 → Fin 1024 → EReal) (g : Fin 1024 → EReal) (h c : Fin 256 → EReal) (j : Fin 256) : EReal :=
  Ideal.logistic (gate W g h (col 768 (by norm_num) j)) * Ideal.tanh (cellC W g h c j)

/-- The row's (hidden, cell) pair after `s` steps, the step `s` input being `G s`. -/
def rowState (W : Fin 256 → Fin 1024 → EReal) (G : ℕ → Fin 1024 → EReal) :
    ℕ → (Fin 256 → EReal) × (Fin 256 → EReal)
  | 0 => (fun _ => z, fun _ => z)
  | s + 1 => (cellH W (G s) (rowState W G s).1 (rowState W G s).2, cellC W (G s) (rowState W G s).1 (rowState W G s).2)

theorem rowState_zero (W : Fin 256 → Fin 1024 → EReal) (G : ℕ → Fin 1024 → EReal) :
    rowState W G 0 = (fun _ => z, fun _ => z) := rfl

theorem rowState_succ (W : Fin 256 → Fin 1024 → EReal) (G : ℕ → Fin 1024 → EReal) (s : ℕ) :
    rowState W G (s + 1)
      = (cellH W (G s) (rowState W G s).1 (rowState W G s).2, cellC W (G s) (rowState W G s).1 (rowState W G s).2) := rfl

/-- The state depends on the inputs of the steps taken only. -/
theorem rowState_congr (W : Fin 256 → Fin 1024 → EReal) (G G' : ℕ → Fin 1024 → EReal) :
    ∀ s : ℕ, (∀ r, r < s → G r = G' r) → rowState W G s = rowState W G' s
  | 0, _ => rfl
  | s + 1, h => by
    rw [rowState_succ, rowState_succ, rowState_congr W G G' s (fun r hr => h r (Nat.lt_succ_of_lt hr)),
      h s (Nat.lt_succ_self s)]

/-! ## The arrays -/

abbrev SX : Shape := ⟨3, ![128, 32, 1024]⟩
abbrev SWih : Shape := ⟨2, ![1024, 1024]⟩
abbrev SWhh : Shape := ⟨2, ![256, 1024]⟩
abbrev SB : Shape := ⟨2, ![1, 1024]⟩
abbrev SFw : Shape := ⟨2, ![256, 512]⟩
abbrev SFb : Shape := ⟨2, ![1, 512]⟩

/-- Time step `s` as a coordinate of the 32 steps (steps past the last wrap; none is ever taken). -/
def tm (s : ℕ) : Fin 32 := ⟨s % 32, Nat.mod_lt _ (by norm_num)⟩

theorem tm_val_of_lt {s : ℕ} (h : s < 32) : (tm s).val = s := Nat.mod_eq_of_lt h

theorem tm_fin (s : Fin 32) : tm s.val = s := Fin.ext (Nat.mod_eq_of_lt s.isLt)

/-- The projected input of batch row `B` at step `s`: its input vector times the input weights, plus the bias. -/
def proj (x : SX.Idx → EReal) (wih : SWih.Idx → EReal) (b : SB.Idx → EReal) (B : Fin 128) (s : ℕ) (n : Fin 1024) :
    EReal :=
  (∑ k : Fin 1024, x (ix3 B (tm s) k) * wih (ix2 k n)) + b (ix2 (0 : Fin 1) n)

/-- The recurrent weights as a function of two coordinates. -/
def wmat (whh : SWhh.Idx → EReal) : Fin 256 → Fin 1024 → EReal := fun k n => whh (ix2 k n)

/-- Batch row `B`'s (hidden, cell) pair after `s` steps. -/
def hidden (x : SX.Idx → EReal) (wih : SWih.Idx → EReal) (whh : SWhh.Idx → EReal) (b : SB.Idx → EReal)
    (B : Fin 128) (s : ℕ) : (Fin 256 → EReal) × (Fin 256 → EReal) :=
  rowState (wmat whh) (proj x wih b B) s

/-- The hidden state of row `B` after step `s` (that is, after `s + 1` steps), entry `j`. -/
def hid (x : SX.Idx → EReal) (wih : SWih.Idx → EReal) (whh : SWhh.Idx → EReal) (b : SB.Idx → EReal)
    (B : Fin 128) (s : Fin 32) (j : Fin 256) : EReal :=
  (hidden x wih whh b B (s.val + 1)).1 j

/-- All four heads side by side for row `B` at step `s`, column `n`: the hidden state times the head weights, plus the
    head bias. -/
def heads (x : SX.Idx → EReal) (wih : SWih.Idx → EReal) (whh : SWhh.Idx → EReal) (b : SB.Idx → EReal)
    (fcw : SFw.Idx → EReal) (fcb : SFb.Idx → EReal) (B : Fin 128) (s : Fin 32) (n : Fin 512) : EReal :=
  (∑ k : Fin 256, hid x wih whh b B s k * fcw (ix2 k n)) + fcb (ix2 (0 : Fin 1) n)

/-- The first result, batch-major: `[128, 32, 256]`. -/
def rOut (x : SX.Idx → EReal) (wih : SWih.Idx → EReal) (whh : SWhh.Idx → EReal) (b : SB.Idx → EReal) :
    (⟨3, ![128, 32, 256]⟩ : Shape).Idx → EReal := fun i => hid x wih whh b (i 0) (i 1) (i 2)

/-- Head `f` (columns `128 f … 128 f + 127` of the four), batch-major: `[128, 32, 128]`. -/
def headOut (f : ℕ) (hf : 128 * f + 128 ≤ 512) (x : SX.Idx → EReal) (wih : SWih.Idx → EReal) (whh : SWhh.Idx → EReal)
    (b : SB.Idx → EReal) (fcw : SFw.Idx → EReal) (fcb : SFb.Idx → EReal) :
    (⟨3, ![128, 32, 128]⟩ : Shape).Idx → EReal :=
  fun i => heads x wih whh b fcw fcb (i 0) (i 1) ⟨128 * f + (i 2).val, by have h2 : (i 2).val < 128 := (i 2).isLt; omega⟩

/-- The hidden states time-major, `[32, 128, 256]`: what either kernel writes before the host's transposition. -/
def rOutT (x : SX.Idx → EReal) (wih : SWih.Idx → EReal) (whh : SWhh.Idx → EReal) (b : SB.Idx → EReal) :
    (⟨3, ![32, 128, 256]⟩ : Shape).Idx → EReal := fun i => hid x wih whh b (i 1) (i 0) (i 2)

/-- The four heads time-major, `[32, 128, 512]`. -/
def headsT (x : SX.Idx → EReal) (wih : SWih.Idx → EReal) (whh : SWhh.Idx → EReal) (b : SB.Idx → EReal)
    (fcw : SFw.Idx → EReal) (fcb : SFb.Idx → EReal) :
    (⟨3, ![32, 128, 512]⟩ : Shape).Idx → EReal := fun i => heads x wih whh b fcw fcb (i 1) (i 0) (i 2)

/-- Row `ρ` of the 4096 flattened (step, batch) rows: its step and its batch row. -/
def rowStep (ρ : Fin 4096) : Fin 32 := ⟨ρ.val / 128, by have := ρ.isLt; omega⟩
def rowBatch (ρ : Fin 4096) : Fin 128 := ⟨ρ.val % 128, Nat.mod_lt _ (by norm_num)⟩

/-- The hidden states with (step, batch) flattened, `[4096, 256]`. -/
def rOutF (x : SX.Idx → EReal) (wih : SWih.Idx → EReal) (whh : SWhh.Idx → EReal) (b : SB.Idx → EReal) :
    (⟨2, ![4096, 256]⟩ : Shape).Idx → EReal := fun i => hid x wih whh b (rowBatch (i 0)) (rowStep (i 0)) (i 1)

/-- The four heads with (step, batch) flattened, `[4096, 512]`. -/
def headsF (x : SX.Idx → EReal) (wih : SWih.Idx → EReal) (whh : SWhh.Idx → EReal) (b : SB.Idx → EReal)
    (fcw : SFw.Idx → EReal) (fcb : SFb.Idx → EReal) :
    (⟨2, ![4096, 512]⟩ : Shape).Idx → EReal :=
  fun i => heads x wih whh b fcw fcb (rowBatch (i 0)) (rowStep (i 0)) (i 1)

/-- The flattened row of step `s` and batch row `B`: `128 s + B`. -/
def flatRow (s : Fin 32) (B : Fin 128) : Fin 4096 := ⟨128 * s.val + B.val, by have := s.isLt; have := B.isLt; omega⟩

theorem rowStep_flatRow (s : Fin 32) (B : Fin 128) : rowStep (flatRow s B) = s := by
  apply Fin.ext; show (128 * s.val + B.val) / 128 = s.val
  have := B.isLt; omega

theorem rowBatch_flatRow (s : Fin 32) (B : Fin 128) : rowBatch (flatRow s B) = B := by
  apply Fin.ext; show (128 * s.val + B.val) % 128 = B.val
  have := B.isLt; omega

theorem flatRow_rowStep_rowBatch (ρ : Fin 4096) : flatRow (rowStep ρ) (rowBatch ρ) = ρ := by
  apply Fin.ext; show 128 * (ρ.val / 128) + ρ.val % 128 = ρ.val
  omega

end Cert.Lstm

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibRow.lean ====
/- A row broadcast down the rows of a matrix, read at an index.  General: any element type, any extents.
   An `[1, b]` row broadcast to `[a, b]` holds at `(i, j)` the row's entry of column `j`; with `b = 1` this is
   the broadcast of a single entry down a column. -/
import Idealize.ShloMosaic.Lib.ValueIdx
import Idealize.ShloMosaic.Lib.Pipeline.Value
import Idealize.ShloMosaic.Lib.ValueLayout

noncomputable section

namespace Cert.LibRow

open Idealize.ShloMosaic Idealize.ShloMosaic.ValueIdx

/-- A `[1, b]` row broadcast to `[a, b]` reads, at `(i, j)`, the row's entry of column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRow

end
-- ==== Proof.LstmVec.lean ====
/-
  The cell on whole arrays of R rows, and that it is the row recurrence of LstmSpec, row by row.

  A block of R batch rows carries its hidden and cell vectors as two [R, 256] arrays. One step adds to the block's
  [R, 1024] projected inputs the hidden array times the [256, 1024] recurrent weights (a matrix product into the zero
  accumulator), cuts the result into four [R, 256] groups of columns, and combines them elementwise. Row `b` of every
  array in that step depends on row `b` of the operands only: entry `(b, n)` of the matrix product is the sum over `k`
  of `h (b, k) · W (k, n)`, and every other operation is elementwise or a cut of columns. So the block computation, read
  at row `b`, is the one-row recurrence `rowState`, for any number of rows R. The input projection and the classifier
  heads are likewise a matrix product plus a row broadcast down the rows, read entry by entry.
-/
import proofs.«106864_g2000204369025975_pallaspilot1_7_1_alg».proof.Proof.LstmSpec
import proofs.«106864_g2000204369025975_pallaspilot1_7_1_alg».proof.Proof.LibMatmulIx
import proofs.«106864_g2000204369025975_pallaspilot1_7_1_alg».proof.Proof.LibRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lstm

open Idealize.ShloMosaic Idealize.ShloMosaic.ValueIdx

/-- The shape of a block's hidden or cell array, and of its gate array. -/
abbrev SH (R : ℕ) : Shape := ⟨2, ![R, 256]⟩
abbrev SG (R : ℕ) : Shape := ⟨2, ![R, 1024]⟩

/-- The shape facts the step's cuts and its (identity) cast use. -/
structure Wit (R : ℕ) : Prop where
  s0 : (SG R).Slices ![0, 0] (SH R)
  s256 : (SG R).Slices ![0, 256] (SH R)
  s512 : (SG R).Slices ![0, 512] (SH R)
  s768 : (SG R).Slices ![0, 768] (SH R)
  cast : (SH R).ShapeCasts (SH R)

section AnyInstance

variable {F : FTy → Type} [FloatOps F]

/-- The gate array: projected inputs plus hidden array times recurrent weights. -/
def vGate {R : ℕ} (W : FVec F SWhh .f32) (g : FVec F (SG R) .f32) (h : FVec F (SH R) .f32) : FVec F (SG R) .f32 :=
  addf g (matmul (DotDims.plain R 256 1024) none h W (constant (SG R) .f32 0x00000000#32))

/-- The new cell array. -/
def vC {R : ℕ} (w : Wit R) (W : FVec F SWhh .f32) (g : FVec F (SG R) .f32) (h c : FVec F (SH R) .f32) :
    FVec F (SH R) .f32 :=
  addf (mulf (logistic (extractStridedSlice (SH R) ![0, 256] (vGate W g h) w.s256)) c)
    (mulf (logistic (extractStridedSlice (SH R) ![0, 0] (vGate W g h) w.s0))
      (tanh (extractStridedSlice (SH R) ![0, 512] (vGate W g h) w.s512)))

/-- The new hidden array. -/
def vH {R : ℕ} (w : Wit R) (W : FVec F SWhh .f32) (g : FVec F (SG R) .f32) (h c : FVec F (SH R) .f32) :
    FVec F (SH R) .f32 :=
  mulf (logistic (extractStridedSlice (SH R) ![0, 768] (vGate W g h) w.s768)) (tanh (vC w W g h c))

/-- The array both states start from: the zero word everywhere. -/
def vZero (R : ℕ) (w : Wit R) : FVec F (SH R) .f32 :=
  shapeCast (SH R) (broadcast (SH R) (Scalar.ofBits .f32 0x00000000#32 : F .f32)) w.cast

/-- The block's (hidden, cell) arrays after `s` steps, the step `s` projected inputs being `G s`. -/
def vState {R : ℕ} (w : Wit R) (W : FVec F SWhh .f32) (G : ℕ → FVec F (SG R) .f32) :
    ℕ → FVec F (SH R) .f32 × FVec F (SH R) .f32
  | 0 => (vZero R w, vZero R w)
  | s + 1 => (shapeCast (SH R) (vH w W (G s) (vState w W G s).1 (vState w W G s).2) w.cast,
      shapeCast (SH R) (vC w W (G s) (vState w W G s).1 (vState w W G s).2) w.cast)

theorem vState_zero {R : ℕ} (w : Wit R) (W : FVec F SWhh .f32) (G : ℕ → FVec F (SG R) .f32) :
    vState w W G 0 = (vZero R w, vZero R w) := rfl

theorem vState_succ {R : ℕ} (w : Wit R) (W : FVec F SWhh .f32) (G : ℕ → FVec F (SG R) .f32) (s : ℕ) :
    vState w W G (s + 1)
      = (shapeCast (SH R) (vH w W (G s) (vState w W G s).1 (vState w W G s).2) w.cast,
        shapeCast (SH R) (vC w W (G s) (vState w W G s).1 (vState w W G s).2) w.cast) := rfl

/-- A matrix product of an [N, K] array by a [K, M] array into the zero accumulator, plus a [1, M] row broadcast down the
    rows: the form of the input projection (K = 1024, M = 1024) and of the heads (K = 256, M = 512). -/
def vAffine {N K M : ℕ} (X : FVec F ⟨2, ![N, K]⟩ .f32) (A : FVec F ⟨2, ![K, M]⟩ .f32) (r : FVec F ⟨2, ![1, M]⟩ .f32)
    (hb : (⟨2, ![1, M]⟩ : Shape).Broadcasts ⟨2, ![N, M]⟩) : FVec F ⟨2, ![N, M]⟩ .f32 :=
  addf (matmul (DotDims.plain N K M) none X A (constant ⟨2, ![N, M]⟩ .f32 0x00000000#32)) (broadcastTo ⟨2, ![N, M]⟩ r hb)

end AnyInstance

/-! ## Read at an index, on the extended reals -/

/-- A cut of 256 columns starting at column `o` of an [R, 1024] array, read at `(b, j)`: the array at `(b, o + j)`.
    The row offset is zero, so the row coordinate is unchanged. -/
theorem cut_apply {α : Type} {R : ℕ} (o : ℕ) (ho : o + 256 ≤ 1024) (x : (SG R).Idx → α)
    (hs : (SG R).Slices ![0, o] (SH R)) (b : Fin R) (j : Fin 256) :
    extractStridedSlice (SH R) ![0, o] x hs (ix2 b j) = x (ix2 b (col o ho j)) := by
  refine extractStridedSlice_apply _ x hs (ix2 b j) (ix2 b (col o ho j)) fun a => ?_
  match a with
  | ⟨0, _⟩ => show b.val = 0 + b.val; omega
  | ⟨1, _⟩ => rfl

/-- Entry `(b, n)` of the gate array is the row's gate `n`. -/
theorem vGate_apply {R : ℕ} (W : FVec Ideal SWhh .f32) (g : FVec Ideal (SG R) .f32) (h : FVec Ideal (SH R) .f32)
    (b : Fin R) (n : Fin 1024) :
    vGate W g h (ix2 b n) = gate (wmat W) (fun n => g (ix2 b n)) (fun k => h (ix2 b k)) n := by
  show g (ix2 b n)
      + matmul (DotDims.plain R 256 1024) none h W (constant (F := Ideal) (SG R) .f32 0x00000000#32) (ix2 b n) = _
  exact congrArg (fun t => g (ix2 b n) + t) (Cert.LibMatmulIx.matmul_zero_apply _ none h W b n)

/-- Entry `(b, j)` of the new cell array is the row's new cell entry `j`. -/
theorem vC_apply {R : ℕ} (w : Wit R) (W : FVec Ideal SWhh .f32) (g : FVec Ideal (SG R) .f32)
    (h c : FVec Ideal (SH R) .f32) (b : Fin R) (j : Fin 256) :
    vC w W g h c (ix2 b j)
      = cellC (wmat W) (fun n => g (ix2 b n)) (fun k => h (ix2 b k)) (fun k => c (ix2 b k)) j := by
  show Ideal.logistic (extractStridedSlice (SH R) ![0, 256] (vGate W g h) w.s256 (ix2 b j)) * c (ix2 b j)
      + Ideal.logistic (extractStridedSlice (SH R) ![0, 0] (vGate W g h) w.s0 (ix2 b j))
        * Ideal.tanh (extractStridedSlice (SH R) ![0, 512] (vGate W g h) w.s512 (ix2 b j)) = _
  rw [cut_apply 256 (by norm_num) (vGate W g h) w.s256 b j, cut_apply 0 (by norm_num) (vGate W g h) w.s0 b j,
    cut_apply 512 (by norm_num) (vGate W g h) w.s512 b j, vGate_apply, vGate_apply, vGate_apply]
  rfl

/-- Entry `(b, j)` of the new hidden array is the row's new hidden entry `j`. -/
theorem vH_apply {R : ℕ} (w : Wit R) (W : FVec Ideal SWhh .f32) (g : FVec Ideal (SG R) .f32)
    (h c : FVec Ideal (SH R) .f32) (b : Fin R) (j : Fin 256) :
    vH w W g h c (ix2 b j)
      = cellH (wmat W) (fun n => g (ix2 b n)) (fun k => h (ix2 b k)) (fun k => c (ix2 b k)) j := by
  show Ideal.logistic (extractStridedSlice (SH R) ![0, 768] (vGate W g h) w.s768 (ix2 b j))
      * Ideal.tanh (vC w W g h c (ix2 b j)) = _
  rw [cut_apply 768 (by norm_num) (vGate W g h) w.s768 b j, vGate_apply, vC_apply]
  rfl

/-- Row `b` of the block's states after `s` steps is the row recurrence on row `b` of the projected inputs. -/
theorem vState_apply {R : ℕ} (w : Wit R) (W : FVec Ideal SWhh .f32) (G : ℕ → FVec Ideal (SG R) .f32) (b : Fin R) :
    ∀ s : ℕ, (fun j : Fin 256 => (vState w W G s).1 (ix2 b j), fun j : Fin 256 => (vState w W G s).2 (ix2 b j))
      = rowState (wmat W) (fun s n => G s (ix2 b n)) s := by
  intro s
  induction s with
  | zero =>
    rw [vState_zero, rowState_zero]
    show (fun j : Fin 256 => vZero R w (ix2 b j), fun j : Fin 256 => vZero R w (ix2 b j)) = _
    unfold vZero
    rw [shapeCast_self]
    rfl
  | succ s ih =>
    have h1 : (fun k : Fin 256 => (vState w W G s).1 (ix2 b k))
        = (rowState (wmat W) (fun s n => G s (ix2 b n)) s).1 := congrArg Prod.fst ih
    have h2 : (fun k : Fin 256 => (vState w W G s).2 (ix2 b k))
        = (rowState (wmat W) (fun s n => G s (ix2 b n)) s).2 := congrArg Prod.snd ih
    rw [vState_succ, rowState_succ, ← h1, ← h2]
    show (fun j : Fin 256 => shapeCast (SH R) (vH w W (G s) (vState w W G s).1 (vState w W G s).2) w.cast (ix2 b j),
        fun j : Fin 256 => shapeCast (SH R) (vC w W (G s) (vState w W G s).1 (vState w W G s).2) w.cast (ix2 b j)) = _
    rw [shapeCast_self, shapeCast_self]
    exact Prod.ext (funext fun j => vH_apply w W (G s) _ _ b j) (funext fun j => vC_apply w W (G s) _ _ b j)

/-- Entry `(a, n)` of a product-plus-row-broadcast: the sum over the contracted coordinate, plus the row's entry. -/
theorem vAffine_apply {N K M : ℕ} (X : FVec Ideal ⟨2, ![N, K]⟩ .f32) (A : FVec Ideal ⟨2, ![K, M]⟩ .f32)
    (r : FVec Ideal ⟨2, ![1, M]⟩ .f32) (hb : (⟨2, ![1, M]⟩ : Shape).Broadcasts ⟨2, ![N, M]⟩) (a : Fin N) (n : Fin M) :
    vAffine X A r hb (ix2 a n) = (∑ k : Fin K, X (ix2 a k) * A (ix2 k n)) + r (ix2 (0 : Fin 1) n) := by
  show matmul (DotDims.plain N K M) none X A (constant (F := Ideal) ⟨2, ![N, M]⟩ .f32 0x00000000#32) (ix2 a n)
      + broadcastTo ⟨2, ![N, M]⟩ r hb (ix2 a n) = _
  exact congrArg₂ (fun s t => s + t) (Cert.LibMatmulIx.matmul_zero_apply _ none X A a n)
    (Cert.LibRow.broadcastTo_1b_ab_apply r hb a n)

end Cert.Lstm

end
-- ==== Proof.LibWholeStore.lean ====
/-
  A buffer written whole by ONE store and then read through any rectangle: the load reads the stored value through the
  rectangle, whatever the buffer held before. (A cache filled at one step of a kernel body and read back in slices later
  in the same body.)
-/
import Idealize.ShloMosaic.Lib.Pipeline.Value
import Idealize.ShloMosaic.Lib.Pipeline.FrameBody

noncomputable section

namespace Cert.LibWholeStore

open Idealize.ShloMosaic

/-- A load through any rectangle `B`, after one store through the whole-shape rectangle at zero offsets (however the
    zeros are spelt), reads the stored value `w` through `B`. -/
theorem readCov_whole_piece {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (B : Rect S) :
    v.readCov [(⟨Rect.unit off S.size inb, w⟩ : View.Piece Val S e)] B.toLoadRect = View.ld w B := by
  subst h
  rw [View.readCov_eq_canon_ld _ _ _ (fun y => ⟨_, List.mem_singleton_self _, by
    show y ∈ (Rect.whole S).set; rw [Rect.set_whole]; exact Finset.mem_univ y⟩), View.canon_unit_zero rfl]

end Cert.LibWholeStore

end
-- ==== Proof.KSteps.lean ====
/-
  The kernel body's 32 steps, one after the other, as the block recurrence of LstmVec.

  The body first stores the projected inputs of all 32 steps of its 64 rows as one [2048, 1024] array, zeroes the
  hidden and cell arrays, and then at step s reads rows 64 s … 64 s + 63 of the projected inputs and the two state
  arrays, and stores the new cell array, the new hidden array, and the new hidden array again as slab s of the
  output block. Each load reads what the latest store of the whole array left. So the hidden and cell arrays the
  step-s loads see are the block recurrence after s steps, and slab s of the output is the new hidden array of step s.
-/
import proofs.«106864_g2000204369025975_pallaspilot1_7_1_alg».proof.Proof.Gen.KernelIdeal.Frame
import proofs.«106864_g2000204369025975_pallaspilot1_7_1_alg».proof.Proof.LstmVec
import proofs.«106864_g2000204369025975_pallaspilot1_7_1_alg».proof.Proof.LibWholeStore

set_option maxRecDepth 16384

noncomputable section

open scoped BigOperators

namespace Cert.KernelIdeal.KV

open Idealize.ShloMosaic Idealize.ShloMosaic.TcCoe Idealize.ShloMosaic.ValueIdx
open Idealize.SL.Sem
open Cert.KernelIdeal Cert.KernelIdeal.Gen Cert.Lstm

variable {F : FTy → Type} [FloatOps F]

/-- The cuts and the identity cast of a 64-row step. -/
theorem witK : Wit 64 := ⟨slices_S64x1024_o0_0_S64x256, slices_S64x1024_o0_256_S64x256, slices_S64x1024_o0_512_S64x256, slices_S64x1024_o0_768_S64x256, shapeCasts_S64x256_S64x256⟩

/-- Rows `64 s … 64 s + 63` lie inside the 2048 rows. -/
theorem inbG (s : ℕ) : ∀ a : Fin 2, (![64 * (s % 32), 0] : Fin 2 → ℕ) a + S64x1024.size a ≤ S2048x1024.size a := by
  intro a
  have := Nat.mod_lt s (by norm_num : 32 > 0)
  match a with
  | ⟨0, _⟩ => show 64 * (s % 32) + 64 ≤ 2048; omega
  | ⟨1, _⟩ => show 0 + 1024 ≤ 1024; omega

/-- The projected inputs of the block, all 32 steps stacked: the input block flattened to [2048, 1024], times the input
    weights, plus the bias row. -/
def gxK (arg1 : Memref sig .tc .vmem S32x64x1024 .f32) (harg1 : arg1.IsWhole) (arg2 : Memref sig .tc .vmem S1024x1024 .f32) (harg2 : arg2.IsWhole) (arg4 : Memref sig .tc .vmem S1x1024 .f32) (harg4 : arg4.IsWhole) (x0 : Vec F S32x64x1024 .f32) (x1 : Vec F S1024x1024 .f32) (x3 : Vec F S1x1024 .f32) : FVec F S2048x1024 .f32 :=
  k0_pay4 (View.readAt (Elt F) arg1.view (Rect.unit ![0, 0, 0] S32x64x1024.size inb_S32x64x1024_S32x64x1024_0_0_0).toLoadRect (harg1.unread x0))
    (View.readAt (Elt F) arg2.view (Rect.unit ![0, 0] S1024x1024.size inb_S1024x1024_S1024x1024_0_0).toLoadRect (harg2.unread x1))
    (View.readAt (Elt F) arg4.view (Rect.unit ![0, 0] S1x1024.size inb_S1x1024_S1x1024_0_0).toLoadRect (harg4.unread x3))

/-- The projected inputs of step `s`: rows `64 s … 64 s + 63` of the stack. -/
def GK (arg1 : Memref sig .tc .vmem S32x64x1024 .f32) (harg1 : arg1.IsWhole) (arg2 : Memref sig .tc .vmem S1024x1024 .f32) (harg2 : arg2.IsWhole) (arg4 : Memref sig .tc .vmem S1x1024 .f32) (harg4 : arg4.IsWhole) (x0 : Vec F S32x64x1024 .f32) (x1 : Vec F S1024x1024 .f32) (x3 : Vec F S1x1024 .f32) (s : ℕ) : FVec F (SG 64) .f32 :=
  fun y => gxK arg1 harg1 arg2 harg2 arg4 harg4 x0 x1 x3 ((Rect.unit (s := S2048x1024) ![64 * (s % 32), 0] S64x1024.size (inbG s)).idx y)

/-- The recurrent weights as the body reads them. -/
def WK (c : Dev nD) (arg3 : Memref sig .tc .vmem S256x1024 .f32) (harg3 : arg3.IsWhole) (x2 : Vec F S256x1024 .f32) : FVec F SWhh .f32 := kernelRun0_A.sl.r c arg3 harg3 x2

/-- The block's (hidden, cell) arrays after `s` steps. -/
def stK (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S32x64x1024 .f32) (x1 : Vec F S1024x1024 .f32) (x2 : Vec F S256x1024 .f32) (x3 : Vec F S1x1024 .f32) (s : ℕ) : FVec F (SH 64) .f32 × FVec F (SH 64) .f32 := vState witK (WK c arg3 harg3 x2) (GK arg1 harg1 arg2 harg2 arg4 harg4 x0 x1 x3) s

/-- The new hidden array of step `s`, as stored into slab `s` of the output (before the cast to a one-slab array). -/
def hRaw (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S32x64x1024 .f32) (x1 : Vec F S1024x1024 .f32) (x2 : Vec F S256x1024 .f32) (x3 : Vec F S1x1024 .f32) (s : ℕ) : FVec F (SH 64) .f32 := vH witK (WK c arg3 harg3 x2) (GK arg1 harg1 arg2 harg2 arg4 harg4 x0 x1 x3 s) (stK c arg1 harg1 arg2 harg2 arg3 harg3 arg4 harg4 x0 x1 x2 x3 s).1 (stK c arg1 harg1 arg2 harg2 arg3 harg3 arg4 harg4 x0 x1 x2 x3 s).2

/-- A load of any rows of the projected-input scratch reads the stack through those rows. -/
theorem gload (c : Dev nD) (arg1 : Memref sig .tc .vmem S32x64x1024 .f32) (harg1 : arg1.IsWhole) (arg2 : Memref sig .tc .vmem S1024x1024 .f32) (harg2 : arg2.IsWhole) (arg4 : Memref sig .tc .vmem S1x1024 .f32) (harg4 : arg4.IsWhole) (arg9 : Memref sig .tc .vmem S2048x1024 .f32) (x0 : Vec F S32x64x1024 .f32) (x1 : Vec F S1024x1024 .f32) (x3 : Vec F S1x1024 .f32) (B : Rect S2048x1024) :
    arg9.view.readCov (kernelRun0_A.sl.HS0_1 c arg1 harg1 arg2 harg2 arg4 harg4 x0 x1 x3) B.toLoadRect = View.ld (gxK arg1 harg1 arg2 harg2 arg4 harg4 x0 x1 x3) B := by
  unfold kernelRun0_A.sl.HS0_1
  exact Cert.LibWholeStore.readCov_whole_piece arg9.view (off := ![0, 0]) (by funext a; match a with | ⟨0, _⟩ => rfl | ⟨1, _⟩ => rfl) inb_S2048x1024_S2048x1024_0_0 _ B

theorem gK_0 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v20 c arg1 harg1 arg2 harg2 arg4 harg4 arg9 x0 x1 x3 = GK arg1 harg1 arg2 harg2 arg4 harg4 x0 x1 x3 0 := by
  unfold kernelRun0_A.sl.v20
  exact gload c arg1 harg1 arg2 harg2 arg4 harg4 arg9 x0 x1 x3 _

theorem gK_1 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v47 c arg1 harg1 arg2 harg2 arg4 harg4 arg9 x0 x1 x3 = GK arg1 harg1 arg2 harg2 arg4 harg4 x0 x1 x3 1 := by
  unfold kernelRun0_A.sl.v47
  exact gload c arg1 harg1 arg2 harg2 arg4 harg4 arg9 x0 x1 x3 _

theorem gK_2 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v74 c arg1 harg1 arg2 harg2 arg4 harg4 arg9 x0 x1 x3 = GK arg1 harg1 arg2 harg2 arg4 harg4 x0 x1 x3 2 := by
  unfold kernelRun0_A.sl.v74
  exact gload c arg1 harg1 arg2 harg2 arg4 harg4 arg9 x0 x1 x3 _

theorem gK_3 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v101 c arg1 harg1 arg2 harg2 arg4 harg4 arg9 x0 x1 x3 = GK arg1 harg1 arg2 harg2 arg4 harg4 x0 x1 x3 3 := by
  unfold kernelRun0_A.sl.v101
  exact gload c arg1 harg1 arg2 harg2 arg4 harg4 arg9 x0 x1 x3 _

theorem gK_4 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v128 c arg1 harg1 arg2 harg2 arg4 harg4 arg9 x0 x1 x3 = GK arg1 harg1 arg2 harg2 arg4 harg4 x0 x1 x3 4 := by
  unfold kernelRun0_A.sl.v128
  exact gload c arg1 harg1 arg2 harg2 arg4 harg4 arg9 x0 x1 x3 _

theorem gK_5 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v155 c arg1 harg1 arg2 harg2 arg4 harg4 arg9 x0 x1 x3 = GK arg1 harg1 arg2 harg2 arg4 harg4 x0 x1 x3 5 := by
  unfold kernelRun0_A.sl.v155
  exact gload c arg1 harg1 arg2 harg2 arg4 harg4 arg9 x0 x1 x3 _

theorem gK_6 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v182 c arg1 harg1 arg2 harg2 arg4 harg4 arg9 x0 x1 x3 = GK arg1 harg1 arg2 harg2 arg4 harg4 x0 x1 x3 6 := by
  unfold kernelRun0_A.sl.v182
  exact gload c arg1 harg1 arg2 harg2 arg4 harg4 arg9 x0 x1 x3 _

theorem gK_7 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v209 c arg1 harg1 arg2 harg2 arg4 harg4 arg9 x0 x1 x3 = GK arg1 harg1 arg2 harg2 arg4 harg4 x0 x1 x3 7 := by
  unfold kernelRun0_A.sl.v209
  exact gload c arg1 harg1 arg2 harg2 arg4 harg4 arg9 x0 x1 x3 _

theorem gK_8 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v236 c arg1 harg1 arg2 harg2 arg4 harg4 arg9 x0 x1 x3 = GK arg1 harg1 arg2 harg2 arg4 harg4 x0 x1 x3 8 := by
  unfold kernelRun0_A.sl.v236
  exact gload c arg1 harg1 arg2 harg2 arg4 harg4 arg9 x0 x1 x3 _

theorem gK_9 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v263 c arg1 harg1 arg2 harg2 arg4 harg4 arg9 x0 x1 x3 = GK arg1 harg1 arg2 harg2 arg4 harg4 x0 x1 x3 9 := by
  unfold kernelRun0_A.sl.v263
  exact gload c arg1 harg1 arg2 harg2 arg4 harg4 arg9 x0 x1 x3 _

theorem gK_10 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v290 c arg1 harg1 arg2 harg2 arg4 harg4 arg9 x0 x1 x3 = GK arg1 harg1 arg2 harg2 arg4 harg4 x0 x1 x3 10 := by
  unfold kernelRun0_A.sl.v290
  exact gload c arg1 harg1 arg2 harg2 arg4 harg4 arg9 x0 x1 x3 _

theorem gK_11 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v317 c arg1 harg1 arg2 harg2 arg4 harg4 arg9 x0 x1 x3 = GK arg1 harg1 arg2 harg2 arg4 harg4 x0 x1 x3 11 := by
  unfold kernelRun0_A.sl.v317
  exact gload c arg1 harg1 arg2 harg2 arg4 harg4 arg9 x0 x1 x3 _

theorem gK_12 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v344 c arg1 harg1 arg2 harg2 arg4 harg4 arg9 x0 x1 x3 = GK arg1 harg1 arg2 harg2 arg4 harg4 x0 x1 x3 12 := by
  unfold kernelRun0_A.sl.v344
  exact gload c arg1 harg1 arg2 harg2 arg4 harg4 arg9 x0 x1 x3 _

theorem gK_13 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v371 c arg1 harg1 arg2 harg2 arg4 harg4 arg9 x0 x1 x3 = GK arg1 harg1 arg2 harg2 arg4 harg4 x0 x1 x3 13 := by
  unfold kernelRun0_A.sl.v371
  exact gload c arg1 harg1 arg2 harg2 arg4 harg4 arg9 x0 x1 x3 _

theorem gK_14 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v398 c arg1 harg1 arg2 harg2 arg4 harg4 arg9 x0 x1 x3 = GK arg1 harg1 arg2 harg2 arg4 harg4 x0 x1 x3 14 := by
  unfold kernelRun0_A.sl.v398
  exact gload c arg1 harg1 arg2 harg2 arg4 harg4 arg9 x0 x1 x3 _

theorem gK_15 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v425 c arg1 harg1 arg2 harg2 arg4 harg4 arg9 x0 x1 x3 = GK arg1 harg1 arg2 harg2 arg4 harg4 x0 x1 x3 15 := by
  unfold kernelRun0_A.sl.v425
  exact gload c arg1 harg1 arg2 harg2 arg4 harg4 arg9 x0 x1 x3 _

theorem gK_16 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v452 c arg1 harg1 arg2 harg2 arg4 harg4 arg9 x0 x1 x3 = GK arg1 harg1 arg2 harg2 arg4 harg4 x0 x1 x3 16 := by
  unfold kernelRun0_A.sl.v452
  exact gload c arg1 harg1 arg2 harg2 arg4 harg4 arg9 x0 x1 x3 _

theorem gK_17 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v479 c arg1 harg1 arg2 harg2 arg4 harg4 arg9 x0 x1 x3 = GK arg1 harg1 arg2 harg2 arg4 harg4 x0 x1 x3 17 := by
  unfold kernelRun0_A.sl.v479
  exact gload c arg1 harg1 arg2 harg2 arg4 harg4 arg9 x0 x1 x3 _

theorem gK_18 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v506 c arg1 harg1 arg2 harg2 arg4 harg4 arg9 x0 x1 x3 = GK arg1 harg1 arg2 harg2 arg4 harg4 x0 x1 x3 18 := by
  unfold kernelRun0_A.sl.v506
  exact gload c arg1 harg1 arg2 harg2 arg4 harg4 arg9 x0 x1 x3 _

theorem gK_19 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v533 c arg1 harg1 arg2 harg2 arg4 harg4 arg9 x0 x1 x3 = GK arg1 harg1 arg2 harg2 arg4 harg4 x0 x1 x3 19 := by
  unfold kernelRun0_A.sl.v533
  exact gload c arg1 harg1 arg2 harg2 arg4 harg4 arg9 x0 x1 x3 _

theorem gK_20 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v560 c arg1 harg1 arg2 harg2 arg4 harg4 arg9 x0 x1 x3 = GK arg1 harg1 arg2 harg2 arg4 harg4 x0 x1 x3 20 := by
  unfold kernelRun0_A.sl.v560
  exact gload c arg1 harg1 arg2 harg2 arg4 harg4 arg9 x0 x1 x3 _

theorem gK_21 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v587 c arg1 harg1 arg2 harg2 arg4 harg4 arg9 x0 x1 x3 = GK arg1 harg1 arg2 harg2 arg4 harg4 x0 x1 x3 21 := by
  unfold kernelRun0_A.sl.v587
  exact gload c arg1 harg1 arg2 harg2 arg4 harg4 arg9 x0 x1 x3 _

theorem gK_22 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v614 c arg1 harg1 arg2 harg2 arg4 harg4 arg9 x0 x1 x3 = GK arg1 harg1 arg2 harg2 arg4 harg4 x0 x1 x3 22 := by
  unfold kernelRun0_A.sl.v614
  exact gload c arg1 harg1 arg2 harg2 arg4 harg4 arg9 x0 x1 x3 _

theorem gK_23 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v641 c arg1 harg1 arg2 harg2 arg4 harg4 arg9 x0 x1 x3 = GK arg1 harg1 arg2 harg2 arg4 harg4 x0 x1 x3 23 := by
  unfold kernelRun0_A.sl.v641
  exact gload c arg1 harg1 arg2 harg2 arg4 harg4 arg9 x0 x1 x3 _

theorem gK_24 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v668 c arg1 harg1 arg2 harg2 arg4 harg4 arg9 x0 x1 x3 = GK arg1 harg1 arg2 harg2 arg4 harg4 x0 x1 x3 24 := by
  unfold kernelRun0_A.sl.v668
  exact gload c arg1 harg1 arg2 harg2 arg4 harg4 arg9 x0 x1 x3 _

theorem gK_25 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v695 c arg1 harg1 arg2 harg2 arg4 harg4 arg9 x0 x1 x3 = GK arg1 harg1 arg2 harg2 arg4 harg4 x0 x1 x3 25 := by
  unfold kernelRun0_A.sl.v695
  exact gload c arg1 harg1 arg2 harg2 arg4 harg4 arg9 x0 x1 x3 _

theorem gK_26 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v722 c arg1 harg1 arg2 harg2 arg4 harg4 arg9 x0 x1 x3 = GK arg1 harg1 arg2 harg2 arg4 harg4 x0 x1 x3 26 := by
  unfold kernelRun0_A.sl.v722
  exact gload c arg1 harg1 arg2 harg2 arg4 harg4 arg9 x0 x1 x3 _

theorem gK_27 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v749 c arg1 harg1 arg2 harg2 arg4 harg4 arg9 x0 x1 x3 = GK arg1 harg1 arg2 harg2 arg4 harg4 x0 x1 x3 27 := by
  unfold kernelRun0_A.sl.v749
  exact gload c arg1 harg1 arg2 harg2 arg4 harg4 arg9 x0 x1 x3 _

theorem gK_28 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v776 c arg1 harg1 arg2 harg2 arg4 harg4 arg9 x0 x1 x3 = GK arg1 harg1 arg2 harg2 arg4 harg4 x0 x1 x3 28 := by
  unfold kernelRun0_A.sl.v776
  exact gload c arg1 harg1 arg2 harg2 arg4 harg4 arg9 x0 x1 x3 _

theorem gK_29 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v803 c arg1 harg1 arg2 harg2 arg4 harg4 arg9 x0 x1 x3 = GK arg1 harg1 arg2 harg2 arg4 harg4 x0 x1 x3 29 := by
  unfold kernelRun0_A.sl.v803
  exact gload c arg1 harg1 arg2 harg2 arg4 harg4 arg9 x0 x1 x3 _

theorem gK_30 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v830 c arg1 harg1 arg2 harg2 arg4 harg4 arg9 x0 x1 x3 = GK arg1 harg1 arg2 harg2 arg4 harg4 x0 x1 x3 30 := by
  unfold kernelRun0_A.sl.v830
  exact gload c arg1 harg1 arg2 harg2 arg4 harg4 arg9 x0 x1 x3 _

theorem gK_31 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v857 c arg1 harg1 arg2 harg2 arg4 harg4 arg9 x0 x1 x3 = GK arg1 harg1 arg2 harg2 arg4 harg4 x0 x1 x3 31 := by
  unfold kernelRun0_A.sl.v857
  exact gload c arg1 harg1 arg2 harg2 arg4 harg4 arg9 x0 x1 x3 _

theorem hK_0 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v21 c arg10 = (stK c arg1 harg1 arg2 harg2 arg3 harg3 arg4 harg4 x0 x1 x2 x3 0).1 := by
  unfold kernelRun0_A.sl.v21 kernelRun0_A.sl.HS1_1
  rw [View.readCov_cons_toLoadRect]
  rfl

theorem cK_0 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v32 c arg11 = (stK c arg1 harg1 arg2 harg2 arg3 harg3 arg4 harg4 x0 x1 x2 x3 0).2 := by
  unfold kernelRun0_A.sl.v32 kernelRun0_A.sl.HS2_1
  rw [View.readCov_cons_toLoadRect]
  rfl

theorem hK_1 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v48 c arg1 harg1 arg2 harg2 arg3 harg3 arg4 harg4 arg9 arg10 arg11 x0 x1 x2 x3 = (stK c arg1 harg1 arg2 harg2 arg3 harg3 arg4 harg4 x0 x1 x2 x3 1).1 := by
  unfold kernelRun0_A.sl.v48 kernelRun0_A.sl.HS1_2
  rw [View.readCov_cons_toLoadRect]
  unfold kernelRun0_A.sl.r_1 kernelRun0_A.sl.r_2 kernelRun0_A.sl.r_3 kernelRun0_A.sl.r_4
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem cK_1 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v59 c arg1 harg1 arg2 harg2 arg3 harg3 arg4 harg4 arg9 arg10 arg11 x0 x1 x2 x3 = (stK c arg1 harg1 arg2 harg2 arg3 harg3 arg4 harg4 x0 x1 x2 x3 1).2 := by
  unfold kernelRun0_A.sl.v59 kernelRun0_A.sl.HS2_2
  rw [View.readCov_cons_toLoadRect]
  unfold kernelRun0_A.sl.r_1 kernelRun0_A.sl.r_2 kernelRun0_A.sl.r_3
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem hK_2 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v75 c arg1 harg1 arg2 harg2 arg3 harg3 arg4 harg4 arg9 arg10 arg11 x0 x1 x2 x3 = (stK c arg1 harg1 arg2 harg2 arg3 harg3 arg4 harg4 x0 x1 x2 x3 2).1 := by
  unfold kernelRun0_A.sl.v75 kernelRun0_A.sl.HS1_3
  rw [View.readCov_cons_toLoadRect]
  unfold kernelRun0_A.sl.r_5
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem cK_2 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v86 c arg1 harg1 arg2 harg2 arg3 harg3 arg4 harg4 arg9 arg10 arg11 x0 x1 x2 x3 = (stK c arg1 harg1 arg2 harg2 arg3 harg3 arg4 harg4 x0 x1 x2 x3 2).2 := by
  unfold kernelRun0_A.sl.v86 kernelRun0_A.sl.HS2_3
  rw [View.readCov_cons_toLoadRect]
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem hK_3 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v102 c arg1 harg1 arg2 harg2 arg3 harg3 arg4 harg4 arg9 arg10 arg11 x0 x1 x2 x3 = (stK c arg1 harg1 arg2 harg2 arg3 harg3 arg4 harg4 x0 x1 x2 x3 3).1 := by
  unfold kernelRun0_A.sl.v102 kernelRun0_A.sl.HS1_4
  rw [View.readCov_cons_toLoadRect]
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem cK_3 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v113 c arg1 harg1 arg2 harg2 arg3 harg3 arg4 harg4 arg9 arg10 arg11 x0 x1 x2 x3 = (stK c arg1 harg1 arg2 harg2 arg3 harg3 arg4 harg4 x0 x1 x2 x3 3).2 := by
  unfold kernelRun0_A.sl.v113 kernelRun0_A.sl.HS2_4
  rw [View.readCov_cons_toLoadRect]
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem hK_4 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v129 c arg1 harg1 arg2 harg2 arg3 harg3 arg4 harg4 arg9 arg10 arg11 x0 x1 x2 x3 = (stK c arg1 harg1 arg2 harg2 arg3 harg3 arg4 harg4 x0 x1 x2 x3 4).1 := by
  unfold kernelRun0_A.sl.v129 kernelRun0_A.sl.HS1_5
  rw [View.readCov_cons_toLoadRect]
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem cK_4 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v140 c arg1 harg1 arg2 harg2 arg3 harg3 arg4 harg4 arg9 arg10 arg11 x0 x1 x2 x3 = (stK c arg1 harg1 arg2 harg2 arg3 harg3 arg4 harg4 x0 x1 x2 x3 4).2 := by
  unfold kernelRun0_A.sl.v140 kernelRun0_A.sl.HS2_5
  rw [View.readCov_cons_toLoadRect]
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem hK_5 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v156 c arg1 harg1 arg2 harg2 arg3 harg3 arg4 harg4 arg9 arg10 arg11 x0 x1 x2 x3 = (stK c arg1 harg1 arg2 harg2 arg3 harg3 arg4 harg4 x0 x1 x2 x3 5).1 := by
  unfold kernelRun0_A.sl.v156 kernelRun0_A.sl.HS1_6
  rw [View.readCov_cons_toLoadRect]
  unfold kernelRun0_A.sl.r_6 kernelRun0_A.sl.r_7 kernelRun0_A.sl.r_8
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem cK_5 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v167 c arg1 harg1 arg2 harg2 arg3 harg3 arg4 harg4 arg9 arg10 arg11 x0 x1 x2 x3 = (stK c arg1 harg1 arg2 harg2 arg3 harg3 arg4 harg4 x0 x1 x2 x3 5).2 := by
  unfold kernelRun0_A.sl.v167 kernelRun0_A.sl.HS2_6
  rw [View.readCov_cons_toLoadRect]
  unfold kernelRun0_A.sl.r_7 kernelRun0_A.sl.r_8
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem hK_6 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v183 c arg1 harg1 arg2 harg2 arg3 harg3 arg4 harg4 arg9 arg10 arg11 x0 x1 x2 x3 = (stK c arg1 harg1 arg2 harg2 arg3 harg3 arg4 harg4 x0 x1 x2 x3 6).1 := by
  unfold kernelRun0_A.sl.v183 kernelRun0_A.sl.HS1_7
  rw [View.readCov_cons_toLoadRect]
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem cK_6 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v194 c arg1 harg1 arg2 harg2 arg3 harg3 arg4 harg4 arg9 arg10 arg11 x0 x1 x2 x3 = (stK c arg1 harg1 arg2 harg2 arg3 harg3 arg4 harg4 x0 x1 x2 x3 6).2 := by
  unfold kernelRun0_A.sl.v194 kernelRun0_A.sl.HS2_7
  rw [View.readCov_cons_toLoadRect]
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem hK_7 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v210 c arg1 harg1 arg2 harg2 arg3 harg3 arg4 harg4 arg9 arg10 arg11 x0 x1 x2 x3 = (stK c arg1 harg1 arg2 harg2 arg3 harg3 arg4 harg4 x0 x1 x2 x3 7).1 := by
  unfold kernelRun0_A.sl.v210 kernelRun0_A.sl.HS1_8
  rw [View.readCov_cons_toLoadRect]
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem cK_7 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v221 c arg1 harg1 arg2 harg2 arg3 harg3 arg4 harg4 arg9 arg10 arg11 x0 x1 x2 x3 = (stK c arg1 harg1 arg2 harg2 arg3 harg3 arg4 harg4 x0 x1 x2 x3 7).2 := by
  unfold kernelRun0_A.sl.v221 kernelRun0_A.sl.HS2_8
  rw [View.readCov_cons_toLoadRect]
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem hK_8 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v237 c arg1 harg1 arg2 harg2 arg3 harg3 arg4 harg4 arg9 arg10 arg11 x0 x1 x2 x3 = (stK c arg1 harg1 arg2 harg2 arg3 harg3 arg4 harg4 x0 x1 x2 x3 8).1 := by
  unfold kernelRun0_A.sl.v237 kernelRun0_A.sl.HS1_9
  rw [View.readCov_cons_toLoadRect]
  unfold kernelRun0_A.sl.r_10 kernelRun0_A.sl.r_11
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem cK_8 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v248 c arg1 harg1 arg2 harg2 arg3 harg3 arg4 harg4 arg9 arg10 arg11 x0 x1 x2 x3 = (stK c arg1 harg1 arg2 harg2 arg3 harg3 arg4 harg4 x0 x1 x2 x3 8).2 := by
  unfold kernelRun0_A.sl.v248 kernelRun0_A.sl.HS2_9
  rw [View.readCov_cons_toLoadRect]
  unfold kernelRun0_A.sl.r_10 kernelRun0_A.sl.r_11
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem hK_9 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v264 c arg1 harg1 arg2 harg2 arg3 harg3 arg4 harg4 arg9 arg10 arg11 x0 x1 x2 x3 = (stK c arg1 harg1 arg2 harg2 arg3 harg3 arg4 harg4 x0 x1 x2 x3 9).1 := by
  unfold kernelRun0_A.sl.v264 kernelRun0_A.sl.HS1_10
  rw [View.readCov_cons_toLoadRect]
  unfold kernelRun0_A.sl.r_13
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem cK_9 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v275 c arg1 harg1 arg2 harg2 arg3 harg3 arg4 harg4 arg9 arg10 arg11 x0 x1 x2 x3 = (stK c arg1 harg1 arg2 harg2 arg3 harg3 arg4 harg4 x0 x1 x2 x3 9).2 := by
  unfold kernelRun0_A.sl.v275 kernelRun0_A.sl.HS2_10
  rw [View.readCov_cons_toLoadRect]
  unfold kernelRun0_A.sl.r_12
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem hK_10 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v291 c arg1 harg1 arg2 harg2 arg3 harg3 arg4 harg4 arg9 arg10 arg11 x0 x1 x2 x3 = (stK c arg1 harg1 arg2 harg2 arg3 harg3 arg4 harg4 x0 x1 x2 x3 10).1 := by
  unfold kernelRun0_A.sl.v291 kernelRun0_A.sl.HS1_11
  rw [View.readCov_cons_toLoadRect]
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem cK_10 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v302 c arg1 harg1 arg2 harg2 arg3 harg3 arg4 harg4 arg9 arg10 arg11 x0 x1 x2 x3 = (stK c arg1 harg1 arg2 harg2 arg3 harg3 arg4 harg4 x0 x1 x2 x3 10).2 := by
  unfold kernelRun0_A.sl.v302 kernelRun0_A.sl.HS2_11
  rw [View.readCov_cons_toLoadRect]
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem hK_11 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v318 c arg1 harg1 arg2 harg2 arg3 harg3 arg4 harg4 arg9 arg10 arg11 x0 x1 x2 x3 = (stK c arg1 harg1 arg2 harg2 arg3 harg3 arg4 harg4 x0 x1 x2 x3 11).1 := by
  unfold kernelRun0_A.sl.v318 kernelRun0_A.sl.HS1_12
  rw [View.readCov_cons_toLoadRect]
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem cK_11 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v329 c arg1 harg1 arg2 harg2 arg3 harg3 arg4 harg4 arg9 arg10 arg11 x0 x1 x2 x3 = (stK c arg1 harg1 arg2 harg2 arg3 harg3 arg4 harg4 x0 x1 x2 x3 11).2 := by
  unfold kernelRun0_A.sl.v329 kernelRun0_A.sl.HS2_12
  rw [View.readCov_cons_toLoadRect]
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem hK_12 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v345 c arg1 harg1 arg2 harg2 arg3 harg3 arg4 harg4 arg9 arg10 arg11 x0 x1 x2 x3 = (stK c arg1 harg1 arg2 harg2 arg3 harg3 arg4 harg4 x0 x1 x2 x3 12).1 := by
  unfold kernelRun0_A.sl.v345 kernelRun0_A.sl.HS1_13
  rw [View.readCov_cons_toLoadRect]
  unfold kernelRun0_A.sl.r_15 kernelRun0_A.sl.r_16 kernelRun0_A.sl.r_17 kernelRun0_A.sl.r_18
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem cK_12 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v356 c arg1 harg1 arg2 harg2 arg3 harg3 arg4 harg4 arg9 arg10 arg11 x0 x1 x2 x3 = (stK c arg1 harg1 arg2 harg2 arg3 harg3 arg4 harg4 x0 x1 x2 x3 12).2 := by
  unfold kernelRun0_A.sl.v356 kernelRun0_A.sl.HS2_13
  rw [View.readCov_cons_toLoadRect]
  unfold kernelRun0_A.sl.r_16 kernelRun0_A.sl.r_17 kernelRun0_A.sl.r_18
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem hK_13 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v372 c arg1 harg1 arg2 harg2 arg3 harg3 arg4 harg4 arg9 arg10 arg11 x0 x1 x2 x3 = (stK c arg1 harg1 arg2 harg2 arg3 harg3 arg4 harg4 x0 x1 x2 x3 13).1 := by
  unfold kernelRun0_A.sl.v372 kernelRun0_A.sl.HS1_14
  rw [View.readCov_cons_toLoadRect]
  unfold kernelRun0_A.sl.r_19
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem cK_13 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v383 c arg1 harg1 arg2 harg2 arg3 harg3 arg4 harg4 arg9 arg10 arg11 x0 x1 x2 x3 = (stK c arg1 harg1 arg2 harg2 arg3 harg3 arg4 harg4 x0 x1 x2 x3 13).2 := by
  unfold kernelRun0_A.sl.v383 kernelRun0_A.sl.HS2_14
  rw [View.readCov_cons_toLoadRect]
  unfold kernelRun0_A.sl.r_20
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem hK_14 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v399 c arg1 harg1 arg2 harg2 arg3 harg3 arg4 harg4 arg9 arg10 arg11 x0 x1 x2 x3 = (stK c arg1 harg1 arg2 harg2 arg3 harg3 arg4 harg4 x0 x1 x2 x3 14).1 := by
  unfold kernelRun0_A.sl.v399 kernelRun0_A.sl.HS1_15
  rw [View.readCov_cons_toLoadRect]
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem cK_14 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v410 c arg1 harg1 arg2 harg2 arg3 harg3 arg4 harg4 arg9 arg10 arg11 x0 x1 x2 x3 = (stK c arg1 harg1 arg2 harg2 arg3 harg3 arg4 harg4 x0 x1 x2 x3 14).2 := by
  unfold kernelRun0_A.sl.v410 kernelRun0_A.sl.HS2_15
  rw [View.readCov_cons_toLoadRect]
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem hK_15 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v426 c arg1 harg1 arg2 harg2 arg3 harg3 arg4 harg4 arg9 arg10 arg11 x0 x1 x2 x3 = (stK c arg1 harg1 arg2 harg2 arg3 harg3 arg4 harg4 x0 x1 x2 x3 15).1 := by
  unfold kernelRun0_A.sl.v426 kernelRun0_A.sl.HS1_16
  rw [View.readCov_cons_toLoadRect]
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem cK_15 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v437 c arg1 harg1 arg2 harg2 arg3 harg3 arg4 harg4 arg9 arg10 arg11 x0 x1 x2 x3 = (stK c arg1 harg1 arg2 harg2 arg3 harg3 arg4 harg4 x0 x1 x2 x3 15).2 := by
  unfold kernelRun0_A.sl.v437 kernelRun0_A.sl.HS2_16
  rw [View.readCov_cons_toLoadRect]
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem hK_16 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v453 c arg1 harg1 arg2 harg2 arg3 harg3 arg4 harg4 arg9 arg10 arg11 x0 x1 x2 x3 = (stK c arg1 harg1 arg2 harg2 arg3 harg3 arg4 harg4 x0 x1 x2 x3 16).1 := by
  unfold kernelRun0_A.sl.v453 kernelRun0_A.sl.HS1_17
  rw [View.readCov_cons_toLoadRect]
  unfold kernelRun0_A.sl.r_21 kernelRun0_A.sl.r_22 kernelRun0_A.sl.r_23 kernelRun0_A.sl.r_24
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem cK_16 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v464 c arg1 harg1 arg2 harg2 arg3 harg3 arg4 harg4 arg9 arg10 arg11 x0 x1 x2 x3 = (stK c arg1 harg1 arg2 harg2 arg3 harg3 arg4 harg4 x0 x1 x2 x3 16).2 := by
  unfold kernelRun0_A.sl.v464 kernelRun0_A.sl.HS2_17
  rw [View.readCov_cons_toLoadRect]
  unfold kernelRun0_A.sl.r_21 kernelRun0_A.sl.r_22 kernelRun0_A.sl.r_23
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem hK_17 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v480 c arg1 harg1 arg2 harg2 arg3 harg3 arg4 harg4 arg9 arg10 arg11 x0 x1 x2 x3 = (stK c arg1 harg1 arg2 harg2 arg3 harg3 arg4 harg4 x0 x1 x2 x3 17).1 := by
  unfold kernelRun0_A.sl.v480 kernelRun0_A.sl.HS1_18
  rw [View.readCov_cons_toLoadRect]
  unfold kernelRun0_A.sl.r_25
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem cK_17 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v491 c arg1 harg1 arg2 harg2 arg3 harg3 arg4 harg4 arg9 arg10 arg11 x0 x1 x2 x3 = (stK c arg1 harg1 arg2 harg2 arg3 harg3 arg4 harg4 x0 x1 x2 x3 17).2 := by
  unfold kernelRun0_A.sl.v491 kernelRun0_A.sl.HS2_18
  rw [View.readCov_cons_toLoadRect]
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem hK_18 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v507 c arg1 harg1 arg2 harg2 arg3 harg3 arg4 harg4 arg9 arg10 arg11 x0 x1 x2 x3 = (stK c arg1 harg1 arg2 harg2 arg3 harg3 arg4 harg4 x0 x1 x2 x3 18).1 := by
  unfold kernelRun0_A.sl.v507 kernelRun0_A.sl.HS1_19
  rw [View.readCov_cons_toLoadRect]
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem cK_18 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v518 c arg1 harg1 arg2 harg2 arg3 harg3 arg4 harg4 arg9 arg10 arg11 x0 x1 x2 x3 = (stK c arg1 harg1 arg2 harg2 arg3 harg3 arg4 harg4 x0 x1 x2 x3 18).2 := by
  unfold kernelRun0_A.sl.v518 kernelRun0_A.sl.HS2_19
  rw [View.readCov_cons_toLoadRect]
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem hK_19 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v534 c arg1 harg1 arg2 harg2 arg3 harg3 arg4 harg4 arg9 arg10 arg11 x0 x1 x2 x3 = (stK c arg1 harg1 arg2 harg2 arg3 harg3 arg4 harg4 x0 x1 x2 x3 19).1 := by
  unfold kernelRun0_A.sl.v534 kernelRun0_A.sl.HS1_20
  rw [View.readCov_cons_toLoadRect]
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem cK_19 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v545 c arg1 harg1 arg2 harg2 arg3 harg3 arg4 harg4 arg9 arg10 arg11 x0 x1 x2 x3 = (stK c arg1 harg1 arg2 harg2 arg3 harg3 arg4 harg4 x0 x1 x2 x3 19).2 := by
  unfold kernelRun0_A.sl.v545 kernelRun0_A.sl.HS2_20
  rw [View.readCov_cons_toLoadRect]
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem hK_20 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v561 c arg1 harg1 arg2 harg2 arg3 harg3 arg4 harg4 arg9 arg10 arg11 x0 x1 x2 x3 = (stK c arg1 harg1 arg2 harg2 arg3 harg3 arg4 harg4 x0 x1 x2 x3 20).1 := by
  unfold kernelRun0_A.sl.v561 kernelRun0_A.sl.HS1_21
  rw [View.readCov_cons_toLoadRect]
  unfold kernelRun0_A.sl.r_26 kernelRun0_A.sl.r_27 kernelRun0_A.sl.r_28
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem cK_20 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v572 c arg1 harg1 arg2 harg2 arg3 harg3 arg4 harg4 arg9 arg10 arg11 x0 x1 x2 x3 = (stK c arg1 harg1 arg2 harg2 arg3 harg3 arg4 harg4 x0 x1 x2 x3 20).2 := by
  unfold kernelRun0_A.sl.v572 kernelRun0_A.sl.HS2_21
  rw [View.readCov_cons_toLoadRect]
  unfold kernelRun0_A.sl.r_27 kernelRun0_A.sl.r_28
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem hK_21 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v588 c arg1 harg1 arg2 harg2 arg3 harg3 arg4 harg4 arg9 arg10 arg11 x0 x1 x2 x3 = (stK c arg1 harg1 arg2 harg2 arg3 harg3 arg4 harg4 x0 x1 x2 x3 21).1 := by
  unfold kernelRun0_A.sl.v588 kernelRun0_A.sl.HS1_22
  rw [View.readCov_cons_toLoadRect]
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem cK_21 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v599 c arg1 harg1 arg2 harg2 arg3 harg3 arg4 harg4 arg9 arg10 arg11 x0 x1 x2 x3 = (stK c arg1 harg1 arg2 harg2 arg3 harg3 arg4 harg4 x0 x1 x2 x3 21).2 := by
  unfold kernelRun0_A.sl.v599 kernelRun0_A.sl.HS2_22
  rw [View.readCov_cons_toLoadRect]
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem hK_22 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v615 c arg1 harg1 arg2 harg2 arg3 harg3 arg4 harg4 arg9 arg10 arg11 x0 x1 x2 x3 = (stK c arg1 harg1 arg2 harg2 arg3 harg3 arg4 harg4 x0 x1 x2 x3 22).1 := by
  unfold kernelRun0_A.sl.v615 kernelRun0_A.sl.HS1_23
  rw [View.readCov_cons_toLoadRect]
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem cK_22 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v626 c arg1 harg1 arg2 harg2 arg3 harg3 arg4 harg4 arg9 arg10 arg11 x0 x1 x2 x3 = (stK c arg1 harg1 arg2 harg2 arg3 harg3 arg4 harg4 x0 x1 x2 x3 22).2 := by
  unfold kernelRun0_A.sl.v626 kernelRun0_A.sl.HS2_23
  rw [View.readCov_cons_toLoadRect]
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem hK_23 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v642 c arg1 harg1 arg2 harg2 arg3 harg3 arg4 harg4 arg9 arg10 arg11 x0 x1 x2 x3 = (stK c arg1 harg1 arg2 harg2 arg3 harg3 arg4 harg4 x0 x1 x2 x3 23).1 := by
  unfold kernelRun0_A.sl.v642 kernelRun0_A.sl.HS1_24
  rw [View.readCov_cons_toLoadRect]
  unfold kernelRun0_A.sl.r_30 kernelRun0_A.sl.r_31
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem cK_23 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v653 c arg1 harg1 arg2 harg2 arg3 harg3 arg4 harg4 arg9 arg10 arg11 x0 x1 x2 x3 = (stK c arg1 harg1 arg2 harg2 arg3 harg3 arg4 harg4 x0 x1 x2 x3 23).2 := by
  unfold kernelRun0_A.sl.v653 kernelRun0_A.sl.HS2_24
  rw [View.readCov_cons_toLoadRect]
  unfold kernelRun0_A.sl.r_30 kernelRun0_A.sl.r_31
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem hK_24 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v669 c arg1 harg1 arg2 harg2 arg3 harg3 arg4 harg4 arg9 arg10 arg11 x0 x1 x2 x3 = (stK c arg1 harg1 arg2 harg2 arg3 harg3 arg4 harg4 x0 x1 x2 x3 24).1 := by
  unfold kernelRun0_A.sl.v669 kernelRun0_A.sl.HS1_25
  rw [View.readCov_cons_toLoadRect]
  unfold kernelRun0_A.sl.r_33
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem cK_24 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v680 c arg1 harg1 arg2 harg2 arg3 harg3 arg4 harg4 arg9 arg10 arg11 x0 x1 x2 x3 = (stK c arg1 harg1 arg2 harg2 arg3 harg3 arg4 harg4 x0 x1 x2 x3 24).2 := by
  unfold kernelRun0_A.sl.v680 kernelRun0_A.sl.HS2_25
  rw [View.readCov_cons_toLoadRect]
  unfold kernelRun0_A.sl.r_32
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem hK_25 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v696 c arg1 harg1 arg2 harg2 arg3 harg3 arg4 harg4 arg9 arg10 arg11 x0 x1 x2 x3 = (stK c arg1 harg1 arg2 harg2 arg3 harg3 arg4 harg4 x0 x1 x2 x3 25).1 := by
  unfold kernelRun0_A.sl.v696 kernelRun0_A.sl.HS1_26
  rw [View.readCov_cons_toLoadRect]
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem cK_25 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v707 c arg1 harg1 arg2 harg2 arg3 harg3 arg4 harg4 arg9 arg10 arg11 x0 x1 x2 x3 = (stK c arg1 harg1 arg2 harg2 arg3 harg3 arg4 harg4 x0 x1 x2 x3 25).2 := by
  unfold kernelRun0_A.sl.v707 kernelRun0_A.sl.HS2_26
  rw [View.readCov_cons_toLoadRect]
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem hK_26 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v723 c arg1 harg1 arg2 harg2 arg3 harg3 arg4 harg4 arg9 arg10 arg11 x0 x1 x2 x3 = (stK c arg1 harg1 arg2 harg2 arg3 harg3 arg4 harg4 x0 x1 x2 x3 26).1 := by
  unfold kernelRun0_A.sl.v723 kernelRun0_A.sl.HS1_27
  rw [View.readCov_cons_toLoadRect]
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem cK_26 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v734 c arg1 harg1 arg2 harg2 arg3 harg3 arg4 harg4 arg9 arg10 arg11 x0 x1 x2 x3 = (stK c arg1 harg1 arg2 harg2 arg3 harg3 arg4 harg4 x0 x1 x2 x3 26).2 := by
  unfold kernelRun0_A.sl.v734 kernelRun0_A.sl.HS2_27
  rw [View.readCov_cons_toLoadRect]
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem hK_27 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v750 c arg1 harg1 arg2 harg2 arg3 harg3 arg4 harg4 arg9 arg10 arg11 x0 x1 x2 x3 = (stK c arg1 harg1 arg2 harg2 arg3 harg3 arg4 harg4 x0 x1 x2 x3 27).1 := by
  unfold kernelRun0_A.sl.v750 kernelRun0_A.sl.HS1_28
  rw [View.readCov_cons_toLoadRect]
  unfold kernelRun0_A.sl.r_35 kernelRun0_A.sl.r_36 kernelRun0_A.sl.r_37 kernelRun0_A.sl.r_38
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem cK_27 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v761 c arg1 harg1 arg2 harg2 arg3 harg3 arg4 harg4 arg9 arg10 arg11 x0 x1 x2 x3 = (stK c arg1 harg1 arg2 harg2 arg3 harg3 arg4 harg4 x0 x1 x2 x3 27).2 := by
  unfold kernelRun0_A.sl.v761 kernelRun0_A.sl.HS2_28
  rw [View.readCov_cons_toLoadRect]
  unfold kernelRun0_A.sl.r_36 kernelRun0_A.sl.r_37 kernelRun0_A.sl.r_38
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem hK_28 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v777 c arg1 harg1 arg2 harg2 arg3 harg3 arg4 harg4 arg9 arg10 arg11 x0 x1 x2 x3 = (stK c arg1 harg1 arg2 harg2 arg3 harg3 arg4 harg4 x0 x1 x2 x3 28).1 := by
  unfold kernelRun0_A.sl.v777 kernelRun0_A.sl.HS1_29
  rw [View.readCov_cons_toLoadRect]
  unfold kernelRun0_A.sl.r_39
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem cK_28 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v788 c arg1 harg1 arg2 harg2 arg3 harg3 arg4 harg4 arg9 arg10 arg11 x0 x1 x2 x3 = (stK c arg1 harg1 arg2 harg2 arg3 harg3 arg4 harg4 x0 x1 x2 x3 28).2 := by
  unfold kernelRun0_A.sl.v788 kernelRun0_A.sl.HS2_29
  rw [View.readCov_cons_toLoadRect]
  unfold kernelRun0_A.sl.r_40
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem hK_29 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v804 c arg1 harg1 arg2 harg2 arg3 harg3 arg4 harg4 arg9 arg10 arg11 x0 x1 x2 x3 = (stK c arg1 harg1 arg2 harg2 arg3 harg3 arg4 harg4 x0 x1 x2 x3 29).1 := by
  unfold kernelRun0_A.sl.v804 kernelRun0_A.sl.HS1_30
  rw [View.readCov_cons_toLoadRect]
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem cK_29 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v815 c arg1 harg1 arg2 harg2 arg3 harg3 arg4 harg4 arg9 arg10 arg11 x0 x1 x2 x3 = (stK c arg1 harg1 arg2 harg2 arg3 harg3 arg4 harg4 x0 x1 x2 x3 29).2 := by
  unfold kernelRun0_A.sl.v815 kernelRun0_A.sl.HS2_30
  rw [View.readCov_cons_toLoadRect]
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem hK_30 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v831 c arg1 harg1 arg2 harg2 arg3 harg3 arg4 harg4 arg9 arg10 arg11 x0 x1 x2 x3 = (stK c arg1 harg1 arg2 harg2 arg3 harg3 arg4 harg4 x0 x1 x2 x3 30).1 := by
  unfold kernelRun0_A.sl.v831 kernelRun0_A.sl.HS1_31
  rw [View.readCov_cons_toLoadRect]
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem cK_30 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v842 c arg1 harg1 arg2 harg2 arg3 harg3 arg4 harg4 arg9 arg10 arg11 x0 x1 x2 x3 = (stK c arg1 harg1 arg2 harg2 arg3 harg3 arg4 harg4 x0 x1 x2 x3 30).2 := by
  unfold kernelRun0_A.sl.v842 kernelRun0_A.sl.HS2_31
  rw [View.readCov_cons_toLoadRect]
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem hK_31 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v858 c arg1 harg1 arg2 harg2 arg3 harg3 arg4 harg4 arg9 arg10 arg11 x0 x1 x2 x3 = (stK c arg1 harg1 arg2 harg2 arg3 harg3 arg4 harg4 x0 x1 x2 x3 31).1 := by
  unfold kernelRun0_A.sl.v858 kernelRun0_A.sl.HS1_32
  rw [View.readCov_cons_toLoadRect]
  unfold kernelRun0_A.sl.r_41 kernelRun0_A.sl.r_42 kernelRun0_A.sl.r_43 kernelRun0_A.sl.r_44
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

theorem cK_31 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) : kernelRun0_A.sl.v869 c arg1 harg1 arg2 harg2 arg3 harg3 arg4 harg4 arg9 arg10 arg11 x0 x1 x2 x3 = (stK c arg1 harg1 arg2 harg2 arg3 harg3 arg4 harg4 x0 x1 x2 x3 31).2 := by
  unfold kernelRun0_A.sl.v869 kernelRun0_A.sl.HS2_32
  rw [View.readCov_cons_toLoadRect]
  unfold kernelRun0_A.sl.r_41 kernelRun0_A.sl.r_42 kernelRun0_A.sl.r_43
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

end Cert.KernelIdeal.KV

end
-- ==== Proof.KOut.lean ====
/-
  The kernel's hidden-state output block as one function of the block's inputs: slab s is the new hidden array of step s.
-/
import proofs.«106864_g2000204369025975_pallaspilot1_7_1_alg».proof.Proof.Gen.KernelIdeal.Frame
import proofs.«106864_g2000204369025975_pallaspilot1_7_1_alg».proof.Proof.KSteps

set_option maxRecDepth 16384

noncomputable section

open scoped BigOperators

namespace Cert.KernelIdeal.KV

open Idealize.ShloMosaic Idealize.ShloMosaic.TcCoe Idealize.ShloMosaic.ValueIdx
open Idealize.SL.Sem
open Cert.KernelIdeal Cert.KernelIdeal.Gen Cert.Lstm

variable {F : FTy → Type} [FloatOps F]

theorem pK_0 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay16 (kernelRun0_A.sl.r_1 c arg1 harg1 arg2 harg2 arg3 harg3 arg4 harg4 arg9 arg10 x0 x1 x2 x3) (kernelRun0_A.sl.r_2 c arg1 harg1 arg2 harg2 arg3 harg3 arg4 harg4 arg9 arg10 x0 x1 x2 x3) (kernelRun0_A.sl.r_3 c arg1 harg1 arg2 harg2 arg3 harg3 arg4 harg4 arg9 arg10 x0 x1 x2 x3) (kernelRun0_A.sl.r_4 c arg1 harg1 arg2 harg2 arg3 harg3 arg4 harg4 arg9 arg10 x0 x1 x2 x3) (kernelRun0_A.sl.v32 c arg11)
      = shapeCast S1x64x256 (hRaw c arg1 harg1 arg2 harg2 arg3 harg3 arg4 harg4 x0 x1 x2 x3 0) shapeCasts_S64x256_S1x64x256 := by
  unfold kernelRun0_A.sl.r_1 kernelRun0_A.sl.r_2 kernelRun0_A.sl.r_3 kernelRun0_A.sl.r_4
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem pK_1 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay22 (kernelRun0_A.sl.r_5 c arg1 harg1 arg2 harg2 arg3 harg3 arg4 harg4 arg9 arg10 arg11 x0 x1 x2 x3)
      = shapeCast S1x64x256 (hRaw c arg1 harg1 arg2 harg2 arg3 harg3 arg4 harg4 x0 x1 x2 x3 1) shapeCasts_S64x256_S1x64x256 := by
  unfold kernelRun0_A.sl.r_5
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem pK_2 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay28 (kernelRun0_A.sl.r c arg3 harg3 x2) (kernelRun0_A.sl.v74 c arg1 harg1 arg2 harg2 arg4 harg4 arg9 x0 x1 x3) (kernelRun0_A.sl.v75 c arg1 harg1 arg2 harg2 arg3 harg3 arg4 harg4 arg9 arg10 arg11 x0 x1 x2 x3) (kernelRun0_A.sl.v86 c arg1 harg1 arg2 harg2 arg3 harg3 arg4 harg4 arg9 arg10 arg11 x0 x1 x2 x3)
      = shapeCast S1x64x256 (hRaw c arg1 harg1 arg2 harg2 arg3 harg3 arg4 harg4 x0 x1 x2 x3 2) shapeCasts_S64x256_S1x64x256 := by
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem pK_3 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay34 (kernelRun0_A.sl.r c arg3 harg3 x2) (kernelRun0_A.sl.v101 c arg1 harg1 arg2 harg2 arg4 harg4 arg9 x0 x1 x3) (kernelRun0_A.sl.v102 c arg1 harg1 arg2 harg2 arg3 harg3 arg4 harg4 arg9 arg10 arg11 x0 x1 x2 x3) (kernelRun0_A.sl.v113 c arg1 harg1 arg2 harg2 arg3 harg3 arg4 harg4 arg9 arg10 arg11 x0 x1 x2 x3)
      = shapeCast S1x64x256 (hRaw c arg1 harg1 arg2 harg2 arg3 harg3 arg4 harg4 x0 x1 x2 x3 3) shapeCasts_S64x256_S1x64x256 := by
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem pK_4 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay43 (kernelRun0_A.sl.r_6 c arg1 harg1 arg2 harg2 arg3 harg3 arg4 harg4 arg9 arg10 arg11 x0 x1 x2 x3) (kernelRun0_A.sl.r_7 c arg1 harg1 arg2 harg2 arg3 harg3 arg4 harg4 arg9 arg10 arg11 x0 x1 x2 x3) (kernelRun0_A.sl.r_8 c arg1 harg1 arg2 harg2 arg3 harg3 arg4 harg4 arg9 arg10 arg11 x0 x1 x2 x3)
      = shapeCast S1x64x256 (hRaw c arg1 harg1 arg2 harg2 arg3 harg3 arg4 harg4 x0 x1 x2 x3 4) shapeCasts_S64x256_S1x64x256 := by
  unfold kernelRun0_A.sl.r_6 kernelRun0_A.sl.r_7 kernelRun0_A.sl.r_8
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem pK_5 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay49 (kernelRun0_A.sl.r_9 c arg1 harg1 arg2 harg2 arg3 harg3 arg4 harg4 arg9 arg10 arg11 x0 x1 x2 x3)
      = shapeCast S1x64x256 (hRaw c arg1 harg1 arg2 harg2 arg3 harg3 arg4 harg4 x0 x1 x2 x3 5) shapeCasts_S64x256_S1x64x256 := by
  unfold kernelRun0_A.sl.r_9
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem pK_6 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay55 (kernelRun0_A.sl.r c arg3 harg3 x2) (kernelRun0_A.sl.v182 c arg1 harg1 arg2 harg2 arg4 harg4 arg9 x0 x1 x3) (kernelRun0_A.sl.v183 c arg1 harg1 arg2 harg2 arg3 harg3 arg4 harg4 arg9 arg10 arg11 x0 x1 x2 x3) (kernelRun0_A.sl.v194 c arg1 harg1 arg2 harg2 arg3 harg3 arg4 harg4 arg9 arg10 arg11 x0 x1 x2 x3)
      = shapeCast S1x64x256 (hRaw c arg1 harg1 arg2 harg2 arg3 harg3 arg4 harg4 x0 x1 x2 x3 6) shapeCasts_S64x256_S1x64x256 := by
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem pK_7 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay62 (kernelRun0_A.sl.r_10 c arg1 harg1 arg2 harg2 arg3 harg3 arg4 harg4 arg9 arg10 arg11 x0 x1 x2 x3) (kernelRun0_A.sl.r_11 c arg1 harg1 arg2 harg2 arg3 harg3 arg4 harg4 arg9 arg10 arg11 x0 x1 x2 x3) (kernelRun0_A.sl.v221 c arg1 harg1 arg2 harg2 arg3 harg3 arg4 harg4 arg9 arg10 arg11 x0 x1 x2 x3)
      = shapeCast S1x64x256 (hRaw c arg1 harg1 arg2 harg2 arg3 harg3 arg4 harg4 x0 x1 x2 x3 7) shapeCasts_S64x256_S1x64x256 := by
  unfold kernelRun0_A.sl.r_10 kernelRun0_A.sl.r_11
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem pK_8 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay68 (kernelRun0_A.sl.r_13 c arg1 harg1 arg2 harg2 arg3 harg3 arg4 harg4 arg9 arg10 arg11 x0 x1 x2 x3)
      = shapeCast S1x64x256 (hRaw c arg1 harg1 arg2 harg2 arg3 harg3 arg4 harg4 x0 x1 x2 x3 8) shapeCasts_S64x256_S1x64x256 := by
  unfold kernelRun0_A.sl.r_13
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem pK_9 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay74 (kernelRun0_A.sl.r_14 c arg1 harg1 arg2 harg2 arg3 harg3 arg4 harg4 arg9 arg10 arg11 x0 x1 x2 x3)
      = shapeCast S1x64x256 (hRaw c arg1 harg1 arg2 harg2 arg3 harg3 arg4 harg4 x0 x1 x2 x3 9) shapeCasts_S64x256_S1x64x256 := by
  unfold kernelRun0_A.sl.r_14
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem pK_10 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay80 (kernelRun0_A.sl.r c arg3 harg3 x2) (kernelRun0_A.sl.v290 c arg1 harg1 arg2 harg2 arg4 harg4 arg9 x0 x1 x3) (kernelRun0_A.sl.v291 c arg1 harg1 arg2 harg2 arg3 harg3 arg4 harg4 arg9 arg10 arg11 x0 x1 x2 x3) (kernelRun0_A.sl.v302 c arg1 harg1 arg2 harg2 arg3 harg3 arg4 harg4 arg9 arg10 arg11 x0 x1 x2 x3)
      = shapeCast S1x64x256 (hRaw c arg1 harg1 arg2 harg2 arg3 harg3 arg4 harg4 x0 x1 x2 x3 10) shapeCasts_S64x256_S1x64x256 := by
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem pK_11 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay89 (kernelRun0_A.sl.r_15 c arg1 harg1 arg2 harg2 arg3 harg3 arg4 harg4 arg9 arg10 arg11 x0 x1 x2 x3) (kernelRun0_A.sl.r_16 c arg1 harg1 arg2 harg2 arg3 harg3 arg4 harg4 arg9 arg10 arg11 x0 x1 x2 x3) (kernelRun0_A.sl.r_17 c arg1 harg1 arg2 harg2 arg3 harg3 arg4 harg4 arg9 arg10 arg11 x0 x1 x2 x3) (kernelRun0_A.sl.r_18 c arg1 harg1 arg2 harg2 arg3 harg3 arg4 harg4 arg9 arg10 arg11 x0 x1 x2 x3) (kernelRun0_A.sl.v329 c arg1 harg1 arg2 harg2 arg3 harg3 arg4 harg4 arg9 arg10 arg11 x0 x1 x2 x3)
      = shapeCast S1x64x256 (hRaw c arg1 harg1 arg2 harg2 arg3 harg3 arg4 harg4 x0 x1 x2 x3 11) shapeCasts_S64x256_S1x64x256 := by
  unfold kernelRun0_A.sl.r_15 kernelRun0_A.sl.r_16 kernelRun0_A.sl.r_17 kernelRun0_A.sl.r_18
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem pK_12 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay95 (kernelRun0_A.sl.r_19 c arg1 harg1 arg2 harg2 arg3 harg3 arg4 harg4 arg9 arg10 arg11 x0 x1 x2 x3)
      = shapeCast S1x64x256 (hRaw c arg1 harg1 arg2 harg2 arg3 harg3 arg4 harg4 x0 x1 x2 x3 12) shapeCasts_S64x256_S1x64x256 := by
  unfold kernelRun0_A.sl.r_19
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem pK_13 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay101 (kernelRun0_A.sl.r c arg3 harg3 x2) (kernelRun0_A.sl.v371 c arg1 harg1 arg2 harg2 arg4 harg4 arg9 x0 x1 x3) (kernelRun0_A.sl.v372 c arg1 harg1 arg2 harg2 arg3 harg3 arg4 harg4 arg9 arg10 arg11 x0 x1 x2 x3) (kernelRun0_A.sl.v383 c arg1 harg1 arg2 harg2 arg3 harg3 arg4 harg4 arg9 arg10 arg11 x0 x1 x2 x3)
      = shapeCast S1x64x256 (hRaw c arg1 harg1 arg2 harg2 arg3 harg3 arg4 harg4 x0 x1 x2 x3 13) shapeCasts_S64x256_S1x64x256 := by
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem pK_14 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay107 (kernelRun0_A.sl.r c arg3 harg3 x2) (kernelRun0_A.sl.v398 c arg1 harg1 arg2 harg2 arg4 harg4 arg9 x0 x1 x3) (kernelRun0_A.sl.v399 c arg1 harg1 arg2 harg2 arg3 harg3 arg4 harg4 arg9 arg10 arg11 x0 x1 x2 x3) (kernelRun0_A.sl.v410 c arg1 harg1 arg2 harg2 arg3 harg3 arg4 harg4 arg9 arg10 arg11 x0 x1 x2 x3)
      = shapeCast S1x64x256 (hRaw c arg1 harg1 arg2 harg2 arg3 harg3 arg4 harg4 x0 x1 x2 x3 14) shapeCasts_S64x256_S1x64x256 := by
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem pK_15 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay117 (kernelRun0_A.sl.r_21 c arg1 harg1 arg2 harg2 arg3 harg3 arg4 harg4 arg9 arg10 arg11 x0 x1 x2 x3) (kernelRun0_A.sl.r_22 c arg1 harg1 arg2 harg2 arg3 harg3 arg4 harg4 arg9 arg10 arg11 x0 x1 x2 x3) (kernelRun0_A.sl.r_23 c arg1 harg1 arg2 harg2 arg3 harg3 arg4 harg4 arg9 arg10 arg11 x0 x1 x2 x3) (kernelRun0_A.sl.r_24 c arg1 harg1 arg2 harg2 arg3 harg3 arg4 harg4 arg9 arg10 arg11 x0 x1 x2 x3) (kernelRun0_A.sl.v437 c arg1 harg1 arg2 harg2 arg3 harg3 arg4 harg4 arg9 arg10 arg11 x0 x1 x2 x3)
      = shapeCast S1x64x256 (hRaw c arg1 harg1 arg2 harg2 arg3 harg3 arg4 harg4 x0 x1 x2 x3 15) shapeCasts_S64x256_S1x64x256 := by
  unfold kernelRun0_A.sl.r_21 kernelRun0_A.sl.r_22 kernelRun0_A.sl.r_23 kernelRun0_A.sl.r_24
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem pK_16 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay123 (kernelRun0_A.sl.r_25 c arg1 harg1 arg2 harg2 arg3 harg3 arg4 harg4 arg9 arg10 arg11 x0 x1 x2 x3)
      = shapeCast S1x64x256 (hRaw c arg1 harg1 arg2 harg2 arg3 harg3 arg4 harg4 x0 x1 x2 x3 16) shapeCasts_S64x256_S1x64x256 := by
  unfold kernelRun0_A.sl.r_25
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem pK_17 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay129 (kernelRun0_A.sl.r c arg3 harg3 x2) (kernelRun0_A.sl.v479 c arg1 harg1 arg2 harg2 arg4 harg4 arg9 x0 x1 x3) (kernelRun0_A.sl.v480 c arg1 harg1 arg2 harg2 arg3 harg3 arg4 harg4 arg9 arg10 arg11 x0 x1 x2 x3) (kernelRun0_A.sl.v491 c arg1 harg1 arg2 harg2 arg3 harg3 arg4 harg4 arg9 arg10 arg11 x0 x1 x2 x3)
      = shapeCast S1x64x256 (hRaw c arg1 harg1 arg2 harg2 arg3 harg3 arg4 harg4 x0 x1 x2 x3 17) shapeCasts_S64x256_S1x64x256 := by
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem pK_18 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay135 (kernelRun0_A.sl.r c arg3 harg3 x2) (kernelRun0_A.sl.v506 c arg1 harg1 arg2 harg2 arg4 harg4 arg9 x0 x1 x3) (kernelRun0_A.sl.v507 c arg1 harg1 arg2 harg2 arg3 harg3 arg4 harg4 arg9 arg10 arg11 x0 x1 x2 x3) (kernelRun0_A.sl.v518 c arg1 harg1 arg2 harg2 arg3 harg3 arg4 harg4 arg9 arg10 arg11 x0 x1 x2 x3)
      = shapeCast S1x64x256 (hRaw c arg1 harg1 arg2 harg2 arg3 harg3 arg4 harg4 x0 x1 x2 x3 18) shapeCasts_S64x256_S1x64x256 := by
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem pK_19 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay144 (kernelRun0_A.sl.r_26 c arg1 harg1 arg2 harg2 arg3 harg3 arg4 harg4 arg9 arg10 arg11 x0 x1 x2 x3) (kernelRun0_A.sl.r_27 c arg1 harg1 arg2 harg2 arg3 harg3 arg4 harg4 arg9 arg10 arg11 x0 x1 x2 x3) (kernelRun0_A.sl.r_28 c arg1 harg1 arg2 harg2 arg3 harg3 arg4 harg4 arg9 arg10 arg11 x0 x1 x2 x3)
      = shapeCast S1x64x256 (hRaw c arg1 harg1 arg2 harg2 arg3 harg3 arg4 harg4 x0 x1 x2 x3 19) shapeCasts_S64x256_S1x64x256 := by
  unfold kernelRun0_A.sl.r_26 kernelRun0_A.sl.r_27 kernelRun0_A.sl.r_28
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem pK_20 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay150 (kernelRun0_A.sl.r_29 c arg1 harg1 arg2 harg2 arg3 harg3 arg4 harg4 arg9 arg10 arg11 x0 x1 x2 x3)
      = shapeCast S1x64x256 (hRaw c arg1 harg1 arg2 harg2 arg3 harg3 arg4 harg4 x0 x1 x2 x3 20) shapeCasts_S64x256_S1x64x256 := by
  unfold kernelRun0_A.sl.r_29
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem pK_21 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay156 (kernelRun0_A.sl.r c arg3 harg3 x2) (kernelRun0_A.sl.v587 c arg1 harg1 arg2 harg2 arg4 harg4 arg9 x0 x1 x3) (kernelRun0_A.sl.v588 c arg1 harg1 arg2 harg2 arg3 harg3 arg4 harg4 arg9 arg10 arg11 x0 x1 x2 x3) (kernelRun0_A.sl.v599 c arg1 harg1 arg2 harg2 arg3 harg3 arg4 harg4 arg9 arg10 arg11 x0 x1 x2 x3)
      = shapeCast S1x64x256 (hRaw c arg1 harg1 arg2 harg2 arg3 harg3 arg4 harg4 x0 x1 x2 x3 21) shapeCasts_S64x256_S1x64x256 := by
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem pK_22 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay163 (kernelRun0_A.sl.r_30 c arg1 harg1 arg2 harg2 arg3 harg3 arg4 harg4 arg9 arg10 arg11 x0 x1 x2 x3) (kernelRun0_A.sl.r_31 c arg1 harg1 arg2 harg2 arg3 harg3 arg4 harg4 arg9 arg10 arg11 x0 x1 x2 x3) (kernelRun0_A.sl.v626 c arg1 harg1 arg2 harg2 arg3 harg3 arg4 harg4 arg9 arg10 arg11 x0 x1 x2 x3)
      = shapeCast S1x64x256 (hRaw c arg1 harg1 arg2 harg2 arg3 harg3 arg4 harg4 x0 x1 x2 x3 22) shapeCasts_S64x256_S1x64x256 := by
  unfold kernelRun0_A.sl.r_30 kernelRun0_A.sl.r_31
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem pK_23 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay169 (kernelRun0_A.sl.r_33 c arg1 harg1 arg2 harg2 arg3 harg3 arg4 harg4 arg9 arg10 arg11 x0 x1 x2 x3)
      = shapeCast S1x64x256 (hRaw c arg1 harg1 arg2 harg2 arg3 harg3 arg4 harg4 x0 x1 x2 x3 23) shapeCasts_S64x256_S1x64x256 := by
  unfold kernelRun0_A.sl.r_33
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem pK_24 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay175 (kernelRun0_A.sl.r_34 c arg1 harg1 arg2 harg2 arg3 harg3 arg4 harg4 arg9 arg10 arg11 x0 x1 x2 x3)
      = shapeCast S1x64x256 (hRaw c arg1 harg1 arg2 harg2 arg3 harg3 arg4 harg4 x0 x1 x2 x3 24) shapeCasts_S64x256_S1x64x256 := by
  unfold kernelRun0_A.sl.r_34
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem pK_25 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay181 (kernelRun0_A.sl.r c arg3 harg3 x2) (kernelRun0_A.sl.v695 c arg1 harg1 arg2 harg2 arg4 harg4 arg9 x0 x1 x3) (kernelRun0_A.sl.v696 c arg1 harg1 arg2 harg2 arg3 harg3 arg4 harg4 arg9 arg10 arg11 x0 x1 x2 x3) (kernelRun0_A.sl.v707 c arg1 harg1 arg2 harg2 arg3 harg3 arg4 harg4 arg9 arg10 arg11 x0 x1 x2 x3)
      = shapeCast S1x64x256 (hRaw c arg1 harg1 arg2 harg2 arg3 harg3 arg4 harg4 x0 x1 x2 x3 25) shapeCasts_S64x256_S1x64x256 := by
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem pK_26 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay190 (kernelRun0_A.sl.r_35 c arg1 harg1 arg2 harg2 arg3 harg3 arg4 harg4 arg9 arg10 arg11 x0 x1 x2 x3) (kernelRun0_A.sl.r_36 c arg1 harg1 arg2 harg2 arg3 harg3 arg4 harg4 arg9 arg10 arg11 x0 x1 x2 x3) (kernelRun0_A.sl.r_37 c arg1 harg1 arg2 harg2 arg3 harg3 arg4 harg4 arg9 arg10 arg11 x0 x1 x2 x3) (kernelRun0_A.sl.r_38 c arg1 harg1 arg2 harg2 arg3 harg3 arg4 harg4 arg9 arg10 arg11 x0 x1 x2 x3) (kernelRun0_A.sl.v734 c arg1 harg1 arg2 harg2 arg3 harg3 arg4 harg4 arg9 arg10 arg11 x0 x1 x2 x3)
      = shapeCast S1x64x256 (hRaw c arg1 harg1 arg2 harg2 arg3 harg3 arg4 harg4 x0 x1 x2 x3 26) shapeCasts_S64x256_S1x64x256 := by
  unfold kernelRun0_A.sl.r_35 kernelRun0_A.sl.r_36 kernelRun0_A.sl.r_37 kernelRun0_A.sl.r_38
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem pK_27 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay196 (kernelRun0_A.sl.r_39 c arg1 harg1 arg2 harg2 arg3 harg3 arg4 harg4 arg9 arg10 arg11 x0 x1 x2 x3)
      = shapeCast S1x64x256 (hRaw c arg1 harg1 arg2 harg2 arg3 harg3 arg4 harg4 x0 x1 x2 x3 27) shapeCasts_S64x256_S1x64x256 := by
  unfold kernelRun0_A.sl.r_39
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem pK_28 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay202 (kernelRun0_A.sl.r c arg3 harg3 x2) (kernelRun0_A.sl.v776 c arg1 harg1 arg2 harg2 arg4 harg4 arg9 x0 x1 x3) (kernelRun0_A.sl.v777 c arg1 harg1 arg2 harg2 arg3 harg3 arg4 harg4 arg9 arg10 arg11 x0 x1 x2 x3) (kernelRun0_A.sl.v788 c arg1 harg1 arg2 harg2 arg3 harg3 arg4 harg4 arg9 arg10 arg11 x0 x1 x2 x3)
      = shapeCast S1x64x256 (hRaw c arg1 harg1 arg2 harg2 arg3 harg3 arg4 harg4 x0 x1 x2 x3 28) shapeCasts_S64x256_S1x64x256 := by
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem pK_29 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay208 (kernelRun0_A.sl.r c arg3 harg3 x2) (kernelRun0_A.sl.v803 c arg1 harg1 arg2 harg2 arg4 harg4 arg9 x0 x1 x3) (kernelRun0_A.sl.v804 c arg1 harg1 arg2 harg2 arg3 harg3 arg4 harg4 arg9 arg10 arg11 x0 x1 x2 x3) (kernelRun0_A.sl.v815 c arg1 harg1 arg2 harg2 arg3 harg3 arg4 harg4 arg9 arg10 arg11 x0 x1 x2 x3)
      = shapeCast S1x64x256 (hRaw c arg1 harg1 arg2 harg2 arg3 harg3 arg4 harg4 x0 x1 x2 x3 29) shapeCasts_S64x256_S1x64x256 := by
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem pK_30 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay218 (kernelRun0_A.sl.r_41 c arg1 harg1 arg2 harg2 arg3 harg3 arg4 harg4 arg9 arg10 arg11 x0 x1 x2 x3) (kernelRun0_A.sl.r_42 c arg1 harg1 arg2 harg2 arg3 harg3 arg4 harg4 arg9 arg10 arg11 x0 x1 x2 x3) (kernelRun0_A.sl.r_43 c arg1 harg1 arg2 harg2 arg3 harg3 arg4 harg4 arg9 arg10 arg11 x0 x1 x2 x3) (kernelRun0_A.sl.r_44 c arg1 harg1 arg2 harg2 arg3 harg3 arg4 harg4 arg9 arg10 arg11 x0 x1 x2 x3) (kernelRun0_A.sl.v842 c arg1 harg1 arg2 harg2 arg3 harg3 arg4 harg4 arg9 arg10 arg11 x0 x1 x2 x3)
      = shapeCast S1x64x256 (hRaw c arg1 harg1 arg2 harg2 arg3 harg3 arg4 harg4 x0 x1 x2 x3 30) shapeCasts_S64x256_S1x64x256 := by
  unfold kernelRun0_A.sl.r_41 kernelRun0_A.sl.r_42 kernelRun0_A.sl.r_43 kernelRun0_A.sl.r_44
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

theorem pK_31 (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    k0_pay2 (kernelRun0_A.sl.r_45 c arg1 harg1 arg2 harg2 arg3 harg3 arg4 harg4 arg9 arg10 arg11 x0 x1 x2 x3)
      = shapeCast S1x64x256 (hRaw c arg1 harg1 arg2 harg2 arg3 harg3 arg4 harg4 x0 x1 x2 x3 31) shapeCasts_S64x256_S1x64x256 := by
  unfold kernelRun0_A.sl.r_45
  rw [gK_31 c arg1 harg1 arg2 harg2 arg3 harg3 arg4 harg4 arg9 arg10 arg11 x0 x1 x2 x3, hK_31 c arg1 harg1 arg2 harg2 arg3 harg3 arg4 harg4 arg9 arg10 arg11 x0 x1 x2 x3, cK_31 c arg1 harg1 arg2 harg2 arg3 harg3 arg4 harg4 arg9 arg10 arg11 x0 x1 x2 x3]
  rfl

/-- Slab `s` lies inside the 32 slabs. -/
theorem inb6 (s : ℕ) (hs : s < 32) : ∀ a : Fin 3, (![s, 0, 0] : Fin 3 → ℕ) a + S1x64x256.size a ≤ S32x64x256.size a := by
  intro a
  match a with
  | ⟨0, _⟩ => show s + 1 ≤ 32; omega
  | ⟨1, _⟩ => show 0 + 64 ≤ 64; omega
  | ⟨2, _⟩ => show 0 + 256 ≤ 256; omega

/-- The store of step `s` into the output block: slab `s`, the new hidden array cast to one slab. -/
def pcK (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S32x64x1024 .f32) (x1 : Vec F S1024x1024 .f32) (x2 : Vec F S256x1024 .f32) (x3 : Vec F S1x1024 .f32) (s : ℕ) (hs : s < 32) : View.Piece (Elt F) S32x64x256 .f32 :=
  ⟨Rect.unit (s := S32x64x256) ![s, 0, 0] S1x64x256.size (inb6 s hs), shapeCast S1x64x256 (hRaw c arg1 harg1 arg2 harg2 arg3 harg3 arg4 harg4 x0 x1 x2 x3 s) shapeCasts_S64x256_S1x64x256⟩

/-- The body's stores into the output block, last first. -/
theorem H6_eq (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S2048x1024 .f32) (arg10 : Memref sig .tc .vmem S64x256 .f32) (arg11 : Memref sig .tc .vmem S64x256 .f32) (x0 : Vec F S32x64x1024 .f32) (x1 : Vec F S1024x1024 .f32) (x2 : Vec F S256x1024 .f32) (x3 : Vec F S1x1024 .f32) :
    kernelRun0_A.sl.H6_32 c arg1 harg1 arg2 harg2 arg3 harg3 arg4 harg4 arg9 arg10 arg11 x0 x1 x2 x3
      = [pcK c arg1 harg1 arg2 harg2 arg3 harg3 arg4 harg4 x0 x1 x2 x3 31 (by norm_num),
      pcK c arg1 harg1 arg2 harg2 arg3 harg3 arg4 harg4 x0 x1 x2 x3 30 (by norm_num),
      pcK c arg1 harg1 arg2 harg2 arg3 harg3 arg4 harg4 x0 x1 x2 x3 29 (by norm_num),
      pcK c arg1 harg1 arg2 harg2 arg3 harg3 arg4 harg4 x0 x1 x2 x3 28 (by norm_num),
      pcK c arg1 harg1 arg2 harg2 arg3 harg3 arg4 harg4 x0 x1 x2 x3 27 (by norm_num),
      pcK c arg1 harg1 arg2 harg2 arg3 harg3 arg4 harg4 x0 x1 x2 x3 26 (by norm_num),
      pcK c arg1 harg1 arg2 harg2 arg3 harg3 arg4 harg4 x0 x1 x2 x3 25 (by norm_num),
      pcK c arg1 harg1 arg2 harg2 arg3 harg3 arg4 harg4 x0 x1 x2 x3 24 (by norm_num),
      pcK c arg1 harg1 arg2 harg2 arg3 harg3 arg4 harg4 x0 x1 x2 x3 23 (by norm_num),
      pcK c arg1 harg1 arg2 harg2 arg3 harg3 arg4 harg4 x0 x1 x2 x3 22 (by norm_num),
      pcK c arg1 harg1 arg2 harg2 arg3 harg3 arg4 harg4 x0 x1 x2 x3 21 (by norm_num),
      pcK c arg1 harg1 arg2 harg2 arg3 harg3 arg4 harg4 x0 x1 x2 x3 20 (by norm_num),
      pcK c arg1 harg1 arg2 harg2 arg3 harg3 arg4 harg4 x0 x1 x2 x3 19 (by norm_num),
      pcK c arg1 harg1 arg2 harg2 arg3 harg3 arg4 harg4 x0 x1 x2 x3 18 (by norm_num),
      pcK c arg1 harg1 arg2 harg2 arg3 harg3 arg4 harg4 x0 x1 x2 x3 17 (by norm_num),
      pcK c arg1 harg1 arg2 harg2 arg3 harg3 arg4 harg4 x0 x1 x2 x3 16 (by norm_num),
      pcK c arg1 harg1 arg2 harg2 arg3 harg3 arg4 harg4 x0 x1 x2 x3 15 (by norm_num),
      pcK c arg1 harg1 arg2 harg2 arg3 harg3 arg4 harg4 x0 x1 x2 x3 14 (by norm_num),
      pcK c arg1 harg1 arg2 harg2 arg3 harg3 arg4 harg4 x0 x1 x2 x3 13 (by norm_num),
      pcK c arg1 harg1 arg2 harg2 arg3 harg3 arg4 harg4 x0 x1 x2 x3 12 (by norm_num),
      pcK c arg1 harg1 arg2 harg2 arg3 harg3 arg4 harg4 x0 x1 x2 x3 11 (by norm_num),
      pcK c arg1 harg1 arg2 harg2 arg3 harg3 arg4 harg4 x0 x1 x2 x3 10 (by norm_num),
      pcK c arg1 harg1 arg2 harg2 arg3 harg3 arg4 harg4 x0 x1 x2 x3 9 (by norm_num),
      pcK c arg1 harg1 arg2 harg2 arg3 harg3 arg4 harg4 x0 x1 x2 x3 8 (by norm_num),
      pcK c arg1 harg1 arg2 harg2 arg3 harg3 arg4 harg4 x0 x1 x2 x3 7 (by norm_num),
      pcK c arg1 harg1 arg2 harg2 arg3 harg3 arg4 harg4 x0 x1 x2 x3 6 (by norm_num),
      pcK c arg1 harg1 arg2 harg2 arg3 harg3 arg4 harg4 x0 x1 x2 x3 5 (by norm_num),
      pcK c arg1 harg1 arg2 harg2 arg3 harg3 arg4 harg4 x0 x1 x2 x3 4 (by norm_num),
      pcK c arg1 harg1 arg2 harg2 arg3 harg3 arg4 harg4 x0 x1 x2 x3 3 (by norm_num),
      pcK c arg1 harg1 arg2 harg2 arg3 harg3 arg4 harg4 x0 x1 x2 x3 2 (by norm_num),
      pcK c arg1 harg1 arg2 harg2 arg3 harg3 arg4 harg4 x0 x1 x2 x3 1 (by norm_num),
      pcK c arg1 harg1 arg2 harg2 arg3 harg3 arg4 harg4 x0 x1 x2 x3 0 (by norm_num)] := by
  unfold kernelRun0_A.sl.H6_32
  rw [pK_31 c arg1 harg1 arg2 harg2 arg3 harg3 arg4 harg4 arg9 arg10 arg11 x0 x1 x2 x3, pK_30 c arg1 harg1 arg2 harg2 arg3 harg3 arg4 harg4 arg9 arg10 arg11 x0 x1 x2 x3, pK_29 c arg1 harg1 arg2 harg2 arg3 harg3 arg4 harg4 arg9 arg10 arg11 x0 x1 x2 x3, pK_28 c arg1 harg1 arg2 harg2 arg3 harg3 arg4 harg4 arg9 arg10 arg11 x0 x1 x2 x3, pK_27 c arg1 harg1 arg2 harg2 arg3 harg3 arg4 harg4 arg9 arg10 arg11 x0 x1 x2 x3, pK_26 c arg1 harg1 arg2 harg2 arg3 harg3 arg4 harg4 arg9 arg10 arg11 x0 x1 x2 x3, pK_25 c arg1 harg1 arg2 harg2 arg3 harg3 arg4 harg4 arg9 arg10 arg11 x0 x1 x2 x3, pK_24 c arg1 harg1 arg2 harg2 arg3 harg3 arg4 harg4 arg9 arg10 arg11 x0 x1 x2 x3, pK_23 c arg1 harg1 arg2 harg2 arg3 harg3 arg4 harg4 arg9 arg10 arg11 x0 x1 x2 x3, pK_22 c arg1 harg1 arg2 harg2 arg3 harg3 arg4 harg4 arg9 arg10 arg11 x0 x1 x2 x3, pK_21 c arg1 harg1 arg2 harg2 arg3 harg3 arg4 harg4 arg9 arg10 arg11 x0 x1 x2 x3, pK_20 c arg1 harg1 arg2 harg2 arg3 harg3 arg4 harg4 arg9 arg10 arg11 x0 x1 x2 x3, pK_19 c arg1 harg1 arg2 harg2 arg3 harg3 arg4 harg4 arg9 arg10 arg11 x0 x1 x2 x3, pK_18 c arg1 harg1 arg2 harg2 arg3 harg3 arg4 harg4 arg9 arg10 arg11 x0 x1 x2 x3, pK_17 c arg1 harg1 arg2 harg2 arg3 harg3 arg4 harg4 arg9 arg10 arg11 x0 x1 x2 x3, pK_16 c arg1 harg1 arg2 harg2 arg3 harg3 arg4 harg4 arg9 arg10 arg11 x0 x1 x2 x3, pK_15 c arg1 harg1 arg2 harg2 arg3 harg3 arg4 harg4 arg9 arg10 arg11 x0 x1 x2 x3, pK_14 c arg1 harg1 arg2 harg2 arg3 harg3 arg4 harg4 arg9 arg10 arg11 x0 x1 x2 x3, pK_13 c arg1 harg1 arg2 harg2 arg3 harg3 arg4 harg4 arg9 arg10 arg11 x0 x1 x2 x3, pK_12 c arg1 harg1 arg2 harg2 arg3 harg3 arg4 harg4 arg9 arg10 arg11 x0 x1 x2 x3, pK_11 c arg1 harg1 arg2 harg2 arg3 harg3 arg4 harg4 arg9 arg10 arg11 x0 x1 x2 x3, pK_10 c arg1 harg1 arg2 harg2 arg3 harg3 arg4 harg4 arg9 arg10 arg11 x0 x1 x2 x3, pK_9 c arg1 harg1 arg2 harg2 arg3 harg3 arg4 harg4 arg9 arg10 arg11 x0 x1 x2 x3, pK_8 c arg1 harg1 arg2 harg2 arg3 harg3 arg4 harg4 arg9 arg10 arg11 x0 x1 x2 x3, pK_7 c arg1 harg1 arg2 harg2 arg3 harg3 arg4 harg4 arg9 arg10 arg11 x0 x1 x2 x3, pK_6 c arg1 harg1 arg2 harg2 arg3 harg3 arg4 harg4 arg9 arg10 arg11 x0 x1 x2 x3, pK_5 c arg1 harg1 arg2 harg2 arg3 harg3 arg4 harg4 arg9 arg10 arg11 x0 x1 x2 x3, pK_4 c arg1 harg1 arg2 harg2 arg3 harg3 arg4 harg4 arg9 arg10 arg11 x0 x1 x2 x3, pK_3 c arg1 harg1 arg2 harg2 arg3 harg3 arg4 harg4 arg9 arg10 arg11 x0 x1 x2 x3, pK_2 c arg1 harg1 arg2 harg2 arg3 harg3 arg4 harg4 arg9 arg10 arg11 x0 x1 x2 x3, pK_1 c arg1 harg1 arg2 harg2 arg3 harg3 arg4 harg4 arg9 arg10 arg11 x0 x1 x2 x3, pK_0 c arg1 harg1 arg2 harg2 arg3 harg3 arg4 harg4 arg9 arg10 arg11 x0 x1 x2 x3]
  try rfl

/-- The output block as one function: entry `(s, b, j)` is entry `(b, j)` of the new hidden array of step `s`. -/
def outK (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S32x64x1024 .f32) (x1 : Vec F S1024x1024 .f32) (x2 : Vec F S256x1024 .f32) (x3 : Vec F S1x1024 .f32) : S32x64x256.Idx → Elt F .f32 :=
  fun y => hRaw c arg1 harg1 arg2 harg2 arg3 harg3 arg4 harg4 x0 x1 x2 x3 (y 0).val (ix2 (⟨(y 1).val, (y 1).isLt⟩ : Fin 64) (⟨(y 2).val, (y 2).isLt⟩ : Fin 256))

/-- The store of step `s` holds the function's values on slab `s`. -/
theorem pcK_ok (c : Dev nD) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S32x64x1024 .f32) (x1 : Vec F S1024x1024 .f32) (x2 : Vec F S256x1024 .f32) (x3 : Vec F S1x1024 .f32) (s : ℕ) (hs : s < 32) (x : (pcK c arg1 harg1 arg2 harg2 arg3 harg3 arg4 harg4 x0 x1 x2 x3 s hs).1.shape.Idx) :
    (pcK c arg1 harg1 arg2 harg2 arg3 harg3 arg4 harg4 x0 x1 x2 x3 s hs).2 x = outK c arg1 harg1 arg2 harg2 arg3 harg3 arg4 harg4 x0 x1 x2 x3 ((pcK c arg1 harg1 arg2 harg2 arg3 harg3 arg4 harg4 x0 x1 x2 x3 s hs).1.emb x) := by
  show shapeCast S1x64x256 (hRaw c arg1 harg1 arg2 harg2 arg3 harg3 arg4 harg4 x0 x1 x2 x3 s) shapeCasts_S64x256_S1x64x256 x = _
  refine (shapeCast_addUnit_apply ![64, 256] (hRaw c arg1 harg1 arg2 harg2 arg3 harg3 arg4 harg4 x0 x1 x2 x3 s) shapeCasts_S64x256_S1x64x256 x).trans ?_
  have h0 : (x 0).val = 0 := by
    have h : (x 0).val < 1 := (x 0).isLt
    omega
  have e0 : (((pcK c arg1 harg1 arg2 harg2 arg3 harg3 arg4 harg4 x0 x1 x2 x3 s hs).1.emb x) 0).val = s := by
    rw [Rect.emb_apply]
    show s + 1 * (x 0).val = s
    omega
  unfold outK
  rw [e0]
  congr 1
  funext a
  apply Fin.ext
  match a with
  | ⟨0, _⟩ => show (x 1).val = 0 + 1 * (x 1).val; omega
  | ⟨1, _⟩ => show (x 2).val = 0 + 1 * (x 2).val; omega

/-- What the body leaves in the hidden-state output block. -/
theorem out6_eq (c : Dev nD) (i : grid0.Coords) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S32x64x256 .f32) (harg7 : arg7.IsWhole) (arg8 : Memref sig .tc .vmem S32x64x512 .f32) (harg8 : arg8.IsWhole) (arg9 : Memref sig .tc .vmem S2048x1024 .f32) (harg9 : arg9.IsWhole) (arg10 : Memref sig .tc .vmem S64x256 .f32) (harg10 : arg10.IsWhole) (arg11 : Memref sig .tc .vmem S64x256 .f32) (harg11 : arg11.IsWhole)
    (x0 : Vec F S32x64x1024 .f32) (x1 : Vec F S1024x1024 .f32) (x2 : Vec F S256x1024 .f32) (x3 : Vec F S1x1024 .f32) (x4 : Vec F S256x512 .f32) (x5 : Vec F S1x512 .f32) :
    out0_A_6 c i arg1 harg1 arg2 harg2 arg3 harg3 arg4 harg4 arg5 harg5 arg6 harg6 arg7 harg7 arg8 harg8 arg9 harg9 arg10 harg10 arg11 harg11 x0 x1 x2 x3 x4 x5 = outK c arg1 harg1 arg2 harg2 arg3 harg3 arg4 harg4 x0 x1 x2 x3 := by
  funext y
  have hc := cover0_A_6 c i arg1 harg1 arg2 harg2 arg3 harg3 arg4 harg4 arg5 harg5 arg6 harg6 arg7 harg7 arg8 harg8 arg9 harg9 arg10 harg10 arg11 harg11 x0 x1 x2 x3 x4 x5 y
  unfold out0_A_6
  rw [View.read_writes_junk_eq_canon]
  refine View.canon_apply_of_pieces (outK c arg1 harg1 arg2 harg2 arg3 harg3 arg4 harg4 x0 x1 x2 x3) _ ?_ y hc
  show ∀ p ∈ kernelRun0_A.sl.H6_32 c arg1 harg1 arg2 harg2 arg3 harg3 arg4 harg4 arg9 arg10 arg11 x0 x1 x2 x3, ∀ x : p.1.shape.Idx, p.2 x = outK c arg1 harg1 arg2 harg2 arg3 harg3 arg4 harg4 x0 x1 x2 x3 (p.1.emb x)
  rw [H6_eq]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact pcK_ok c arg1 harg1 arg2 harg2 arg3 harg3 arg4 harg4 x0 x1 x2 x3 _ _

/-- What the body leaves in the head output block: the heads of what it left in the hidden-state block. -/
theorem out7_eq (c : Dev nD) (i : grid0.Coords) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S32x64x256 .f32) (harg7 : arg7.IsWhole) (arg8 : Memref sig .tc .vmem S32x64x512 .f32) (harg8 : arg8.IsWhole) (arg9 : Memref sig .tc .vmem S2048x1024 .f32) (harg9 : arg9.IsWhole) (arg10 : Memref sig .tc .vmem S64x256 .f32) (harg10 : arg10.IsWhole) (arg11 : Memref sig .tc .vmem S64x256 .f32) (harg11 : arg11.IsWhole)
    (x0 : Vec F S32x64x1024 .f32) (x1 : Vec F S1024x1024 .f32) (x2 : Vec F S256x1024 .f32) (x3 : Vec F S1x1024 .f32) (x4 : Vec F S256x512 .f32) (x5 : Vec F S1x512 .f32) :
    out0_A_7 c i arg1 harg1 arg2 harg2 arg3 harg3 arg4 harg4 arg5 harg5 arg6 harg6 arg7 harg7 arg8 harg8 arg9 harg9 arg10 harg10 arg11 harg11 x0 x1 x2 x3 x4 x5
      = k0_pay3 (out0_A_6 c i arg1 harg1 arg2 harg2 arg3 harg3 arg4 harg4 arg5 harg5 arg6 harg6 arg7 harg7 arg8 harg8 arg9 harg9 arg10 harg10 arg11 harg11 x0 x1 x2 x3 x4 x5)
          (View.readAt (Elt F) arg5.view (Rect.unit ![0, 0] S256x512.size inb_S256x512_S256x512_0_0).toLoadRect (harg5.unread x4))
          (View.readAt (Elt F) arg6.view (Rect.unit ![0, 0] S1x512.size inb_S1x512_S1x512_0_0).toLoadRect (harg6.unread x5)) := by
  have hv : kernelRun0_A.sl.v884 c arg1 harg1 arg2 harg2 arg3 harg3 arg4 harg4 arg7 arg9 arg10 arg11 x0 x1 x2 x3
      = out0_A_6 c i arg1 harg1 arg2 harg2 arg3 harg3 arg4 harg4 arg5 harg5 arg6 harg6 arg7 harg7 arg8 harg8 arg9 harg9 arg10 harg10 arg11 harg11 x0 x1 x2 x3 x4 x5 := by
    unfold kernelRun0_A.sl.v884 out0_A_6
    rw [View.readCov_eq_canon', View.read_writes_junk_eq_canon]
    show View.ld (View.canon (kernelRun0_A.sl.H6_32 c arg1 harg1 arg2 harg2 arg3 harg3 arg4 harg4 arg9 arg10 arg11 x0 x1 x2 x3)) (Rect.unit ![0, 0, 0] S32x64x256.size inb_S32x64x256_S32x64x256_0_0_0) = View.canon (kernelRun0_A.sl.H6_32 c arg1 harg1 arg2 harg2 arg3 harg3 arg4 harg4 arg9 arg10 arg11 x0 x1 x2 x3)
    exact View.ld_unit_zero (by funext a; match a with | ⟨0, _⟩ => rfl | ⟨1, _⟩ => rfl | ⟨2, _⟩ => rfl) _ _
  unfold out0_A_7
  rw [View.read_writes_junk_eq_canon]
  show View.canon [(⟨Rect.unit ![0, 0, 0] S32x64x512.size inb_S32x64x512_S32x64x512_0_0_0, k0_pay3 (kernelRun0_A.sl.v884 c arg1 harg1 arg2 harg2 arg3 harg3 arg4 harg4 arg7 arg9 arg10 arg11 x0 x1 x2 x3) _ _⟩ : View.Piece (Elt F) S32x64x512 .f32)] = _
  rw [View.canon_unit_zero (by funext a; match a with | ⟨0, _⟩ => rfl | ⟨1, _⟩ => rfl | ⟨2, _⟩ => rfl), hv]

end Cert.KernelIdeal.KV

end
-- ==== Proof.LibFlatten.lean ====
/-
  A cast that merges the two leading axes of a rank-3 array, or splits the leading axis of a rank-2 array, read at an index.

  An `[A, B, C]` array and an `[N, C]` array with the same number of elements hold their elements in the same row-major
  order, so entry `(a, b, c)` of the one is entry `(a · B + b, c)` of the other, whichever way the cast goes. General: any
  element type and any extents; the row coordinate is taken with the equation it satisfies, so that it may be spelt in any
  way.
-/
import Idealize.ShloMosaic.Lib.ValueIdx
import Idealize.ShloMosaic.Lib.Pipeline.Value

noncomputable section

namespace Cert.LibFlatten

open Idealize.ShloMosaic Idealize.ShloMosaic.ValueIdx

/-- Merging the two leading axes: entry `(r, c)` of the `[N, C]` result, `r = a · B + b`, is entry `(a, b, c)` of the operand. -/
theorem merge_apply {α : Type} {A B C N : ℕ} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) : shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- Splitting the leading axis: entry `(a, b, c)` of the `[A, B, C]` result is entry `(r, c)` of the operand, `r = a · B + b`. -/
theorem split_apply {α : Type} {A B C N : ℕ} (y : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) : shapeCast ⟨3, ![A, B, C]⟩ y h (ix3 a b c) = y (ix2 r c) := by
  refine shapeCast_apply y h (ix3 a b c) (ix2 r c) ?_
  rw [Shape.rowMajor_val_three, Shape.rowMajor_val_two]
  show r.val * C + c.val = (a.val * B + b.val) * C + c.val
  rw [hr]

end Cert.LibFlatten

end
-- ==== Proof.KBlock.lean ====
/-
  What one grid point of the kernel leaves in its two output blocks, entry by entry.

  The point's block holds 64 batch rows over all 32 steps. Entry (s, b, j) of the hidden-state block is row b's hidden
  state after step s, computed from that row's own 32 input vectors; entry (s, b, n) of the head block is that hidden
  state times the head weights plus the head bias.
-/
import proofs.«106864_g2000204369025975_pallaspilot1_7_1_alg».proof.Proof.Gen.KernelIdeal.Frame
import proofs.«106864_g2000204369025975_pallaspilot1_7_1_alg».proof.Proof.KOut
import proofs.«106864_g2000204369025975_pallaspilot1_7_1_alg».proof.Proof.LibFlatten

set_option maxRecDepth 16384

noncomputable section

open scoped BigOperators

namespace Cert.KernelIdeal.KV

open Idealize.ShloMosaic Idealize.ShloMosaic.TcCoe Idealize.ShloMosaic.ValueIdx
open Idealize.SL.Sem
open Cert.KernelIdeal Cert.KernelIdeal.Gen Cert.Lstm

/-- A load of a whole input block reads the block. -/
theorem readWhole {S : Shape} (m : Memref sig .tc .vmem S .f32) (hm : m.IsWhole) (X : Vec Ideal S .f32)
    {off : Fin S.rank → ℕ} (h : off = fun _ => 0) (inb : ∀ a, off a + S.size a ≤ S.size a) :
    View.readAt (Elt Ideal) m.view (Rect.unit off S.size inb).toLoadRect (hm.unread X) = X := by
  rw [View.readAt_eq_ld, hm.read_unread, View.ld_unit_zero h]

theorem z2 : (![0, 0] : Fin 2 → ℕ) = fun _ => 0 := by
  funext a; match a with | ⟨0, _⟩ => rfl | ⟨1, _⟩ => rfl

theorem z3 : (![0, 0, 0] : Fin 3 → ℕ) = fun _ => 0 := by
  funext a; match a with | ⟨0, _⟩ => rfl | ⟨1, _⟩ => rfl | ⟨2, _⟩ => rfl

/-- The recurrent weights the body reads are the weight block. -/
theorem WK_eq (c : Dev nD) (arg3 : Memref sig .tc .vmem S256x1024 .f32) (harg3 : arg3.IsWhole) (x2 : Vec Ideal S256x1024 .f32) :
    WK (F := Ideal) c arg3 harg3 x2 = x2 := by
  unfold WK kernelRun0_A.sl.r
  exact readWhole arg3 harg3 x2 z2 _

/-- Entry `(b, n)` of step `s'`'s projected inputs: row `b`'s input vector of that step through the input weights, plus the bias. -/
theorem GK_apply (arg1 : Memref sig .tc .vmem S32x64x1024 .f32) (harg1 : arg1.IsWhole) (arg2 : Memref sig .tc .vmem S1024x1024 .f32) (harg2 : arg2.IsWhole) (arg4 : Memref sig .tc .vmem S1x1024 .f32) (harg4 : arg4.IsWhole) (x0 : Vec Ideal S32x64x1024 .f32) (x1 : Vec Ideal S1024x1024 .f32) (x3 : Vec Ideal S1x1024 .f32) (s' : ℕ) (b : Fin 64) (n : Fin 1024) :
    GK (F := Ideal) arg1 harg1 arg2 harg2 arg4 harg4 x0 x1 x3 s' (ix2 b n)
      = (∑ k : Fin 1024, x0 (ix3 (tm s') b k) * x1 (ix2 k n)) + x3 (ix2 (0 : Fin 1) n) := by
  unfold GK gxK k0_pay4
  rw [readWhole arg1 harg1 x0 z3, readWhole arg2 harg2 x1 z2, readWhole arg4 harg4 x3 z2]
  rw [shapeCast_self, shapeCast_self]
  have hlt : 64 * (s' % 32) + b.val < 2048 := by
    have := Nat.mod_lt s' (by norm_num : 32 > 0); have := b.isLt; omega
  have hidx : (Rect.unit (s := S2048x1024) ![64 * (s' % 32), 0] S64x1024.size (inbG s')).idx (ix2 b n)
      = ix2 (⟨64 * (s' % 32) + b.val, hlt⟩ : Fin 2048) n := by
    funext a; apply Fin.ext
    match a with
    | ⟨0, _⟩ => show 64 * (s' % 32) + 1 * b.val = 64 * (s' % 32) + b.val; omega
    | ⟨1, _⟩ => show 0 + 1 * n.val = n.val; omega
  rw [hidx]
  refine (vAffine_apply (N := 2048) (K := 1024) (M := 1024) _ x1 x3 _ _ n).trans ?_
  congr 1
  refine Finset.sum_congr rfl fun k _ => ?_
  congr 1
  exact Cert.LibFlatten.merge_apply x0 _ (tm s') b k _ (by show 64 * (s' % 32) + b.val = (s' % 32) * 64 + b.val; omega)

/-- Entry `(s, b, j)` of the hidden-state block: the row recurrence on row `b` of the input block. -/
theorem out6_apply (c : Dev nD) (i : grid0.Coords) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S32x64x256 .f32) (harg7 : arg7.IsWhole) (arg8 : Memref sig .tc .vmem S32x64x512 .f32) (harg8 : arg8.IsWhole) (arg9 : Memref sig .tc .vmem S2048x1024 .f32) (harg9 : arg9.IsWhole) (arg10 : Memref sig .tc .vmem S64x256 .f32) (harg10 : arg10.IsWhole) (arg11 : Memref sig .tc .vmem S64x256 .f32) (harg11 : arg11.IsWhole)
    (x0 : Vec Ideal S32x64x1024 .f32) (x1 : Vec Ideal S1024x1024 .f32) (x2 : Vec Ideal S256x1024 .f32) (x3 : Vec Ideal S1x1024 .f32) (x4 : Vec Ideal S256x512 .f32) (x5 : Vec Ideal S1x512 .f32)
    (s : Fin 32) (b : Fin 64) (j : Fin 256) :
    out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix3 s b j)
      = (rowState (wmat x2)
          (fun s' n => (∑ k : Fin 1024, x0 (ix3 (tm s') b k) * x1 (ix2 k n)) + x3 (ix2 (0 : Fin 1) n)) (s.val + 1)).1 j := by
  have hG : (fun (s' : ℕ) (n : Fin 1024) => (GK (F := Ideal) arg1 harg1 arg2 harg2 arg4 harg4 x0 x1 x3) s' (ix2 b n)) = (fun (s' : ℕ) (n : Fin 1024) => (∑ k : Fin 1024, x0 (ix3 (tm s') b k) * x1 (ix2 k n)) + x3 (ix2 (0 : Fin 1) n)) :=
    funext fun s' => funext fun n => GK_apply arg1 harg1 arg2 harg2 arg4 harg4 x0 x1 x3 s' b n
  have key := vState_apply witK x2 (GK (F := Ideal) arg1 harg1 arg2 harg2 arg4 harg4 x0 x1 x3) b s.val
  rw [hG] at key
  have k1 : (fun k : Fin 256 => (vState witK x2 (GK (F := Ideal) arg1 harg1 arg2 harg2 arg4 harg4 x0 x1 x3) s.val).1 (ix2 b k)) = (rowState (wmat x2) (fun (s' : ℕ) (n : Fin 1024) => (∑ k : Fin 1024, x0 (ix3 (tm s') b k) * x1 (ix2 k n)) + x3 (ix2 (0 : Fin 1) n)) s.val).1 :=
    congrArg Prod.fst key
  have k2 : (fun k : Fin 256 => (vState witK x2 (GK (F := Ideal) arg1 harg1 arg2 harg2 arg4 harg4 x0 x1 x3) s.val).2 (ix2 b k)) = (rowState (wmat x2) (fun (s' : ℕ) (n : Fin 1024) => (∑ k : Fin 1024, x0 (ix3 (tm s') b k) * x1 (ix2 k n)) + x3 (ix2 (0 : Fin 1) n)) s.val).2 :=
    congrArg Prod.snd key
  have e1 : out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix3 s b j)
      = vH witK x2 ((GK (F := Ideal) arg1 harg1 arg2 harg2 arg4 harg4 x0 x1 x3) s.val) (vState witK x2 (GK (F := Ideal) arg1 harg1 arg2 harg2 arg4 harg4 x0 x1 x3) s.val).1 (vState witK x2 (GK (F := Ideal) arg1 harg1 arg2 harg2 arg4 harg4 x0 x1 x3) s.val).2 (ix2 b j) := by
    rw [out6_eq]
    show hRaw (F := Ideal) c arg1 harg1 arg2 harg2 arg3 harg3 arg4 harg4 x0 x1 x2 x3 s.val (ix2 b j) = _
    unfold hRaw stK
    rw [WK_eq]
  have e2 := vH_apply witK x2 ((GK (F := Ideal) arg1 harg1 arg2 harg2 arg4 harg4 x0 x1 x3) s.val) (vState witK x2 (GK (F := Ideal) arg1 harg1 arg2 harg2 arg4 harg4 x0 x1 x3) s.val).1 (vState witK x2 (GK (F := Ideal) arg1 harg1 arg2 harg2 arg4 harg4 x0 x1 x3) s.val).2 b j
  rw [k1, k2, congrFun hG s.val] at e2
  exact e1.trans e2

/-- The head payload at an index: the hidden states' block, flattened, times the head weights, plus the head bias. -/
theorem pay3_apply (O : Vec Ideal S32x64x256 .f32) (A : Vec Ideal S256x512 .f32) (r : Vec Ideal S1x512 .f32)
    (s : Fin 32) (b : Fin 64) (n : Fin 512) :
    k0_pay3 (F := Ideal) O A r (ix3 s b n) = (∑ k : Fin 256, O (ix3 s b k) * A (ix2 k n)) + r (ix2 (0 : Fin 1) n) := by
  unfold k0_pay3
  rw [shapeCast_self]
  have hlt : s.val * 64 + b.val < 2048 := by have := s.isLt; have := b.isLt; omega
  refine (Cert.LibFlatten.split_apply (A := 32) (B := 64) (C := 512) (N := 2048) _ shapeCasts_S2048x512_S32x64x512 s b n
    (⟨s.val * 64 + b.val, hlt⟩ : Fin 2048) rfl).trans ?_
  refine (vAffine_apply (N := 2048) (K := 256) (M := 512) (shapeCast S2048x256 O shapeCasts_S32x64x256_S2048x256) A r
    broadcasts_S1x512_S2048x512 (⟨s.val * 64 + b.val, hlt⟩ : Fin 2048) n).trans ?_
  congr 1
  refine Finset.sum_congr rfl fun k _ => ?_
  congr 1
  exact Cert.LibFlatten.merge_apply (A := 32) (B := 64) (C := 256) (N := 2048) O shapeCasts_S32x64x256_S2048x256 s b k _ rfl

/-- Entry `(s, b, n)` of the head block: the hidden state of `(s, b)` times the head weights, plus the head bias. -/
theorem out7_apply (c : Dev nD) (i : grid0.Coords) (arg1 : Memref sig .tc .vmem S32x64x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S32x64x256 .f32) (harg7 : arg7.IsWhole) (arg8 : Memref sig .tc .vmem S32x64x512 .f32) (harg8 : arg8.IsWhole) (arg9 : Memref sig .tc .vmem S2048x1024 .f32) (harg9 : arg9.IsWhole) (arg10 : Memref sig .tc .vmem S64x256 .f32) (harg10 : arg10.IsWhole) (arg11 : Memref sig .tc .vmem S64x256 .f32) (harg11 : arg11.IsWhole)
    (x0 : Vec Ideal S32x64x1024 .f32) (x1 : Vec Ideal S1024x1024 .f32) (x2 : Vec Ideal S256x1024 .f32) (x3 : Vec Ideal S1x1024 .f32) (x4 : Vec Ideal S256x512 .f32) (x5 : Vec Ideal S1x512 .f32)
    (s : Fin 32) (b : Fin 64) (n : Fin 512) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 (ix3 s b n)
      = (∑ k : Fin 256, out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix3 s b k) * x4 (ix2 k n)) + x5 (ix2 (0 : Fin 1) n) := by
  rw [out7_eq, pay3_apply, readWhole arg5 harg5 x4 z2, readWhole arg6 harg6 x5 z2]

end Cert.KernelIdeal.KV

end
-- ==== Proof.KArray.lean ====
/-
  From the blocks of one grid point to the whole arrays the region leaves.

  The region has two grid points. Point t stages rows 64 t … 64 t + 63 of the batch axis of the time-major input
  (all 32 steps, all 1024 features) and the five weight and bias arrays whole, and writes back rows 64 t … 64 t + 63 of
  the two time-major results. The time-major input is the batch-major argument with its first two axes exchanged. So
  entry (s, b, ·) of a point's block is entry (s, 64 t + b, ·) of the array, every row of the batch axis lies in exactly
  one point's block, and the two result arrays end holding, entry by entry, the hidden states and the heads of
  LstmSpec read time-major.
-/
import proofs.«106864_g2000204369025975_pallaspilot1_7_1_alg».proof.Proof.KBlock
import proofs.«106864_g2000204369025975_pallaspilot1_7_1_alg».proof.Proof.LstmSpec
import Idealize.ShloMosaic.Lib.Pipeline.Value
import Idealize.ShloMosaic.Lib.Tactic

set_option maxRecDepth 16384

noncomputable section

open scoped BigOperators

namespace Cert.KernelIdeal.KV

open Idealize.ShloMosaic Idealize.ShloMosaic.TcCoe Idealize.ShloMosaic.ValueIdx
open Idealize.SL.Sem
open Idealize.ShloMosaic.Pipeline (Dat)
open Cert.KernelIdeal Cert.KernelIdeal.Gen Cert.Lstm

variable (m : (ℓ : Loc nD τ sig) → Buf (Elt Ideal) ℓ)

/-! ## Where each window's block sits -/

/-- The block index of the input window and of the two result windows is (0, t, 0) at point t; the five whole
    windows sit at (0, 0). Decided over the two points. -/
theorem idx_facts : ∀ t : Fin cfg0.N,
    win0_0.index t (0 : Fin 3) = 0 ∧ win0_0.index t (1 : Fin 3) = t.val ∧ win0_0.index t (2 : Fin 3) = 0
    ∧ win0_6.index t (0 : Fin 3) = 0 ∧ win0_6.index t (1 : Fin 3) = t.val ∧ win0_6.index t (2 : Fin 3) = 0
    ∧ win0_7.index t (0 : Fin 3) = 0 ∧ win0_7.index t (1 : Fin 3) = t.val ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A point is 0 or 1. -/
theorem t_lt (t : Fin cfg0.N) : t.val < 2 := by
  have h : t.val < cfg0.N := t.isLt
  have hN : cfg0.N = 2 := N_0
  omega

/-! ## The arguments -/

/-- The six argument arrays of core c as launched, read as functions of their indices. -/
abbrev aX (c : Dev nD) : SX.Idx → EReal := m ((c.tc : Thread nD τ).loc main_arg0)
abbrev aWih (c : Dev nD) : SWih.Idx → EReal := m ((c.tc : Thread nD τ).loc main_arg1)
abbrev aWhh (c : Dev nD) : SWhh.Idx → EReal := m ((c.tc : Thread nD τ).loc main_arg2)
abbrev aBb (c : Dev nD) : SB.Idx → EReal := m ((c.tc : Thread nD τ).loc main_arg3)
abbrev aFw (c : Dev nD) : SFw.Idx → EReal := m ((c.tc : Thread nD τ).loc main_arg4)
abbrev aFb (c : Dev nD) : SFb.Idx → EReal := m ((c.tc : Thread nD τ).loc main_arg5)

/-! ## The input blocks read at an index -/

/-- Entry (s, b, k) of the input block of point t is entry (s, 64 t + b, k) of the time-major input. -/
theorem iblk0_apply (c : Dev nD) (t : Fin cfg0.N) (s : Fin 32) (b : Fin 64) (k : Fin 1024) (B : Fin 128)
    (hB : B.val = 64 * t.val + b.val) :
    (iblk m c 0 t : Vec Ideal S32x64x1024 .f32) (ix3 s b k)
      = (V m c main_v0 : S32x128x1024.Idx → EReal) (ix3 s B k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 32 + 1 * s.val = s.val; rw [e0]; omega
  | ⟨1, _⟩ => show win0_0.index t (1 : Fin 3) * 64 + 1 * b.val = B.val; rw [e1, hB]; omega
  | ⟨2, _⟩ => show win0_0.index t (2 : Fin 3) * 1024 + 1 * k.val = k.val; rw [e2]; omega

/-- Window 1 stages its array whole and no host operation writes that array before the region: its block at any
    point is the argument. -/
theorem iblk1_apply (c : Dev nD) (t : Fin cfg0.N) (i : S1024x1024.Idx) :
    (iblk m c 1 t : Vec Ideal S1024x1024 .f32) i = aWih m c i := by
  obtain ⟨-, -, -, -, -, -, -, -, -, f10, f11, f20, f21, f30, f31, f40, f41, f50, f51⟩ := idx_facts t
  unfold iblk
  rw [View.read_apply]
  show V m c main_arg1 _ = m ((c.tc : Thread nD τ).loc main_arg1) i
  rw [V_main_arg1]
  refine congrArg (m ((c.tc : Thread nD τ).loc main_arg1) : S1024x1024.Idx → EReal) ?_
  funext a
  apply Fin.ext
  match a with
  | ⟨0, _⟩ => show win0_1.index t (0 : Fin 2) * 1024 + 1 * (i 0).val = (i 0).val; rw [f10]; omega
  | ⟨1, _⟩ => show win0_1.index t (1 : Fin 2) * 1024 + 1 * (i 1).val = (i 1).val; rw [f11]; omega

/-- Window 2 stages its array whole and no host operation writes that array before the region: its block at any
    point is the argument. -/
theorem iblk2_apply (c : Dev nD) (t : Fin cfg0.N) (i : S256x1024.Idx) :
    (iblk m c 2 t : Vec Ideal S256x1024 .f32) i = aWhh m c i := by
  obtain ⟨-, -, -, -, -, -, -, -, -, f10, f11, f20, f21, f30, f31, f40, f41, f50, f51⟩ := idx_facts t
  unfold iblk
  rw [View.read_apply]
  show V m c main_arg2 _ = m ((c.tc : Thread nD τ).loc main_arg2) i
  rw [V_main_arg2]
  refine congrArg (m ((c.tc : Thread nD τ).loc main_arg2) : S256x1024.Idx → EReal) ?_
  funext a
  apply Fin.ext
  match a with
  | ⟨0, _⟩ => show win0_2.index t (0 : Fin 2) * 256 + 1 * (i 0).val = (i 0).val; rw [f20]; omega
  | ⟨1, _⟩ => show win0_2.index t (1 : Fin 2) * 1024 + 1 * (i 1).val = (i 1).val; rw [f21]; omega

/-- Window 3 stages its array whole and no host operation writes that array before the region: its block at any
    point is the argument. -/
theorem iblk3_apply (c : Dev nD) (t : Fin cfg0.N) (i : S1x1024.Idx) :
    (iblk m c 3 t : Vec Ideal S1x1024 .f32) i = aBb m c i := by
  obtain ⟨-, -, -, -, -, -, -, -, -, f10, f11, f20, f21, f30, f31, f40, f41, f50, f51⟩ := idx_facts t
  unfold iblk
  rw [View.read_apply]
  show V m c main_arg3 _ = m ((c.tc : Thread nD τ).loc main_arg3) i
  rw [V_main_arg3]
  refine congrArg (m ((c.tc : Thread nD τ).loc main_arg3) : S1x1024.Idx → EReal) ?_
  funext a
  apply Fin.ext
  match a with
  | ⟨0, _⟩ => show win0_3.index t (0 : Fin 2) * 1 + 1 * (i 0).val = (i 0).val; rw [f30]; omega
  | ⟨1, _⟩ => show win0_3.index t (1 : Fin 2) * 1024 + 1 * (i 1).val = (i 1).val; rw [f31]; omega

/-- Window 4 stages its array whole and no host operation writes that array before the region: its block at any
    point is the argument. -/
theorem iblk4_apply (c : Dev nD) (t : Fin cfg0.N) (i : S256x512.Idx) :
    (iblk m c 4 t : Vec Ideal S256x512 .f32) i = aFw m c i := by
  obtain ⟨-, -, -, -, -, -, -, -, -, f10, f11, f20, f21, f30, f31, f40, f41, f50, f51⟩ := idx_facts t
  unfold iblk
  rw [View.read_apply]
  show V m c main_arg4 _ = m ((c.tc : Thread nD τ).loc main_arg4) i
  rw [V_main_arg4]
  refine congrArg (m ((c.tc : Thread nD τ).loc main_arg4) : S256x512.Idx → EReal) ?_
  funext a
  apply Fin.ext
  match a with
  | ⟨0, _⟩ => show win0_4.index t (0 : Fin 2) * 256 + 1 * (i 0).val = (i 0).val; rw [f40]; omega
  | ⟨1, _⟩ => show win0_4.index t (1 : Fin 2) * 512 + 1 * (i 1).val = (i 1).val; rw [f41]; omega

/-- Window 5 stages its array whole and no host operation writes that array before the region: its block at any
    point is the argument. -/
theorem iblk5_apply (c : Dev nD) (t : Fin cfg0.N) (i : S1x512.Idx) :
    (iblk m c 5 t : Vec Ideal S1x512 .f32) i = aFb m c i := by
  obtain ⟨-, -, -, -, -, -, -, -, -, f10, f11, f20, f21, f30, f31, f40, f41, f50, f51⟩ := idx_facts t
  unfold iblk
  rw [View.read_apply]
  show V m c main_arg5 _ = m ((c.tc : Thread nD τ).loc main_arg5) i
  rw [V_main_arg5]
  refine congrArg (m ((c.tc : Thread nD τ).loc main_arg5) : S1x512.Idx → EReal) ?_
  funext a
  apply Fin.ext
  match a with
  | ⟨0, _⟩ => show win0_5.index t (0 : Fin 2) * 1 + 1 * (i 0).val = (i 0).val; rw [f50]; omega
  | ⟨1, _⟩ => show win0_5.index t (1 : Fin 2) * 512 + 1 * (i 1).val = (i 1).val; rw [f51]; omega

/-! ## The time-major input -/

/-- The time-major input is the batch-major argument with its first two axes exchanged. -/
theorem V_main_v0 (c : Dev nD) :
    (V m c main_v0 : S32x128x1024.Idx → EReal)
      = transpose S32x128x1024 [1, 0, 2] (m ((c.tc : Thread nD τ).loc main_arg0) : S128x32x1024.Idx → EReal)
          transposes_S128x32x1024_S32x128x1024_1_0_2 := by
  show StableHlo.after hostOps0 (fun b => m (c, b)) (Proc.devRef .tc main_v0) = _
  after_results

/-- Entry (s, B, k) of the time-major input is entry (B, s, k) of the argument. -/
theorem V_main_v0_apply (c : Dev nD) (s : Fin 32) (B : Fin 128) (k : Fin 1024) :
    (V m c main_v0 : S32x128x1024.Idx → EReal) (ix3 s B k)
      = (m ((c.tc : Thread nD τ).loc main_arg0) : S128x32x1024.Idx → EReal) (ix3 B s k) := by
  rw [V_main_v0]
  refine transpose_apply _ _ _ (ix3 s B k) (ix3 B s k) fun b => ?_
  match b with
  | ⟨0, _⟩ => rfl
  | ⟨1, _⟩ => rfl
  | ⟨2, _⟩ => rfl

/-- Entry (s, b, k) of the input block of point t is entry (64 t + b, s, k) of the argument. -/
theorem iblk0_arg (c : Dev nD) (t : Fin cfg0.N) (s : Fin 32) (b : Fin 64) (k : Fin 1024) (B : Fin 128)
    (hB : B.val = 64 * t.val + b.val) :
    (iblk m c 0 t : Vec Ideal S32x64x1024 .f32) (ix3 s b k) = aX m c (ix3 B s k) :=
  (iblk0_apply m c t s b k B hB).trans (V_main_v0_apply m c s B k)

/-! ## The row recurrence's inputs and the heads, from equal entries -/

/-- Projected inputs computed from a block whose row b is batch row B of the argument, with the argument's weights
    and bias: batch row B's. The sums run over the same feature index with equal summands. -/
theorem proj_rows (X : SX.Idx → EReal) (Wih : SWih.Idx → EReal) (Bb : SB.Idx → EReal)
    (x0 : Vec Ideal S32x64x1024 .f32) (x1 : Vec Ideal S1024x1024 .f32) (x3 : Vec Ideal S1x1024 .f32)
    (b : Fin 64) (B : Fin 128) (h0 : ∀ (s : Fin 32) (k : Fin 1024), x0 (ix3 s b k) = X (ix3 B s k))
    (h1 : ∀ i, x1 i = Wih i) (h3 : ∀ i, x3 i = Bb i) :
    (fun (s' : ℕ) (n : Fin 1024) => (∑ k : Fin 1024, x0 (ix3 (tm s') b k) * x1 (ix2 k n)) + x3 (ix2 (0 : Fin 1) n))
      = proj X Wih Bb B := by
  funext s' n
  unfold proj
  rw [h3]
  exact congrArg (fun u => u + Bb (ix2 (0 : Fin 1) n)) (Finset.sum_congr rfl fun k _ => by rw [h0, h1])

/-- Equal recurrent weights, entry by entry, give the same matrix. -/
theorem wmat_rows (Whh : SWhh.Idx → EReal) (x2 : Vec Ideal S256x1024 .f32) (h2 : ∀ i, x2 i = Whh i) :
    wmat x2 = wmat Whh := by
  funext k n
  exact h2 (ix2 k n)

/-- The heads computed from a hidden-state block whose entries (s, b, ·) are batch row B's hidden state after step
    s, with the argument's head weights and bias: batch row B's heads at step s. -/
theorem heads_rows (X : SX.Idx → EReal) (Wih : SWih.Idx → EReal) (Whh : SWhh.Idx → EReal) (Bb : SB.Idx → EReal)
    (Fw : SFw.Idx → EReal) (Fb : SFb.Idx → EReal)
    (o : Vec Ideal S32x64x256 .f32) (x4 : Vec Ideal S256x512 .f32) (x5 : Vec Ideal S1x512 .f32)
    (s : Fin 32) (b : Fin 64) (n : Fin 512) (B : Fin 128)
    (h6 : ∀ k : Fin 256, o (ix3 s b k) = hid X Wih Whh Bb B s k) (h4 : ∀ i, x4 i = Fw i) (h5 : ∀ i, x5 i = Fb i) :
    (∑ k : Fin 256, o (ix3 s b k) * x4 (ix2 k n)) + x5 (ix2 (0 : Fin 1) n) = heads X Wih Whh Bb Fw Fb B s n := by
  unfold heads
  rw [h5]
  exact congrArg (fun u => u + Fb (ix2 (0 : Fin 1) n)) (Finset.sum_congr rfl fun k _ => by rw [h6, h4])

/-! ## What one point leaves in its result blocks -/

/-- The hidden-state block and the head block point t leaves, as the run finds them. -/
abbrev o6 (c : Dev nD) (t : Fin cfg0.N) : Vec Ideal S32x64x256 .f32 :=
  out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
abbrev o7 (c : Dev nD) (t : Fin cfg0.N) : Vec Ideal S32x64x512 .f32 :=
  out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

theorem outsAt0_eq (c : Dev nD) (t : Fin cfg0.N) : outsAt0 m c t = (o6 m c t, o7 m c t) := rfl

/-- Entry (s, b, j) of the hidden-state block point t leaves is batch row 64 t + b's hidden state after step s. -/
theorem out6_block (c : Dev nD) (t : Fin cfg0.N) (s : Fin 32) (b : Fin 64) (j : Fin 256) (B : Fin 128)
    (hB : B.val = 64 * t.val + b.val) :
    o6 m c t (ix3 s b j) = hid (aX m c) (aWih m c) (aWhh m c) (aBb m c) B s j := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) s b j).trans ?_
  have e1 := proj_rows (aX m c) (aWih m c) (aBb m c) (iblk m c 0 t) (iblk m c 1 t) (iblk m c 3 t) b B
    (fun s k => iblk0_arg m c t s b k B hB) (iblk1_apply m c t) (iblk3_apply m c t)
  have e2 := wmat_rows (aWhh m c) (iblk m c 2 t) (iblk2_apply m c t)
  rw [e1, e2]
  rfl

/-- Entry (s, b, n) of the head block point t leaves is batch row 64 t + b's head column n at step s. -/
theorem out7_block (c : Dev nD) (t : Fin cfg0.N) (s : Fin 32) (b : Fin 64) (n : Fin 512) (B : Fin 128)
    (hB : B.val = 64 * t.val + b.val) :
    o7 m c t (ix3 s b n) = heads (aX m c) (aWih m c) (aWhh m c) (aBb m c) (aFw m c) (aFb m c) B s n :=
  (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) s b n).trans
    (heads_rows (aX m c) (aWih m c) (aWhh m c) (aBb m c) (aFw m c) (aFb m c) (o6 m c t) (iblk m c 4 t) (iblk m c 5 t)
      s b n B (fun k => out6_block m c t s b k B hB) (iblk4_apply m c t) (iblk5_apply m c t))

/-- The batch row of entry (·, b, ·) of point t's block. -/
def rowOf (t : Fin cfg0.N) (b : Fin 64) : Fin 128 := ⟨64 * t.val + b.val, by have := t_lt t; have := b.isLt; omega⟩

/-- The hidden-state block of point t at any index of it. -/
theorem out6_point (c : Dev nD) (t : Fin cfg0.N) (y : S32x64x256.Idx) :
    o6 m c t y = rOutT (aX m c) (aWih m c) (aWhh m c) (aBb m c) (ix3 (y 0) (rowOf t (y 1)) (y 2)) :=
  (congrArg (o6 m c t) (eq_ix3 y)).trans (out6_block m c t (y 0) (y 1) (y 2) (rowOf t (y 1)) rfl)

/-- The head block of point t at any index of it. -/
theorem out7_point (c : Dev nD) (t : Fin cfg0.N) (y : S32x64x512.Idx) :
    o7 m c t y = headsT (aX m c) (aWih m c) (aWhh m c) (aBb m c) (aFw m c) (aFb m c) (ix3 (y 0) (rowOf t (y 1)) (y 2)) :=
  (congrArg (o7 m c t) (eq_ix3 y)).trans (out7_block m c t (y 0) (y 1) (y 2) (rowOf t (y 1)) rfl)

/-! ## What each point writes back, and the arrays after the last point -/

/-- A block whose entry (s, b, j) is the array G's entry (s, 64 t + b, j) is block t of G, as the hidden-state
    window cuts it: the window's block index at point t is (0, t, 0) and its block has 64 rows of the batch axis. -/
theorem flushed_of_point6 (t : Fin cfg0.N) (o : Vec Ideal S32x64x256 .f32) (G : S32x128x256.Idx → EReal)
    (h : ∀ y : S32x64x256.Idx, o y = G (ix3 (y 0) (rowOf t (y 1)) (y 2))) :
    (cfg0.win 6).cut (grid0.coords t) o = ((cfg0.win 6).blk t).view.read (Elt Ideal) G := by
  obtain ⟨-, -, -, g0, g1, g2, -⟩ := idx_facts t
  funext y
  show o y = G (((cfg0.win 6).blk t).view.emb y)
  refine (h y).trans (congrArg G ?_)
  funext a
  apply Fin.ext
  match a with
  | ⟨0, _⟩ => show (y 0).val = win0_6.index t (0 : Fin 3) * 32 + 1 * (y 0).val; rw [g0]; omega
  | ⟨1, _⟩ => show 64 * t.val + (y 1).val = win0_6.index t (1 : Fin 3) * 64 + 1 * (y 1).val; rw [g1]; omega
  | ⟨2, _⟩ => show (y 2).val = win0_6.index t (2 : Fin 3) * 256 + 1 * (y 2).val; rw [g2]; omega

/-- The same for the head window. -/
theorem flushed_of_point7 (t : Fin cfg0.N) (o : Vec Ideal S32x64x512 .f32) (G : S32x128x512.Idx → EReal)
    (h : ∀ y : S32x64x512.Idx, o y = G (ix3 (y 0) (rowOf t (y 1)) (y 2))) :
    (cfg0.win 7).cut (grid0.coords t) o = ((cfg0.win 7).blk t).view.read (Elt Ideal) G := by
  obtain ⟨-, -, -, -, -, -, g0, g1, g2, -⟩ := idx_facts t
  funext y
  show o y = G (((cfg0.win 7).blk t).view.emb y)
  refine (h y).trans (congrArg G ?_)
  funext a
  apply Fin.ext
  match a with
  | ⟨0, _⟩ => show (y 0).val = win0_7.index t (0 : Fin 3) * 32 + 1 * (y 0).val; rw [g0]; omega
  | ⟨1, _⟩ => show 64 * t.val + (y 1).val = win0_7.index t (1 : Fin 3) * 64 + 1 * (y 1).val; rw [g1]; omega
  | ⟨2, _⟩ => show (y 2).val = win0_7.index t (2 : Fin 3) * 512 + 1 * (y 2).val; rw [g2]; omega

/-- What the body leaves in the two result windows' buffers at point t. -/
theorem after6 (c : Dev nD) (t : Fin cfg0.N) : (dats m 0 c).after 6 t = o6 m c t := by
  rw [after0_6, outsAt0_eq]
theorem after7 (c : Dev nD) (t : Fin cfg0.N) : (dats m 0 c).after 7 t = o7 m c t := by
  rw [after0_7, outsAt0_eq]

/-- What point t writes back to the hidden-state array is block t of the time-major hidden states. -/
theorem flushed6_eq (c : Dev nD) (t : Fin cfg0.N) :
    (dats m 0 c).flushed 6 t = ((cfg0.win 6).blk t).view.read (Elt Ideal) (rOutT (aX m c) (aWih m c) (aWhh m c) (aBb m c)) := by
  show (cfg0.win 6).cut (grid0.coords t) ((dats m 0 c).after 6 t) = _
  rw [after6]
  exact flushed_of_point6 t (o6 m c t) (rOutT (aX m c) (aWih m c) (aWhh m c) (aBb m c)) (out6_point m c t)

/-- What point t writes back to the head array is block t of the time-major heads. -/
theorem flushed7_eq (c : Dev nD) (t : Fin cfg0.N) :
    (dats m 0 c).flushed 7 t = ((cfg0.win 7).blk t).view.read (Elt Ideal) (headsT (aX m c) (aWih m c) (aWhh m c) (aBb m c) (aFw m c) (aFb m c)) := by
  show (cfg0.win 7).cut (grid0.coords t) ((dats m 0 c).after 7 t) = _
  rw [after7]
  exact flushed_of_point7 t (o7 m c t) (headsT (aX m c) (aWih m c) (aWhh m c) (aBb m c) (aFw m c) (aFb m c)) (out7_point m c t)

/-- An index of result array 0 is in point t's block iff each coordinate is in the block's range on its axis. -/
theorem mem_blk6 (t : Fin cfg0.N) (i : S32x128x256.Idx) :
    i ∈ ((cfg0.win 6).blk t).view.set ↔ ∀ a : Fin 3, win0_6.index t a * S32x64x256.size a ≤ (i a).val
      ∧ (i a).val < win0_6.index t a * S32x64x256.size a + S32x64x256.size a := by
  show i ∈ ((View.whole main_v1_0).slice (win0_6.rect t)).set ↔ _
  rw [View.set_slice_whole, Rect.mem_set_unit]
  exact Iff.rfl

/-- Every index of the array is in the block of the point its batch row belongs to: row B is in point B / 64. -/
theorem cover6 (i : S32x128x256.Idx) :
    ∃ t : Fin cfg0.N, (cfg0.win 6).flush t = true ∧ i ∈ ((cfg0.win 6).blk t).view.set := by
  have h0 : (i 0).val < 32 := (i 0).isLt
  have h1 : (i 1).val < 128 := (i 1).isLt
  have h2 : (i 2).val < 256 := (i 2).isLt
  have hN : cfg0.N = 2 := N_0
  have hlt : (i 1).val / 64 < cfg0.N := by omega
  obtain ⟨-, -, -, g0, g1, g2, k0, k1, k2, -⟩ := idx_facts ⟨(i 1).val / 64, hlt⟩
  refine ⟨⟨(i 1).val / 64, hlt⟩, flush0_6 _, ?_⟩
  rw [mem_blk6]
  intro a
  match a with
  | ⟨0, _⟩ =>
    show win0_6.index ⟨(i 1).val / 64, hlt⟩ (0 : Fin 3) * 32 ≤ (i 0).val
      ∧ (i 0).val < win0_6.index ⟨(i 1).val / 64, hlt⟩ (0 : Fin 3) * 32 + 32
    rw [g0]; omega
  | ⟨1, _⟩ =>
    show win0_6.index ⟨(i 1).val / 64, hlt⟩ (1 : Fin 3) * 64 ≤ (i 1).val
      ∧ (i 1).val < win0_6.index ⟨(i 1).val / 64, hlt⟩ (1 : Fin 3) * 64 + 64
    rw [g1]; show (i 1).val / 64 * 64 ≤ (i 1).val ∧ (i 1).val < (i 1).val / 64 * 64 + 64; omega
  | ⟨2, _⟩ =>
    show win0_6.index ⟨(i 1).val / 64, hlt⟩ (2 : Fin 3) * 256 ≤ (i 2).val
      ∧ (i 2).val < win0_6.index ⟨(i 1).val / 64, hlt⟩ (2 : Fin 3) * 256 + 256
    rw [g2]; omega

/-- An index of result array 1 is in point t's block iff each coordinate is in the block's range on its axis. -/
theorem mem_blk7 (t : Fin cfg0.N) (i : S32x128x512.Idx) :
    i ∈ ((cfg0.win 7).blk t).view.set ↔ ∀ a : Fin 3, win0_7.index t a * S32x64x512.size a ≤ (i a).val
      ∧ (i a).val < win0_7.index t a * S32x64x512.size a + S32x64x512.size a := by
  show i ∈ ((View.whole main_v1_1).slice (win0_7.rect t)).set ↔ _
  rw [View.set_slice_whole, Rect.mem_set_unit]
  exact Iff.rfl

/-- Every index of the array is in the block of the point its batch row belongs to: row B is in point B / 64. -/
theorem cover7 (i : S32x128x512.Idx) :
    ∃ t : Fin cfg0.N, (cfg0.win 7).flush t = true ∧ i ∈ ((cfg0.win 7).blk t).view.set := by
  have h0 : (i 0).val < 32 := (i 0).isLt
  have h1 : (i 1).val < 128 := (i 1).isLt
  have h2 : (i 2).val < 512 := (i 2).isLt
  have hN : cfg0.N = 2 := N_0
  have hlt : (i 1).val / 64 < cfg0.N := by omega
  obtain ⟨-, -, -, g0, g1, g2, k0, k1, k2, -⟩ := idx_facts ⟨(i 1).val / 64, hlt⟩
  refine ⟨⟨(i 1).val / 64, hlt⟩, flush0_7 _, ?_⟩
  rw [mem_blk7]
  intro a
  match a with
  | ⟨0, _⟩ =>
    show win0_7.index ⟨(i 1).val / 64, hlt⟩ (0 : Fin 3) * 32 ≤ (i 0).val
      ∧ (i 0).val < win0_7.index ⟨(i 1).val / 64, hlt⟩ (0 : Fin 3) * 32 + 32
    rw [k0]; omega
  | ⟨1, _⟩ =>
    show win0_7.index ⟨(i 1).val / 64, hlt⟩ (1 : Fin 3) * 64 ≤ (i 1).val
      ∧ (i 1).val < win0_7.index ⟨(i 1).val / 64, hlt⟩ (1 : Fin 3) * 64 + 64
    rw [k1]; show (i 1).val / 64 * 64 ≤ (i 1).val ∧ (i 1).val < (i 1).val / 64 * 64 + 64; omega
  | ⟨2, _⟩ =>
    show win0_7.index ⟨(i 1).val / 64, hlt⟩ (2 : Fin 3) * 512 ≤ (i 2).val
      ∧ (i 2).val < win0_7.index ⟨(i 1).val / 64, hlt⟩ (2 : Fin 3) * 512 + 512
    rw [k2]; omega

/-- The hidden-state array after the last point: the time-major hidden states. -/
theorem final6 (c : Dev nD) : (dats m 0 c).arrAt 6 cfg0.N = rOutT (aX m c) (aWih m c) (aWhh m c) (aBb m c) :=
  (dats m 0 c).arrAt_eq_of_cover 6 (rOutT (aX m c) (aWih m c) (aWhh m c) (aBb m c)) (fun t _ => flushed6_eq m c t) cover6

/-- The head array after the last point: the time-major heads. -/
theorem final7 (c : Dev nD) : (dats m 0 c).arrAt 7 cfg0.N = headsT (aX m c) (aWih m c) (aWhh m c) (aBb m c) (aFw m c) (aFb m c) :=
  (dats m 0 c).arrAt_eq_of_cover 7 (headsT (aX m c) (aWih m c) (aWhh m c) (aBb m c) (aFw m c) (aFb m c)) (fun t _ => flushed7_eq m c t) cover7

end Cert.KernelIdeal.KV

end
-- ==== Proof.KRun.lean ====
/-
  The layout the host applies after the region, and the whole run.

  After the region the two time-major result arrays have their first two axes exchanged back to batch-major, and the
  exchanged head array is cut along its last axis into four groups of 128 columns. Exchanging the first two axes of the
  time-major hidden states gives the batch-major hidden states; column n of group f of the exchanged heads is column
  128 f + n of the heads of the same batch row and step. The run's post is the frame run's, read at those arrays, with
  the six arguments as launched.
-/
import proofs.«106864_g2000204369025975_pallaspilot1_7_1_alg».proof.Proof.KArray
import Idealize.ShloMosaic.Lib.Pipeline.FrameSuffix

set_option maxRecDepth 16384

noncomputable section

open scoped BigOperators

namespace Cert.KernelIdeal.KV

open Idealize.ShloMosaic Idealize.ShloMosaic.TcCoe Idealize.ShloMosaic.ValueIdx
open Idealize.SL.Sem
open Idealize.ShloMosaic.Pipeline (Dat)
open Cert.KernelIdeal Cert.KernelIdeal.Gen Cert.Lstm

variable (m : (ℓ : Loc nD τ sig) → Buf (Elt Ideal) ℓ) (ρ : Dev nD → PrngReg)

/-! ## Exchanging the first two axes, and cutting the head columns -/

/-- The time-major hidden states with the first two axes exchanged are the batch-major hidden states: entry
    (B, s, j) of the exchanged array is entry (s, B, j) of the time-major one. -/
theorem transpose_rOutT (x : SX.Idx → EReal) (wih : SWih.Idx → EReal) (whh : SWhh.Idx → EReal) (b : SB.Idx → EReal)
    (h : S32x128x256.Transposes [1, 0, 2] S128x32x256) :
    transpose S128x32x256 [1, 0, 2] (rOutT x wih whh b) h = rOut x wih whh b := by
  funext i
  refine (transpose_apply _ _ h i (ix3 (i 1) (i 0) (i 2)) fun a => ?_).trans ?_
  · match a with
    | ⟨0, _⟩ => rfl
    | ⟨1, _⟩ => rfl
    | ⟨2, _⟩ => rfl
  · rfl

/-- The 128 columns starting at column o of the exchanged heads: entry (B, s, n) is column o + n of batch row B's
    heads at step s. -/
theorem head_tail (o : ℕ) (ho : o + 128 ≤ 512) (x : SX.Idx → EReal) (wih : SWih.Idx → EReal) (whh : SWhh.Idx → EReal)
    (b : SB.Idx → EReal) (fcw : SFw.Idx → EReal) (fcb : SFb.Idx → EReal)
    (h : S32x128x512.Transposes [1, 0, 2] S128x32x512) (hs : S128x32x512.Slices ![0, 0, o] S128x32x128) :
    extractStridedSlice S128x32x128 ![0, 0, o] (transpose S128x32x512 [1, 0, 2] (headsT x wih whh b fcw fcb) h) hs
      = fun i : S128x32x128.Idx => heads x wih whh b fcw fcb (i 0) (i 1)
          ⟨o + (i 2).val, by have h2 : (i 2).val < 128 := (i 2).isLt; omega⟩ := by
  funext i
  have h2 : (i 2).val < 128 := (i 2).isLt
  refine (extractStridedSlice_apply _ _ hs i (ix3 (i 0) (i 1) ⟨o + (i 2).val, by omega⟩) fun a => ?_).trans ?_
  · match a with
    | ⟨0, _⟩ => show (i 0).val = 0 + (i 0).val; omega
    | ⟨1, _⟩ => show (i 1).val = 0 + (i 1).val; omega
    | ⟨2, _⟩ => rfl
  · refine (transpose_apply _ _ h _ (ix3 (i 1) (i 0) ⟨o + (i 2).val, by omega⟩) fun a => ?_).trans ?_
    · match a with
      | ⟨0, _⟩ => rfl
      | ⟨1, _⟩ => rfl
      | ⟨2, _⟩ => rfl
    · rfl

/-! ## The arrays the lines after the region read -/

/-- The lines after the region find the hidden-state array at the time-major hidden states … -/
theorem arr6 (c : Dev nD) :
    (Pipeline.withArrays (cfgs 0).spec c (V0 m c) (fun w => (dats m 0 c).arrAt w (cfgs 0).N)
        (Proc.devRef .tc main_v1_0) : S32x128x256.Idx → EReal) = rOutT (aX m c) (aWih m c) (aWhh m c) (aBb m c) :=
  (Pipeline.withArrays_arr spec0 launch0.win.arr_inj c _ _ 6).trans (final6 m c)

/-- … and the head array at the time-major heads. -/
theorem arr7 (c : Dev nD) :
    (Pipeline.withArrays (cfgs 0).spec c (V0 m c) (fun w => (dats m 0 c).arrAt w (cfgs 0).N)
        (Proc.devRef .tc main_v1_1) : S32x128x512.Idx → EReal) = headsT (aX m c) (aWih m c) (aWhh m c) (aBb m c) (aFw m c) (aFb m c) :=
  (Pipeline.withArrays_arr spec0 launch0.win.arr_inj c _ _ 7).trans (final7 m c)

/-! ## The results -/

/-- The last result of the program: the hidden states of all steps, batch-major. -/
theorem tail_v2 (c : Dev nD) :
    (Pipeline.afterTail₀ cfgs (dats m) 0 (V0 m) [hostOps1] c main_v2 : S128x32x256.Idx → EReal)
      = rOut (aX m c) (aWih m c) (aWhh m c) (aBb m c) := by
  unfold Pipeline.afterTail₀
  show StableHlo.after hostOps1 _ (Proc.devRef .tc main_v2) = _
  after_results
  refine (congrArg (fun A : S32x128x256.Idx → EReal =>
    transpose S128x32x256 [1, 0, 2] A transposes_S32x128x256_S128x32x256_1_0_2) (arr6 m c)).trans ?_
  exact transpose_rOutT _ _ _ _ _

/-- Result one of the program: head 0, batch-major. -/
theorem tail_v4 (c : Dev nD) :
    (Pipeline.afterTail₀ cfgs (dats m) 0 (V0 m) [hostOps1] c main_v4 : S128x32x128.Idx → EReal)
      = headOut 0 (by norm_num) (aX m c) (aWih m c) (aWhh m c) (aBb m c) (aFw m c) (aFb m c) := by
  unfold Pipeline.afterTail₀
  show StableHlo.after hostOps1 _ (Proc.devRef .tc main_v4) = _
  after_results
  refine (congrArg (fun A : S32x128x512.Idx → EReal =>
    extractStridedSlice S128x32x128 ![0, 0, 0]
      (transpose S128x32x512 [1, 0, 2] A transposes_S32x128x512_S128x32x512_1_0_2)
      slices_S128x32x512_S128x32x128_0_0_0) (arr7 m c)).trans ?_
  refine (head_tail 0 (by norm_num) _ _ _ _ _ _ _ _).trans ?_
  rfl

/-- Result two of the program: head 1, batch-major. -/
theorem tail_v5 (c : Dev nD) :
    (Pipeline.afterTail₀ cfgs (dats m) 0 (V0 m) [hostOps1] c main_v5 : S128x32x128.Idx → EReal)
      = headOut 1 (by norm_num) (aX m c) (aWih m c) (aWhh m c) (aBb m c) (aFw m c) (aFb m c) := by
  unfold Pipeline.afterTail₀
  show StableHlo.after hostOps1 _ (Proc.devRef .tc main_v5) = _
  after_results
  refine (congrArg (fun A : S32x128x512.Idx → EReal =>
    extractStridedSlice S128x32x128 ![0, 0, 128]
      (transpose S128x32x512 [1, 0, 2] A transposes_S32x128x512_S128x32x512_1_0_2)
      slices_S128x32x512_S128x32x128_0_0_128) (arr7 m c)).trans ?_
  refine (head_tail 128 (by norm_num) _ _ _ _ _ _ _ _).trans ?_
  rfl

/-- Result three of the program: head 2, batch-major. -/
theorem tail_v6 (c : Dev nD) :
    (Pipeline.afterTail₀ cfgs (dats m) 0 (V0 m) [hostOps1] c main_v6 : S128x32x128.Idx → EReal)
      = headOut 2 (by norm_num) (aX m c) (aWih m c) (aWhh m c) (aBb m c) (aFw m c) (aFb m c) := by
  unfold Pipeline.afterTail₀
  show StableHlo.after hostOps1 _ (Proc.devRef .tc main_v6) = _
  after_results
  refine (congrArg (fun A : S32x128x512.Idx → EReal =>
    extractStridedSlice S128x32x128 ![0, 0, 256]
      (transpose S128x32x512 [1, 0, 2] A transposes_S32x128x512_S128x32x512_1_0_2)
      slices_S128x32x512_S128x32x128_0_0_256) (arr7 m c)).trans ?_
  refine (head_tail 256 (by norm_num) _ _ _ _ _ _ _ _).trans ?_
  rfl

/-- Result four of the program: head 3, batch-major. -/
theorem tail_v7 (c : Dev nD) :
    (Pipeline.afterTail₀ cfgs (dats m) 0 (V0 m) [hostOps1] c main_v7 : S128x32x128.Idx → EReal)
      = headOut 3 (by norm_num) (aX m c) (aWih m c) (aWhh m c) (aBb m c) (aFw m c) (aFb m c) := by
  unfold Pipeline.afterTail₀
  show StableHlo.after hostOps1 _ (Proc.devRef .tc main_v7) = _
  after_results
  refine (congrArg (fun A : S32x128x512.Idx → EReal =>
    extractStridedSlice S128x32x128 ![0, 0, 384]
      (transpose S128x32x512 [1, 0, 2] A transposes_S32x128x512_S128x32x512_1_0_2)
      slices_S128x32x512_S128x32x128_0_0_384) (arr7 m c)).trans ?_
  refine (head_tail 384 (by norm_num) _ _ _ _ _ _ _ _).trans ?_
  rfl

/-! ## The run -/

/-- From any memory with zero counters, every weakly fair execution of the program terminates, and in every final
    state the five results hold the four heads and the hidden states of LstmSpec of the six arguments, which are as
    launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = headOut 0 (by norm_num) (aX m c) (aWih m c) (aWhh m c) (aBb m c) (aFw m c) (aFb m c)
      ∧ r.2.mem ((c.tc : Thread nD τ).loc main_v5) = headOut 1 (by norm_num) (aX m c) (aWih m c) (aWhh m c) (aBb m c) (aFw m c) (aFb m c)
      ∧ r.2.mem ((c.tc : Thread nD τ).loc main_v6) = headOut 2 (by norm_num) (aX m c) (aWih m c) (aWhh m c) (aBb m c) (aFw m c) (aFb m c)
      ∧ r.2.mem ((c.tc : Thread nD τ).loc main_v7) = headOut 3 (by norm_num) (aX m c) (aWih m c) (aWhh m c) (aBb m c) (aFw m c) (aFb m c)
      ∧ r.2.mem ((c.tc : Thread nD τ).loc main_v2) = rOut (aX m c) (aWih m c) (aWhh m c) (aBb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_v6 (Pipeline.mem_restRefs_of main_v6 (by decide) (by decide))).trans (tail_v6 m c),
      ((h c).2 main_v7 (Pipeline.mem_restRefs_of main_v7 (by decide) (by decide))).trans (tail_v7 m c),
      ((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KV

end
-- ==== Proof.RSteps.lean ====
/-
  The reference body's 32 steps, one after the other, as the block recurrence of LstmVec on all 128 rows.

  The body first stores the projected inputs of all 32 steps of its 128 rows as one [4096, 1024] array, zeroes the
  hidden and cell arrays, and then at step s reads rows 128 s … 128 s + 127 of the projected inputs and the two state
  arrays, and stores the new cell array, the new hidden array, and the new hidden array again as rows
  128 s … 128 s + 127 of the output. Each load reads what the latest store of the whole array left. So the hidden
  and cell arrays the step-s loads see are the block recurrence after s steps.
-/
import proofs.«106864_g2000204369025975_pallaspilot1_7_1_alg».proof.Proof.Gen.ReferenceIdeal.Frame
import proofs.«106864_g2000204369025975_pallaspilot1_7_1_alg».proof.Proof.LstmVec
import proofs.«106864_g2000204369025975_pallaspilot1_7_1_alg».proof.Proof.LibWholeStore

set_option maxRecDepth 16384

noncomputable section

open scoped BigOperators

namespace Cert.ReferenceIdeal.RV

open Idealize.ShloMosaic Idealize.ShloMosaic.TcCoe Idealize.ShloMosaic.ValueIdx
open Idealize.SL.Sem
open Cert.ReferenceIdeal Cert.ReferenceIdeal.Gen Cert.Lstm

variable {F : FTy → Type} [FloatOps F]

/-- The cuts and the identity cast of a 128-row step. -/
theorem witR : Wit 128 := ⟨slices_S128x1024_o0_0_S128x256, slices_S128x1024_o0_256_S128x256, slices_S128x1024_o0_512_S128x256, slices_S128x1024_o0_768_S128x256, shapeCasts_S128x256_S128x256⟩

/-- Rows `128 s … 128 s + 127` lie inside the 4096 rows. -/
theorem inbG (s : ℕ) : ∀ a : Fin 2, (![128 * (s % 32), 0] : Fin 2 → ℕ) a + S128x1024.size a ≤ S4096x1024.size a := by
  intro a
  have := Nat.mod_lt s (by norm_num : 32 > 0)
  match a with
  | ⟨0, _⟩ => show 128 * (s % 32) + 128 ≤ 4096; omega
  | ⟨1, _⟩ => show 0 + 1024 ≤ 1024; omega

/-- The projected inputs, all 32 steps stacked: the flattened input times the input weights, plus the bias row. -/
def gxR (arg1 : Memref sig .tc .vmem S4096x1024 .f32) (harg1 : arg1.IsWhole) (arg2 : Memref sig .tc .vmem S1024x1024 .f32) (harg2 : arg2.IsWhole) (arg4 : Memref sig .tc .vmem S1x1024 .f32) (harg4 : arg4.IsWhole) (x0 : Vec F S4096x1024 .f32) (x1 : Vec F S1024x1024 .f32) (x3 : Vec F S1x1024 .f32) : FVec F S4096x1024 .f32 :=
  k0_pay4 (View.readAt (Elt F) arg1.view (Rect.unit ![0, 0] S4096x1024.size inb_S4096x1024_S4096x1024_0_0).toLoadRect (harg1.unread x0))
    (View.readAt (Elt F) arg2.view (Rect.unit ![0, 0] S1024x1024.size inb_S1024x1024_S1024x1024_0_0).toLoadRect (harg2.unread x1))
    (View.readAt (Elt F) arg4.view (Rect.unit ![0, 0] S1x1024.size inb_S1x1024_S1x1024_0_0).toLoadRect (harg4.unread x3))

/-- The projected inputs of step `s`: rows `128 s … 128 s + 127` of the stack. -/
def GR (arg1 : Memref sig .tc .vmem S4096x1024 .f32) (harg1 : arg1.IsWhole) (arg2 : Memref sig .tc .vmem S1024x1024 .f32) (harg2 : arg2.IsWhole) (arg4 : Memref sig .tc .vmem S1x1024 .f32) (harg4 : arg4.IsWhole) (x0 : Vec F S4096x1024 .f32) (x1 : Vec F S1024x1024 .f32) (x3 : Vec F S1x1024 .f32) (s : ℕ) : FVec F (SG 128) .f32 :=
  fun y => gxR arg1 harg1 arg2 harg2 arg4 harg4 x0 x1 x3 ((Rect.unit (s := S4096x1024) ![128 * (s % 32), 0] S128x1024.size (inbG s)).idx y)

/-- The recurrent weights as the body reads them (the same load at every step). -/
def WR (arg3 : Memref sig .tc .vmem S256x1024 .f32) (harg3 : arg3.IsWhole) (x2 : Vec F S256x1024 .f32) : FVec F SWhh .f32 :=
  View.readAt (Elt F) arg3.view (Rect.unit ![0, 0] S256x1024.size inb_S256x1024_S256x1024_0_0).toLoadRect (harg3.unread x2)

/-- The (hidden, cell) arrays after `s` steps. -/
def stR (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S4096x1024 .f32) (x1 : Vec F S1024x1024 .f32) (x2 : Vec F S256x1024 .f32) (x3 : Vec F S1x1024 .f32) (s : ℕ) : FVec F (SH 128) .f32 × FVec F (SH 128) .f32 := vState witR (WR arg3 harg3 x2) (GR arg1 harg1 arg2 harg2 arg4 harg4 x0 x1 x3) s

/-- The new hidden array of step `s`, as stored into rows `128 s …` of the output. -/
def hRaw (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S4096x1024 .f32) (x1 : Vec F S1024x1024 .f32) (x2 : Vec F S256x1024 .f32) (x3 : Vec F S1x1024 .f32) (s : ℕ) : FVec F (SH 128) .f32 := vH witR (WR arg3 harg3 x2) (GR arg1 harg1 arg2 harg2 arg4 harg4 x0 x1 x3 s) (stR arg1 harg1 arg2 harg2 arg3 harg3 arg4 harg4 x0 x1 x2 x3 s).1 (stR arg1 harg1 arg2 harg2 arg3 harg3 arg4 harg4 x0 x1 x2 x3 s).2

/-- A load of any rows of the projected-input scratch reads the stack through those rows. -/
theorem gload (c : Dev nD) (arg1 : Memref sig .tc .vmem S4096x1024 .f32) (harg1 : arg1.IsWhole) (arg2 : Memref sig .tc .vmem S1024x1024 .f32) (harg2 : arg2.IsWhole) (arg4 : Memref sig .tc .vmem S1x1024 .f32) (harg4 : arg4.IsWhole) (arg9 : Memref sig .tc .vmem S4096x1024 .f32) (x0 : Vec F S4096x1024 .f32) (x1 : Vec F S1024x1024 .f32) (x3 : Vec F S1x1024 .f32) (B : Rect S4096x1024) :
    arg9.view.readCov (kernelRun0_A.sl.HS0_1 c arg1 harg1 arg2 harg2 arg4 harg4 x0 x1 x3) B.toLoadRect = View.ld (gxR arg1 harg1 arg2 harg2 arg4 harg4 x0 x1 x3) B := by
  unfold kernelRun0_A.sl.HS0_1
  exact Cert.LibWholeStore.readCov_whole_piece arg9.view (off := ![0, 0]) (by funext a; match a with | ⟨0, _⟩ => rfl | ⟨1, _⟩ => rfl) inb_S4096x1024_S4096x1024_0_0 _ B

theorem gK_0 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v22 c arg1 harg1 arg2 harg2 arg4 harg4 arg9 x0 x1 x3 = GR arg1 harg1 arg2 harg2 arg4 harg4 x0 x1 x3 0 := by
  unfold kernelRun0_A.sl.v22
  exact gload c arg1 harg1 arg2 harg2 arg4 harg4 arg9 x0 x1 x3 _

theorem gK_1 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v52 c arg1 harg1 arg2 harg2 arg4 harg4 arg9 x0 x1 x3 = GR arg1 harg1 arg2 harg2 arg4 harg4 x0 x1 x3 1 := by
  unfold kernelRun0_A.sl.v52
  exact gload c arg1 harg1 arg2 harg2 arg4 harg4 arg9 x0 x1 x3 _

theorem gK_2 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v82 c arg1 harg1 arg2 harg2 arg4 harg4 arg9 x0 x1 x3 = GR arg1 harg1 arg2 harg2 arg4 harg4 x0 x1 x3 2 := by
  unfold kernelRun0_A.sl.v82
  exact gload c arg1 harg1 arg2 harg2 arg4 harg4 arg9 x0 x1 x3 _

theorem gK_3 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v112 c arg1 harg1 arg2 harg2 arg4 harg4 arg9 x0 x1 x3 = GR arg1 harg1 arg2 harg2 arg4 harg4 x0 x1 x3 3 := by
  unfold kernelRun0_A.sl.v112
  exact gload c arg1 harg1 arg2 harg2 arg4 harg4 arg9 x0 x1 x3 _

theorem gK_4 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v142 c arg1 harg1 arg2 harg2 arg4 harg4 arg9 x0 x1 x3 = GR arg1 harg1 arg2 harg2 arg4 harg4 x0 x1 x3 4 := by
  unfold kernelRun0_A.sl.v142
  exact gload c arg1 harg1 arg2 harg2 arg4 harg4 arg9 x0 x1 x3 _

theorem gK_5 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v172 c arg1 harg1 arg2 harg2 arg4 harg4 arg9 x0 x1 x3 = GR arg1 harg1 arg2 harg2 arg4 harg4 x0 x1 x3 5 := by
  unfold kernelRun0_A.sl.v172
  exact gload c arg1 harg1 arg2 harg2 arg4 harg4 arg9 x0 x1 x3 _

theorem gK_6 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v202 c arg1 harg1 arg2 harg2 arg4 harg4 arg9 x0 x1 x3 = GR arg1 harg1 arg2 harg2 arg4 harg4 x0 x1 x3 6 := by
  unfold kernelRun0_A.sl.v202
  exact gload c arg1 harg1 arg2 harg2 arg4 harg4 arg9 x0 x1 x3 _

theorem gK_7 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v232 c arg1 harg1 arg2 harg2 arg4 harg4 arg9 x0 x1 x3 = GR arg1 harg1 arg2 harg2 arg4 harg4 x0 x1 x3 7 := by
  unfold kernelRun0_A.sl.v232
  exact gload c arg1 harg1 arg2 harg2 arg4 harg4 arg9 x0 x1 x3 _

theorem gK_8 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v262 c arg1 harg1 arg2 harg2 arg4 harg4 arg9 x0 x1 x3 = GR arg1 harg1 arg2 harg2 arg4 harg4 x0 x1 x3 8 := by
  unfold kernelRun0_A.sl.v262
  exact gload c arg1 harg1 arg2 harg2 arg4 harg4 arg9 x0 x1 x3 _

theorem gK_9 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v292 c arg1 harg1 arg2 harg2 arg4 harg4 arg9 x0 x1 x3 = GR arg1 harg1 arg2 harg2 arg4 harg4 x0 x1 x3 9 := by
  unfold kernelRun0_A.sl.v292
  exact gload c arg1 harg1 arg2 harg2 arg4 harg4 arg9 x0 x1 x3 _

theorem gK_10 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v322 c arg1 harg1 arg2 harg2 arg4 harg4 arg9 x0 x1 x3 = GR arg1 harg1 arg2 harg2 arg4 harg4 x0 x1 x3 10 := by
  unfold kernelRun0_A.sl.v322
  exact gload c arg1 harg1 arg2 harg2 arg4 harg4 arg9 x0 x1 x3 _

theorem gK_11 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v352 c arg1 harg1 arg2 harg2 arg4 harg4 arg9 x0 x1 x3 = GR arg1 harg1 arg2 harg2 arg4 harg4 x0 x1 x3 11 := by
  unfold kernelRun0_A.sl.v352
  exact gload c arg1 harg1 arg2 harg2 arg4 harg4 arg9 x0 x1 x3 _

theorem gK_12 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v382 c arg1 harg1 arg2 harg2 arg4 harg4 arg9 x0 x1 x3 = GR arg1 harg1 arg2 harg2 arg4 harg4 x0 x1 x3 12 := by
  unfold kernelRun0_A.sl.v382
  exact gload c arg1 harg1 arg2 harg2 arg4 harg4 arg9 x0 x1 x3 _

theorem gK_13 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v412 c arg1 harg1 arg2 harg2 arg4 harg4 arg9 x0 x1 x3 = GR arg1 harg1 arg2 harg2 arg4 harg4 x0 x1 x3 13 := by
  unfold kernelRun0_A.sl.v412
  exact gload c arg1 harg1 arg2 harg2 arg4 harg4 arg9 x0 x1 x3 _

theorem gK_14 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v442 c arg1 harg1 arg2 harg2 arg4 harg4 arg9 x0 x1 x3 = GR arg1 harg1 arg2 harg2 arg4 harg4 x0 x1 x3 14 := by
  unfold kernelRun0_A.sl.v442
  exact gload c arg1 harg1 arg2 harg2 arg4 harg4 arg9 x0 x1 x3 _

theorem gK_15 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v472 c arg1 harg1 arg2 harg2 arg4 harg4 arg9 x0 x1 x3 = GR arg1 harg1 arg2 harg2 arg4 harg4 x0 x1 x3 15 := by
  unfold kernelRun0_A.sl.v472
  exact gload c arg1 harg1 arg2 harg2 arg4 harg4 arg9 x0 x1 x3 _

theorem gK_16 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v502 c arg1 harg1 arg2 harg2 arg4 harg4 arg9 x0 x1 x3 = GR arg1 harg1 arg2 harg2 arg4 harg4 x0 x1 x3 16 := by
  unfold kernelRun0_A.sl.v502
  exact gload c arg1 harg1 arg2 harg2 arg4 harg4 arg9 x0 x1 x3 _

theorem gK_17 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v532 c arg1 harg1 arg2 harg2 arg4 harg4 arg9 x0 x1 x3 = GR arg1 harg1 arg2 harg2 arg4 harg4 x0 x1 x3 17 := by
  unfold kernelRun0_A.sl.v532
  exact gload c arg1 harg1 arg2 harg2 arg4 harg4 arg9 x0 x1 x3 _

theorem gK_18 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v562 c arg1 harg1 arg2 harg2 arg4 harg4 arg9 x0 x1 x3 = GR arg1 harg1 arg2 harg2 arg4 harg4 x0 x1 x3 18 := by
  unfold kernelRun0_A.sl.v562
  exact gload c arg1 harg1 arg2 harg2 arg4 harg4 arg9 x0 x1 x3 _

theorem gK_19 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v592 c arg1 harg1 arg2 harg2 arg4 harg4 arg9 x0 x1 x3 = GR arg1 harg1 arg2 harg2 arg4 harg4 x0 x1 x3 19 := by
  unfold kernelRun0_A.sl.v592
  exact gload c arg1 harg1 arg2 harg2 arg4 harg4 arg9 x0 x1 x3 _

theorem gK_20 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v622 c arg1 harg1 arg2 harg2 arg4 harg4 arg9 x0 x1 x3 = GR arg1 harg1 arg2 harg2 arg4 harg4 x0 x1 x3 20 := by
  unfold kernelRun0_A.sl.v622
  exact gload c arg1 harg1 arg2 harg2 arg4 harg4 arg9 x0 x1 x3 _

theorem gK_21 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v652 c arg1 harg1 arg2 harg2 arg4 harg4 arg9 x0 x1 x3 = GR arg1 harg1 arg2 harg2 arg4 harg4 x0 x1 x3 21 := by
  unfold kernelRun0_A.sl.v652
  exact gload c arg1 harg1 arg2 harg2 arg4 harg4 arg9 x0 x1 x3 _

theorem gK_22 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v682 c arg1 harg1 arg2 harg2 arg4 harg4 arg9 x0 x1 x3 = GR arg1 harg1 arg2 harg2 arg4 harg4 x0 x1 x3 22 := by
  unfold kernelRun0_A.sl.v682
  exact gload c arg1 harg1 arg2 harg2 arg4 harg4 arg9 x0 x1 x3 _

theorem gK_23 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v712 c arg1 harg1 arg2 harg2 arg4 harg4 arg9 x0 x1 x3 = GR arg1 harg1 arg2 harg2 arg4 harg4 x0 x1 x3 23 := by
  unfold kernelRun0_A.sl.v712
  exact gload c arg1 harg1 arg2 harg2 arg4 harg4 arg9 x0 x1 x3 _

theorem gK_24 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v742 c arg1 harg1 arg2 harg2 arg4 harg4 arg9 x0 x1 x3 = GR arg1 harg1 arg2 harg2 arg4 harg4 x0 x1 x3 24 := by
  unfold kernelRun0_A.sl.v742
  exact gload c arg1 harg1 arg2 harg2 arg4 harg4 arg9 x0 x1 x3 _

theorem gK_25 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v772 c arg1 harg1 arg2 harg2 arg4 harg4 arg9 x0 x1 x3 = GR arg1 harg1 arg2 harg2 arg4 harg4 x0 x1 x3 25 := by
  unfold kernelRun0_A.sl.v772
  exact gload c arg1 harg1 arg2 harg2 arg4 harg4 arg9 x0 x1 x3 _

theorem gK_26 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v802 c arg1 harg1 arg2 harg2 arg4 harg4 arg9 x0 x1 x3 = GR arg1 harg1 arg2 harg2 arg4 harg4 x0 x1 x3 26 := by
  unfold kernelRun0_A.sl.v802
  exact gload c arg1 harg1 arg2 harg2 arg4 harg4 arg9 x0 x1 x3 _

theorem gK_27 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v832 c arg1 harg1 arg2 harg2 arg4 harg4 arg9 x0 x1 x3 = GR arg1 harg1 arg2 harg2 arg4 harg4 x0 x1 x3 27 := by
  unfold kernelRun0_A.sl.v832
  exact gload c arg1 harg1 arg2 harg2 arg4 harg4 arg9 x0 x1 x3 _

theorem gK_28 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v862 c arg1 harg1 arg2 harg2 arg4 harg4 arg9 x0 x1 x3 = GR arg1 harg1 arg2 harg2 arg4 harg4 x0 x1 x3 28 := by
  unfold kernelRun0_A.sl.v862
  exact gload c arg1 harg1 arg2 harg2 arg4 harg4 arg9 x0 x1 x3 _

theorem gK_29 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v892 c arg1 harg1 arg2 harg2 arg4 harg4 arg9 x0 x1 x3 = GR arg1 harg1 arg2 harg2 arg4 harg4 x0 x1 x3 29 := by
  unfold kernelRun0_A.sl.v892
  exact gload c arg1 harg1 arg2 harg2 arg4 harg4 arg9 x0 x1 x3 _

theorem gK_30 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v922 c arg1 harg1 arg2 harg2 arg4 harg4 arg9 x0 x1 x3 = GR arg1 harg1 arg2 harg2 arg4 harg4 x0 x1 x3 30 := by
  unfold kernelRun0_A.sl.v922
  exact gload c arg1 harg1 arg2 harg2 arg4 harg4 arg9 x0 x1 x3 _

theorem gK_31 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v952 c arg1 harg1 arg2 harg2 arg4 harg4 arg9 x0 x1 x3 = GR arg1 harg1 arg2 harg2 arg4 harg4 x0 x1 x3 31 := by
  unfold kernelRun0_A.sl.v952
  exact gload c arg1 harg1 arg2 harg2 arg4 harg4 arg9 x0 x1 x3 _

theorem hK_0 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v20 c arg10 = (stR arg1 harg1 arg2 harg2 arg3 harg3 arg4 harg4 x0 x1 x2 x3 0).1 := by
  unfold kernelRun0_A.sl.v20 kernelRun0_A.sl.HS1_1
  rw [View.readCov_cons_toLoadRect]
  rfl

theorem cK_0 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v34 c arg11 = (stR arg1 harg1 arg2 harg2 arg3 harg3 arg4 harg4 x0 x1 x2 x3 0).2 := by
  unfold kernelRun0_A.sl.v34 kernelRun0_A.sl.HS2_1
  rw [View.readCov_cons_toLoadRect]
  rfl

theorem hK_1 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v50 c arg1 harg1 arg2 harg2 arg3 harg3 arg4 harg4 arg9 arg10 arg11 x0 x1 x2 x3 = (stR arg1 harg1 arg2 harg2 arg3 harg3 arg4 harg4 x0 x1 x2 x3 1).1 := by
  unfold kernelRun0_A.sl.v50 kernelRun0_A.sl.HS1_2
  rw [View.readCov_cons_toLoadRect]
  unfold kernelRun0_A.sl.r kernelRun0_A.sl.r_1 kernelRun0_A.sl.r_2 kernelRun0_A.sl.r_3
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem cK_1 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v64 c arg1 harg1 arg2 harg2 arg3 harg3 arg4 harg4 arg9 arg10 arg11 x0 x1 x2 x3 = (stR arg1 harg1 arg2 harg2 arg3 harg3 arg4 harg4 x0 x1 x2 x3 1).2 := by
  unfold kernelRun0_A.sl.v64 kernelRun0_A.sl.HS2_2
  rw [View.readCov_cons_toLoadRect]
  unfold kernelRun0_A.sl.r kernelRun0_A.sl.r_1 kernelRun0_A.sl.r_2
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem hK_2 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v80 c arg1 harg1 arg2 harg2 arg3 harg3 arg4 harg4 arg9 arg10 arg11 x0 x1 x2 x3 = (stR arg1 harg1 arg2 harg2 arg3 harg3 arg4 harg4 x0 x1 x2 x3 2).1 := by
  unfold kernelRun0_A.sl.v80 kernelRun0_A.sl.HS1_3
  rw [View.readCov_cons_toLoadRect]
  unfold kernelRun0_A.sl.r_5
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem cK_2 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v94 c arg1 harg1 arg2 harg2 arg3 harg3 arg4 harg4 arg9 arg10 arg11 x0 x1 x2 x3 = (stR arg1 harg1 arg2 harg2 arg3 harg3 arg4 harg4 x0 x1 x2 x3 2).2 := by
  unfold kernelRun0_A.sl.v94 kernelRun0_A.sl.HS2_3
  rw [View.readCov_cons_toLoadRect]
  unfold kernelRun0_A.sl.r_4
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem hK_3 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v110 c arg1 harg1 arg2 harg2 arg3 harg3 arg4 harg4 arg9 arg10 arg11 x0 x1 x2 x3 = (stR arg1 harg1 arg2 harg2 arg3 harg3 arg4 harg4 x0 x1 x2 x3 3).1 := by
  unfold kernelRun0_A.sl.v110 kernelRun0_A.sl.HS1_4
  rw [View.readCov_cons_toLoadRect]
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem cK_3 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v124 c arg1 harg1 arg2 harg2 arg3 harg3 arg4 harg4 arg9 arg10 arg11 x0 x1 x2 x3 = (stR arg1 harg1 arg2 harg2 arg3 harg3 arg4 harg4 x0 x1 x2 x3 3).2 := by
  unfold kernelRun0_A.sl.v124 kernelRun0_A.sl.HS2_4
  rw [View.readCov_cons_toLoadRect]
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem hK_4 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v140 c arg1 harg1 arg2 harg2 arg3 harg3 arg4 harg4 arg9 arg10 arg11 x0 x1 x2 x3 = (stR arg1 harg1 arg2 harg2 arg3 harg3 arg4 harg4 x0 x1 x2 x3 4).1 := by
  unfold kernelRun0_A.sl.v140 kernelRun0_A.sl.HS1_5
  rw [View.readCov_cons_toLoadRect]
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem cK_4 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v154 c arg1 harg1 arg2 harg2 arg3 harg3 arg4 harg4 arg9 arg10 arg11 x0 x1 x2 x3 = (stR arg1 harg1 arg2 harg2 arg3 harg3 arg4 harg4 x0 x1 x2 x3 4).2 := by
  unfold kernelRun0_A.sl.v154 kernelRun0_A.sl.HS2_5
  rw [View.readCov_cons_toLoadRect]
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem hK_5 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v170 c arg1 harg1 arg2 harg2 arg3 harg3 arg4 harg4 arg9 arg10 arg11 x0 x1 x2 x3 = (stR arg1 harg1 arg2 harg2 arg3 harg3 arg4 harg4 x0 x1 x2 x3 5).1 := by
  unfold kernelRun0_A.sl.v170 kernelRun0_A.sl.HS1_6
  rw [View.readCov_cons_toLoadRect]
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem cK_5 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v184 c arg1 harg1 arg2 harg2 arg3 harg3 arg4 harg4 arg9 arg10 arg11 x0 x1 x2 x3 = (stR arg1 harg1 arg2 harg2 arg3 harg3 arg4 harg4 x0 x1 x2 x3 5).2 := by
  unfold kernelRun0_A.sl.v184 kernelRun0_A.sl.HS2_6
  rw [View.readCov_cons_toLoadRect]
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem hK_6 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v200 c arg1 harg1 arg2 harg2 arg3 harg3 arg4 harg4 arg9 arg10 arg11 x0 x1 x2 x3 = (stR arg1 harg1 arg2 harg2 arg3 harg3 arg4 harg4 x0 x1 x2 x3 6).1 := by
  unfold kernelRun0_A.sl.v200 kernelRun0_A.sl.HS1_7
  rw [View.readCov_cons_toLoadRect]
  unfold kernelRun0_A.sl.r_7 kernelRun0_A.sl.r_8 kernelRun0_A.sl.r_9 kernelRun0_A.sl.r_10
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem cK_6 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v214 c arg1 harg1 arg2 harg2 arg3 harg3 arg4 harg4 arg9 arg10 arg11 x0 x1 x2 x3 = (stR arg1 harg1 arg2 harg2 arg3 harg3 arg4 harg4 x0 x1 x2 x3 6).2 := by
  unfold kernelRun0_A.sl.v214 kernelRun0_A.sl.HS2_7
  rw [View.readCov_cons_toLoadRect]
  unfold kernelRun0_A.sl.r_7 kernelRun0_A.sl.r_8 kernelRun0_A.sl.r_9
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem hK_7 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v230 c arg1 harg1 arg2 harg2 arg3 harg3 arg4 harg4 arg9 arg10 arg11 x0 x1 x2 x3 = (stR arg1 harg1 arg2 harg2 arg3 harg3 arg4 harg4 x0 x1 x2 x3 7).1 := by
  unfold kernelRun0_A.sl.v230 kernelRun0_A.sl.HS1_8
  rw [View.readCov_cons_toLoadRect]
  unfold kernelRun0_A.sl.r_12
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem cK_7 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v244 c arg1 harg1 arg2 harg2 arg3 harg3 arg4 harg4 arg9 arg10 arg11 x0 x1 x2 x3 = (stR arg1 harg1 arg2 harg2 arg3 harg3 arg4 harg4 x0 x1 x2 x3 7).2 := by
  unfold kernelRun0_A.sl.v244 kernelRun0_A.sl.HS2_8
  rw [View.readCov_cons_toLoadRect]
  unfold kernelRun0_A.sl.r_11
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem hK_8 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v260 c arg1 harg1 arg2 harg2 arg3 harg3 arg4 harg4 arg9 arg10 arg11 x0 x1 x2 x3 = (stR arg1 harg1 arg2 harg2 arg3 harg3 arg4 harg4 x0 x1 x2 x3 8).1 := by
  unfold kernelRun0_A.sl.v260 kernelRun0_A.sl.HS1_9
  rw [View.readCov_cons_toLoadRect]
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem cK_8 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v274 c arg1 harg1 arg2 harg2 arg3 harg3 arg4 harg4 arg9 arg10 arg11 x0 x1 x2 x3 = (stR arg1 harg1 arg2 harg2 arg3 harg3 arg4 harg4 x0 x1 x2 x3 8).2 := by
  unfold kernelRun0_A.sl.v274 kernelRun0_A.sl.HS2_9
  rw [View.readCov_cons_toLoadRect]
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem hK_9 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v290 c arg1 harg1 arg2 harg2 arg3 harg3 arg4 harg4 arg9 arg10 arg11 x0 x1 x2 x3 = (stR arg1 harg1 arg2 harg2 arg3 harg3 arg4 harg4 x0 x1 x2 x3 9).1 := by
  unfold kernelRun0_A.sl.v290 kernelRun0_A.sl.HS1_10
  rw [View.readCov_cons_toLoadRect]
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem cK_9 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v304 c arg1 harg1 arg2 harg2 arg3 harg3 arg4 harg4 arg9 arg10 arg11 x0 x1 x2 x3 = (stR arg1 harg1 arg2 harg2 arg3 harg3 arg4 harg4 x0 x1 x2 x3 9).2 := by
  unfold kernelRun0_A.sl.v304 kernelRun0_A.sl.HS2_10
  rw [View.readCov_cons_toLoadRect]
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem hK_10 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v320 c arg1 harg1 arg2 harg2 arg3 harg3 arg4 harg4 arg9 arg10 arg11 x0 x1 x2 x3 = (stR arg1 harg1 arg2 harg2 arg3 harg3 arg4 harg4 x0 x1 x2 x3 10).1 := by
  unfold kernelRun0_A.sl.v320 kernelRun0_A.sl.HS1_11
  rw [View.readCov_cons_toLoadRect]
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem cK_10 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v334 c arg1 harg1 arg2 harg2 arg3 harg3 arg4 harg4 arg9 arg10 arg11 x0 x1 x2 x3 = (stR arg1 harg1 arg2 harg2 arg3 harg3 arg4 harg4 x0 x1 x2 x3 10).2 := by
  unfold kernelRun0_A.sl.v334 kernelRun0_A.sl.HS2_11
  rw [View.readCov_cons_toLoadRect]
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem hK_11 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v350 c arg1 harg1 arg2 harg2 arg3 harg3 arg4 harg4 arg9 arg10 arg11 x0 x1 x2 x3 = (stR arg1 harg1 arg2 harg2 arg3 harg3 arg4 harg4 x0 x1 x2 x3 11).1 := by
  unfold kernelRun0_A.sl.v350 kernelRun0_A.sl.HS1_12
  rw [View.readCov_cons_toLoadRect]
  unfold kernelRun0_A.sl.r_14 kernelRun0_A.sl.r_15 kernelRun0_A.sl.r_16 kernelRun0_A.sl.r_17
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem cK_11 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v364 c arg1 harg1 arg2 harg2 arg3 harg3 arg4 harg4 arg9 arg10 arg11 x0 x1 x2 x3 = (stR arg1 harg1 arg2 harg2 arg3 harg3 arg4 harg4 x0 x1 x2 x3 11).2 := by
  unfold kernelRun0_A.sl.v364 kernelRun0_A.sl.HS2_12
  rw [View.readCov_cons_toLoadRect]
  unfold kernelRun0_A.sl.r_14 kernelRun0_A.sl.r_15 kernelRun0_A.sl.r_16
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem hK_12 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v380 c arg1 harg1 arg2 harg2 arg3 harg3 arg4 harg4 arg9 arg10 arg11 x0 x1 x2 x3 = (stR arg1 harg1 arg2 harg2 arg3 harg3 arg4 harg4 x0 x1 x2 x3 12).1 := by
  unfold kernelRun0_A.sl.v380 kernelRun0_A.sl.HS1_13
  rw [View.readCov_cons_toLoadRect]
  unfold kernelRun0_A.sl.r_19
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem cK_12 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v394 c arg1 harg1 arg2 harg2 arg3 harg3 arg4 harg4 arg9 arg10 arg11 x0 x1 x2 x3 = (stR arg1 harg1 arg2 harg2 arg3 harg3 arg4 harg4 x0 x1 x2 x3 12).2 := by
  unfold kernelRun0_A.sl.v394 kernelRun0_A.sl.HS2_13
  rw [View.readCov_cons_toLoadRect]
  unfold kernelRun0_A.sl.r_18
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem hK_13 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v410 c arg1 harg1 arg2 harg2 arg3 harg3 arg4 harg4 arg9 arg10 arg11 x0 x1 x2 x3 = (stR arg1 harg1 arg2 harg2 arg3 harg3 arg4 harg4 x0 x1 x2 x3 13).1 := by
  unfold kernelRun0_A.sl.v410 kernelRun0_A.sl.HS1_14
  rw [View.readCov_cons_toLoadRect]
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem cK_13 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v424 c arg1 harg1 arg2 harg2 arg3 harg3 arg4 harg4 arg9 arg10 arg11 x0 x1 x2 x3 = (stR arg1 harg1 arg2 harg2 arg3 harg3 arg4 harg4 x0 x1 x2 x3 13).2 := by
  unfold kernelRun0_A.sl.v424 kernelRun0_A.sl.HS2_14
  rw [View.readCov_cons_toLoadRect]
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem hK_14 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v440 c arg1 harg1 arg2 harg2 arg3 harg3 arg4 harg4 arg9 arg10 arg11 x0 x1 x2 x3 = (stR arg1 harg1 arg2 harg2 arg3 harg3 arg4 harg4 x0 x1 x2 x3 14).1 := by
  unfold kernelRun0_A.sl.v440 kernelRun0_A.sl.HS1_15
  rw [View.readCov_cons_toLoadRect]
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem cK_14 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v454 c arg1 harg1 arg2 harg2 arg3 harg3 arg4 harg4 arg9 arg10 arg11 x0 x1 x2 x3 = (stR arg1 harg1 arg2 harg2 arg3 harg3 arg4 harg4 x0 x1 x2 x3 14).2 := by
  unfold kernelRun0_A.sl.v454 kernelRun0_A.sl.HS2_15
  rw [View.readCov_cons_toLoadRect]
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem hK_15 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v470 c arg1 harg1 arg2 harg2 arg3 harg3 arg4 harg4 arg9 arg10 arg11 x0 x1 x2 x3 = (stR arg1 harg1 arg2 harg2 arg3 harg3 arg4 harg4 x0 x1 x2 x3 15).1 := by
  unfold kernelRun0_A.sl.v470 kernelRun0_A.sl.HS1_16
  rw [View.readCov_cons_toLoadRect]
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem cK_15 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v484 c arg1 harg1 arg2 harg2 arg3 harg3 arg4 harg4 arg9 arg10 arg11 x0 x1 x2 x3 = (stR arg1 harg1 arg2 harg2 arg3 harg3 arg4 harg4 x0 x1 x2 x3 15).2 := by
  unfold kernelRun0_A.sl.v484 kernelRun0_A.sl.HS2_16
  rw [View.readCov_cons_toLoadRect]
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem hK_16 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v500 c arg1 harg1 arg2 harg2 arg3 harg3 arg4 harg4 arg9 arg10 arg11 x0 x1 x2 x3 = (stR arg1 harg1 arg2 harg2 arg3 harg3 arg4 harg4 x0 x1 x2 x3 16).1 := by
  unfold kernelRun0_A.sl.v500 kernelRun0_A.sl.HS1_17
  rw [View.readCov_cons_toLoadRect]
  unfold kernelRun0_A.sl.r_21 kernelRun0_A.sl.r_22 kernelRun0_A.sl.r_23 kernelRun0_A.sl.r_24
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem cK_16 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v514 c arg1 harg1 arg2 harg2 arg3 harg3 arg4 harg4 arg9 arg10 arg11 x0 x1 x2 x3 = (stR arg1 harg1 arg2 harg2 arg3 harg3 arg4 harg4 x0 x1 x2 x3 16).2 := by
  unfold kernelRun0_A.sl.v514 kernelRun0_A.sl.HS2_17
  rw [View.readCov_cons_toLoadRect]
  unfold kernelRun0_A.sl.r_21 kernelRun0_A.sl.r_22 kernelRun0_A.sl.r_23
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem hK_17 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v530 c arg1 harg1 arg2 harg2 arg3 harg3 arg4 harg4 arg9 arg10 arg11 x0 x1 x2 x3 = (stR arg1 harg1 arg2 harg2 arg3 harg3 arg4 harg4 x0 x1 x2 x3 17).1 := by
  unfold kernelRun0_A.sl.v530 kernelRun0_A.sl.HS1_18
  rw [View.readCov_cons_toLoadRect]
  unfold kernelRun0_A.sl.r_26
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem cK_17 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v544 c arg1 harg1 arg2 harg2 arg3 harg3 arg4 harg4 arg9 arg10 arg11 x0 x1 x2 x3 = (stR arg1 harg1 arg2 harg2 arg3 harg3 arg4 harg4 x0 x1 x2 x3 17).2 := by
  unfold kernelRun0_A.sl.v544 kernelRun0_A.sl.HS2_18
  rw [View.readCov_cons_toLoadRect]
  unfold kernelRun0_A.sl.r_25
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem hK_18 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v560 c arg1 harg1 arg2 harg2 arg3 harg3 arg4 harg4 arg9 arg10 arg11 x0 x1 x2 x3 = (stR arg1 harg1 arg2 harg2 arg3 harg3 arg4 harg4 x0 x1 x2 x3 18).1 := by
  unfold kernelRun0_A.sl.v560 kernelRun0_A.sl.HS1_19
  rw [View.readCov_cons_toLoadRect]
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem cK_18 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v574 c arg1 harg1 arg2 harg2 arg3 harg3 arg4 harg4 arg9 arg10 arg11 x0 x1 x2 x3 = (stR arg1 harg1 arg2 harg2 arg3 harg3 arg4 harg4 x0 x1 x2 x3 18).2 := by
  unfold kernelRun0_A.sl.v574 kernelRun0_A.sl.HS2_19
  rw [View.readCov_cons_toLoadRect]
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem hK_19 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v590 c arg1 harg1 arg2 harg2 arg3 harg3 arg4 harg4 arg9 arg10 arg11 x0 x1 x2 x3 = (stR arg1 harg1 arg2 harg2 arg3 harg3 arg4 harg4 x0 x1 x2 x3 19).1 := by
  unfold kernelRun0_A.sl.v590 kernelRun0_A.sl.HS1_20
  rw [View.readCov_cons_toLoadRect]
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem cK_19 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v604 c arg1 harg1 arg2 harg2 arg3 harg3 arg4 harg4 arg9 arg10 arg11 x0 x1 x2 x3 = (stR arg1 harg1 arg2 harg2 arg3 harg3 arg4 harg4 x0 x1 x2 x3 19).2 := by
  unfold kernelRun0_A.sl.v604 kernelRun0_A.sl.HS2_20
  rw [View.readCov_cons_toLoadRect]
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem hK_20 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v620 c arg1 harg1 arg2 harg2 arg3 harg3 arg4 harg4 arg9 arg10 arg11 x0 x1 x2 x3 = (stR arg1 harg1 arg2 harg2 arg3 harg3 arg4 harg4 x0 x1 x2 x3 20).1 := by
  unfold kernelRun0_A.sl.v620 kernelRun0_A.sl.HS1_21
  rw [View.readCov_cons_toLoadRect]
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem cK_20 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v634 c arg1 harg1 arg2 harg2 arg3 harg3 arg4 harg4 arg9 arg10 arg11 x0 x1 x2 x3 = (stR arg1 harg1 arg2 harg2 arg3 harg3 arg4 harg4 x0 x1 x2 x3 20).2 := by
  unfold kernelRun0_A.sl.v634 kernelRun0_A.sl.HS2_21
  rw [View.readCov_cons_toLoadRect]
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem hK_21 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v650 c arg1 harg1 arg2 harg2 arg3 harg3 arg4 harg4 arg9 arg10 arg11 x0 x1 x2 x3 = (stR arg1 harg1 arg2 harg2 arg3 harg3 arg4 harg4 x0 x1 x2 x3 21).1 := by
  unfold kernelRun0_A.sl.v650 kernelRun0_A.sl.HS1_22
  rw [View.readCov_cons_toLoadRect]
  unfold kernelRun0_A.sl.r_28 kernelRun0_A.sl.r_29 kernelRun0_A.sl.r_30 kernelRun0_A.sl.r_31
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem cK_21 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v664 c arg1 harg1 arg2 harg2 arg3 harg3 arg4 harg4 arg9 arg10 arg11 x0 x1 x2 x3 = (stR arg1 harg1 arg2 harg2 arg3 harg3 arg4 harg4 x0 x1 x2 x3 21).2 := by
  unfold kernelRun0_A.sl.v664 kernelRun0_A.sl.HS2_22
  rw [View.readCov_cons_toLoadRect]
  unfold kernelRun0_A.sl.r_28 kernelRun0_A.sl.r_29 kernelRun0_A.sl.r_30
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem hK_22 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v680 c arg1 harg1 arg2 harg2 arg3 harg3 arg4 harg4 arg9 arg10 arg11 x0 x1 x2 x3 = (stR arg1 harg1 arg2 harg2 arg3 harg3 arg4 harg4 x0 x1 x2 x3 22).1 := by
  unfold kernelRun0_A.sl.v680 kernelRun0_A.sl.HS1_23
  rw [View.readCov_cons_toLoadRect]
  unfold kernelRun0_A.sl.r_33
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem cK_22 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v694 c arg1 harg1 arg2 harg2 arg3 harg3 arg4 harg4 arg9 arg10 arg11 x0 x1 x2 x3 = (stR arg1 harg1 arg2 harg2 arg3 harg3 arg4 harg4 x0 x1 x2 x3 22).2 := by
  unfold kernelRun0_A.sl.v694 kernelRun0_A.sl.HS2_23
  rw [View.readCov_cons_toLoadRect]
  unfold kernelRun0_A.sl.r_32
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem hK_23 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v710 c arg1 harg1 arg2 harg2 arg3 harg3 arg4 harg4 arg9 arg10 arg11 x0 x1 x2 x3 = (stR arg1 harg1 arg2 harg2 arg3 harg3 arg4 harg4 x0 x1 x2 x3 23).1 := by
  unfold kernelRun0_A.sl.v710 kernelRun0_A.sl.HS1_24
  rw [View.readCov_cons_toLoadRect]
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem cK_23 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v724 c arg1 harg1 arg2 harg2 arg3 harg3 arg4 harg4 arg9 arg10 arg11 x0 x1 x2 x3 = (stR arg1 harg1 arg2 harg2 arg3 harg3 arg4 harg4 x0 x1 x2 x3 23).2 := by
  unfold kernelRun0_A.sl.v724 kernelRun0_A.sl.HS2_24
  rw [View.readCov_cons_toLoadRect]
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem hK_24 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v740 c arg1 harg1 arg2 harg2 arg3 harg3 arg4 harg4 arg9 arg10 arg11 x0 x1 x2 x3 = (stR arg1 harg1 arg2 harg2 arg3 harg3 arg4 harg4 x0 x1 x2 x3 24).1 := by
  unfold kernelRun0_A.sl.v740 kernelRun0_A.sl.HS1_25
  rw [View.readCov_cons_toLoadRect]
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem cK_24 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v754 c arg1 harg1 arg2 harg2 arg3 harg3 arg4 harg4 arg9 arg10 arg11 x0 x1 x2 x3 = (stR arg1 harg1 arg2 harg2 arg3 harg3 arg4 harg4 x0 x1 x2 x3 24).2 := by
  unfold kernelRun0_A.sl.v754 kernelRun0_A.sl.HS2_25
  rw [View.readCov_cons_toLoadRect]
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem hK_25 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v770 c arg1 harg1 arg2 harg2 arg3 harg3 arg4 harg4 arg9 arg10 arg11 x0 x1 x2 x3 = (stR arg1 harg1 arg2 harg2 arg3 harg3 arg4 harg4 x0 x1 x2 x3 25).1 := by
  unfold kernelRun0_A.sl.v770 kernelRun0_A.sl.HS1_26
  rw [View.readCov_cons_toLoadRect]
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem cK_25 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v784 c arg1 harg1 arg2 harg2 arg3 harg3 arg4 harg4 arg9 arg10 arg11 x0 x1 x2 x3 = (stR arg1 harg1 arg2 harg2 arg3 harg3 arg4 harg4 x0 x1 x2 x3 25).2 := by
  unfold kernelRun0_A.sl.v784 kernelRun0_A.sl.HS2_26
  rw [View.readCov_cons_toLoadRect]
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem hK_26 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v800 c arg1 harg1 arg2 harg2 arg3 harg3 arg4 harg4 arg9 arg10 arg11 x0 x1 x2 x3 = (stR arg1 harg1 arg2 harg2 arg3 harg3 arg4 harg4 x0 x1 x2 x3 26).1 := by
  unfold kernelRun0_A.sl.v800 kernelRun0_A.sl.HS1_27
  rw [View.readCov_cons_toLoadRect]
  unfold kernelRun0_A.sl.r_35 kernelRun0_A.sl.r_36 kernelRun0_A.sl.r_37 kernelRun0_A.sl.r_38
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem cK_26 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v814 c arg1 harg1 arg2 harg2 arg3 harg3 arg4 harg4 arg9 arg10 arg11 x0 x1 x2 x3 = (stR arg1 harg1 arg2 harg2 arg3 harg3 arg4 harg4 x0 x1 x2 x3 26).2 := by
  unfold kernelRun0_A.sl.v814 kernelRun0_A.sl.HS2_27
  rw [View.readCov_cons_toLoadRect]
  unfold kernelRun0_A.sl.r_35 kernelRun0_A.sl.r_36 kernelRun0_A.sl.r_37
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem hK_27 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v830 c arg1 harg1 arg2 harg2 arg3 harg3 arg4 harg4 arg9 arg10 arg11 x0 x1 x2 x3 = (stR arg1 harg1 arg2 harg2 arg3 harg3 arg4 harg4 x0 x1 x2 x3 27).1 := by
  unfold kernelRun0_A.sl.v830 kernelRun0_A.sl.HS1_28
  rw [View.readCov_cons_toLoadRect]
  unfold kernelRun0_A.sl.r_40
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem cK_27 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v844 c arg1 harg1 arg2 harg2 arg3 harg3 arg4 harg4 arg9 arg10 arg11 x0 x1 x2 x3 = (stR arg1 harg1 arg2 harg2 arg3 harg3 arg4 harg4 x0 x1 x2 x3 27).2 := by
  unfold kernelRun0_A.sl.v844 kernelRun0_A.sl.HS2_28
  rw [View.readCov_cons_toLoadRect]
  unfold kernelRun0_A.sl.r_39
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem hK_28 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v860 c arg1 harg1 arg2 harg2 arg3 harg3 arg4 harg4 arg9 arg10 arg11 x0 x1 x2 x3 = (stR arg1 harg1 arg2 harg2 arg3 harg3 arg4 harg4 x0 x1 x2 x3 28).1 := by
  unfold kernelRun0_A.sl.v860 kernelRun0_A.sl.HS1_29
  rw [View.readCov_cons_toLoadRect]
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem cK_28 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v874 c arg1 harg1 arg2 harg2 arg3 harg3 arg4 harg4 arg9 arg10 arg11 x0 x1 x2 x3 = (stR arg1 harg1 arg2 harg2 arg3 harg3 arg4 harg4 x0 x1 x2 x3 28).2 := by
  unfold kernelRun0_A.sl.v874 kernelRun0_A.sl.HS2_29
  rw [View.readCov_cons_toLoadRect]
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem hK_29 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v890 c arg1 harg1 arg2 harg2 arg3 harg3 arg4 harg4 arg9 arg10 arg11 x0 x1 x2 x3 = (stR arg1 harg1 arg2 harg2 arg3 harg3 arg4 harg4 x0 x1 x2 x3 29).1 := by
  unfold kernelRun0_A.sl.v890 kernelRun0_A.sl.HS1_30
  rw [View.readCov_cons_toLoadRect]
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem cK_29 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v904 c arg1 harg1 arg2 harg2 arg3 harg3 arg4 harg4 arg9 arg10 arg11 x0 x1 x2 x3 = (stR arg1 harg1 arg2 harg2 arg3 harg3 arg4 harg4 x0 x1 x2 x3 29).2 := by
  unfold kernelRun0_A.sl.v904 kernelRun0_A.sl.HS2_30
  rw [View.readCov_cons_toLoadRect]
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem hK_30 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v920 c arg1 harg1 arg2 harg2 arg3 harg3 arg4 harg4 arg9 arg10 arg11 x0 x1 x2 x3 = (stR arg1 harg1 arg2 harg2 arg3 harg3 arg4 harg4 x0 x1 x2 x3 30).1 := by
  unfold kernelRun0_A.sl.v920 kernelRun0_A.sl.HS1_31
  rw [View.readCov_cons_toLoadRect]
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem cK_30 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v934 c arg1 harg1 arg2 harg2 arg3 harg3 arg4 harg4 arg9 arg10 arg11 x0 x1 x2 x3 = (stR arg1 harg1 arg2 harg2 arg3 harg3 arg4 harg4 x0 x1 x2 x3 30).2 := by
  unfold kernelRun0_A.sl.v934 kernelRun0_A.sl.HS2_31
  rw [View.readCov_cons_toLoadRect]
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem hK_31 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v950 c arg1 harg1 arg2 harg2 arg3 harg3 arg4 harg4 arg9 arg10 arg11 x0 x1 x2 x3 = (stR arg1 harg1 arg2 harg2 arg3 harg3 arg4 harg4 x0 x1 x2 x3 31).1 := by
  unfold kernelRun0_A.sl.v950 kernelRun0_A.sl.HS1_32
  rw [View.readCov_cons_toLoadRect]
  unfold kernelRun0_A.sl.r_42 kernelRun0_A.sl.r_43 kernelRun0_A.sl.r_44 kernelRun0_A.sl.r_45
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

theorem cK_31 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) : kernelRun0_A.sl.v964 c arg1 harg1 arg2 harg2 arg3 harg3 arg4 harg4 arg9 arg10 arg11 x0 x1 x2 x3 = (stR arg1 harg1 arg2 harg2 arg3 harg3 arg4 harg4 x0 x1 x2 x3 31).2 := by
  unfold kernelRun0_A.sl.v964 kernelRun0_A.sl.HS2_32
  rw [View.readCov_cons_toLoadRect]
  unfold kernelRun0_A.sl.r_42 kernelRun0_A.sl.r_43 kernelRun0_A.sl.r_44
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

end Cert.ReferenceIdeal.RV

end
-- ==== Proof.ROut.lean ====
/-
  The reference's hidden-state output array as one function of its inputs: rows 128 s … 128 s + 127 are the new hidden
  array of step s.
-/
import proofs.«106864_g2000204369025975_pallaspilot1_7_1_alg».proof.Proof.Gen.ReferenceIdeal.Frame
import proofs.«106864_g2000204369025975_pallaspilot1_7_1_alg».proof.Proof.RSteps

set_option maxRecDepth 16384

noncomputable section

open scoped BigOperators

namespace Cert.ReferenceIdeal.RV

open Idealize.ShloMosaic Idealize.ShloMosaic.TcCoe Idealize.ShloMosaic.ValueIdx
open Idealize.SL.Sem
open Cert.ReferenceIdeal Cert.ReferenceIdeal.Gen Cert.Lstm

variable {F : FTy → Type} [FloatOps F]

theorem pK_0 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay13 (kernelRun0_A.sl.r c arg1 harg1 arg2 harg2 arg3 harg3 arg4 harg4 arg9 arg10 x0 x1 x2 x3) (kernelRun0_A.sl.r_1 c arg1 harg1 arg2 harg2 arg3 harg3 arg4 harg4 arg9 arg10 x0 x1 x2 x3) (kernelRun0_A.sl.r_2 c arg1 harg1 arg2 harg2 arg3 harg3 arg4 harg4 arg9 arg10 x0 x1 x2 x3) (kernelRun0_A.sl.r_3 c arg1 harg1 arg2 harg2 arg3 harg3 arg4 harg4 arg9 arg10 x0 x1 x2 x3) (kernelRun0_A.sl.v34 c arg11)
      = hRaw arg1 harg1 arg2 harg2 arg3 harg3 arg4 harg4 x0 x1 x2 x3 0 := by
  unfold kernelRun0_A.sl.r kernelRun0_A.sl.r_1 kernelRun0_A.sl.r_2 kernelRun0_A.sl.r_3
  rw [gK_0 c arg1 harg1 arg2 harg2 arg3 harg3 arg4 harg4 arg9 arg10 arg11 x0 x1 x2 x3, hK_0 c arg1 harg1 arg2 harg2 arg3 harg3 arg4 harg4 arg9 arg10 arg11 x0 x1 x2 x3, cK_0 c arg1 harg1 arg2 harg2 arg3 harg3 arg4 harg4 arg9 arg10 arg11 x0 x1 x2 x3]
  rfl

theorem pK_1 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_5 c arg1 harg1 arg2 harg2 arg3 harg3 arg4 harg4 arg9 arg10 arg11 x0 x1 x2 x3
      = hRaw arg1 harg1 arg2 harg2 arg3 harg3 arg4 harg4 x0 x1 x2 x3 1 := by
  unfold kernelRun0_A.sl.r_5
  rw [gK_1 c arg1 harg1 arg2 harg2 arg3 harg3 arg4 harg4 arg9 arg10 arg11 x0 x1 x2 x3, hK_1 c arg1 harg1 arg2 harg2 arg3 harg3 arg4 harg4 arg9 arg10 arg11 x0 x1 x2 x3, cK_1 c arg1 harg1 arg2 harg2 arg3 harg3 arg4 harg4 arg9 arg10 arg11 x0 x1 x2 x3]
  rfl

theorem pK_2 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_6 c arg1 harg1 arg2 harg2 arg3 harg3 arg4 harg4 arg9 arg10 arg11 x0 x1 x2 x3
      = hRaw arg1 harg1 arg2 harg2 arg3 harg3 arg4 harg4 x0 x1 x2 x3 2 := by
  unfold kernelRun0_A.sl.r_6
  rw [gK_2 c arg1 harg1 arg2 harg2 arg3 harg3 arg4 harg4 arg9 arg10 arg11 x0 x1 x2 x3, hK_2 c arg1 harg1 arg2 harg2 arg3 harg3 arg4 harg4 arg9 arg10 arg11 x0 x1 x2 x3, cK_2 c arg1 harg1 arg2 harg2 arg3 harg3 arg4 harg4 arg9 arg10 arg11 x0 x1 x2 x3]
  rfl

theorem pK_3 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay28 (kernelRun0_A.sl.v110 c arg1 harg1 arg2 harg2 arg3 harg3 arg4 harg4 arg9 arg10 arg11 x0 x1 x2 x3) (kernelRun0_A.sl.v112 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v124 c arg1 harg1 arg2 harg2 arg3 harg3 arg4 harg4 arg9 arg10 arg11 x0 x1 x2 x3)
      = hRaw arg1 harg1 arg2 harg2 arg3 harg3 arg4 harg4 x0 x1 x2 x3 3 := by
  rw [gK_3 c arg1 harg1 arg2 harg2 arg3 harg3 arg4 harg4 arg9 arg10 arg11 x0 x1 x2 x3, hK_3 c arg1 harg1 arg2 harg2 arg3 harg3 arg4 harg4 arg9 arg10 arg11 x0 x1 x2 x3, cK_3 c arg1 harg1 arg2 harg2 arg3 harg3 arg4 harg4 arg9 arg10 arg11 x0 x1 x2 x3]
  rfl

theorem pK_4 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay33 (kernelRun0_A.sl.v140 c arg1 harg1 arg2 harg2 arg3 harg3 arg4 harg4 arg9 arg10 arg11 x0 x1 x2 x3) (kernelRun0_A.sl.v142 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v154 c arg1 harg1 arg2 harg2 arg3 harg3 arg4 harg4 arg9 arg10 arg11 x0 x1 x2 x3)
      = hRaw arg1 harg1 arg2 harg2 arg3 harg3 arg4 harg4 x0 x1 x2 x3 4 := by
  rw [gK_4 c arg1 harg1 arg2 harg2 arg3 harg3 arg4 harg4 arg9 arg10 arg11 x0 x1 x2 x3, hK_4 c arg1 harg1 arg2 harg2 arg3 harg3 arg4 harg4 arg9 arg10 arg11 x0 x1 x2 x3, cK_4 c arg1 harg1 arg2 harg2 arg3 harg3 arg4 harg4 arg9 arg10 arg11 x0 x1 x2 x3]
  rfl

theorem pK_5 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay42 (kernelRun0_A.sl.r_7 c arg1 harg1 arg2 harg2 arg3 harg3 arg4 harg4 arg9 arg10 arg11 x0 x1 x2 x3) (kernelRun0_A.sl.r_8 c arg1 harg1 arg2 harg2 arg3 harg3 arg4 harg4 arg9 arg10 arg11 x0 x1 x2 x3) (kernelRun0_A.sl.r_9 c arg1 harg1 arg2 harg2 arg3 harg3 arg4 harg4 arg9 arg10 arg11 x0 x1 x2 x3) (kernelRun0_A.sl.r_10 c arg1 harg1 arg2 harg2 arg3 harg3 arg4 harg4 arg9 arg10 arg11 x0 x1 x2 x3) (kernelRun0_A.sl.v184 c arg1 harg1 arg2 harg2 arg3 harg3 arg4 harg4 arg9 arg10 arg11 x0 x1 x2 x3)
      = hRaw arg1 harg1 arg2 harg2 arg3 harg3 arg4 harg4 x0 x1 x2 x3 5 := by
  unfold kernelRun0_A.sl.r_7 kernelRun0_A.sl.r_8 kernelRun0_A.sl.r_9 kernelRun0_A.sl.r_10
  rw [gK_5 c arg1 harg1 arg2 harg2 arg3 harg3 arg4 harg4 arg9 arg10 arg11 x0 x1 x2 x3, hK_5 c arg1 harg1 arg2 harg2 arg3 harg3 arg4 harg4 arg9 arg10 arg11 x0 x1 x2 x3, cK_5 c arg1 harg1 arg2 harg2 arg3 harg3 arg4 harg4 arg9 arg10 arg11 x0 x1 x2 x3]
  rfl

theorem pK_6 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_12 c arg1 harg1 arg2 harg2 arg3 harg3 arg4 harg4 arg9 arg10 arg11 x0 x1 x2 x3
      = hRaw arg1 harg1 arg2 harg2 arg3 harg3 arg4 harg4 x0 x1 x2 x3 6 := by
  unfold kernelRun0_A.sl.r_12
  rw [gK_6 c arg1 harg1 arg2 harg2 arg3 harg3 arg4 harg4 arg9 arg10 arg11 x0 x1 x2 x3, hK_6 c arg1 harg1 arg2 harg2 arg3 harg3 arg4 harg4 arg9 arg10 arg11 x0 x1 x2 x3, cK_6 c arg1 harg1 arg2 harg2 arg3 harg3 arg4 harg4 arg9 arg10 arg11 x0 x1 x2 x3]
  rfl

theorem pK_7 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_13 c arg1 harg1 arg2 harg2 arg3 harg3 arg4 harg4 arg9 arg10 arg11 x0 x1 x2 x3
      = hRaw arg1 harg1 arg2 harg2 arg3 harg3 arg4 harg4 x0 x1 x2 x3 7 := by
  unfold kernelRun0_A.sl.r_13
  rw [gK_7 c arg1 harg1 arg2 harg2 arg3 harg3 arg4 harg4 arg9 arg10 arg11 x0 x1 x2 x3, hK_7 c arg1 harg1 arg2 harg2 arg3 harg3 arg4 harg4 arg9 arg10 arg11 x0 x1 x2 x3, cK_7 c arg1 harg1 arg2 harg2 arg3 harg3 arg4 harg4 arg9 arg10 arg11 x0 x1 x2 x3]
  rfl

theorem pK_8 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay57 (kernelRun0_A.sl.v260 c arg1 harg1 arg2 harg2 arg3 harg3 arg4 harg4 arg9 arg10 arg11 x0 x1 x2 x3) (kernelRun0_A.sl.v262 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v274 c arg1 harg1 arg2 harg2 arg3 harg3 arg4 harg4 arg9 arg10 arg11 x0 x1 x2 x3)
      = hRaw arg1 harg1 arg2 harg2 arg3 harg3 arg4 harg4 x0 x1 x2 x3 8 := by
  rw [gK_8 c arg1 harg1 arg2 harg2 arg3 harg3 arg4 harg4 arg9 arg10 arg11 x0 x1 x2 x3, hK_8 c arg1 harg1 arg2 harg2 arg3 harg3 arg4 harg4 arg9 arg10 arg11 x0 x1 x2 x3, cK_8 c arg1 harg1 arg2 harg2 arg3 harg3 arg4 harg4 arg9 arg10 arg11 x0 x1 x2 x3]
  rfl

theorem pK_9 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay62 (kernelRun0_A.sl.v290 c arg1 harg1 arg2 harg2 arg3 harg3 arg4 harg4 arg9 arg10 arg11 x0 x1 x2 x3) (kernelRun0_A.sl.v292 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v304 c arg1 harg1 arg2 harg2 arg3 harg3 arg4 harg4 arg9 arg10 arg11 x0 x1 x2 x3)
      = hRaw arg1 harg1 arg2 harg2 arg3 harg3 arg4 harg4 x0 x1 x2 x3 9 := by
  rw [gK_9 c arg1 harg1 arg2 harg2 arg3 harg3 arg4 harg4 arg9 arg10 arg11 x0 x1 x2 x3, hK_9 c arg1 harg1 arg2 harg2 arg3 harg3 arg4 harg4 arg9 arg10 arg11 x0 x1 x2 x3, cK_9 c arg1 harg1 arg2 harg2 arg3 harg3 arg4 harg4 arg9 arg10 arg11 x0 x1 x2 x3]
  rfl

theorem pK_10 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay71 (kernelRun0_A.sl.r_14 c arg1 harg1 arg2 harg2 arg3 harg3 arg4 harg4 arg9 arg10 arg11 x0 x1 x2 x3) (kernelRun0_A.sl.r_15 c arg1 harg1 arg2 harg2 arg3 harg3 arg4 harg4 arg9 arg10 arg11 x0 x1 x2 x3) (kernelRun0_A.sl.r_16 c arg1 harg1 arg2 harg2 arg3 harg3 arg4 harg4 arg9 arg10 arg11 x0 x1 x2 x3) (kernelRun0_A.sl.r_17 c arg1 harg1 arg2 harg2 arg3 harg3 arg4 harg4 arg9 arg10 arg11 x0 x1 x2 x3) (kernelRun0_A.sl.v334 c arg1 harg1 arg2 harg2 arg3 harg3 arg4 harg4 arg9 arg10 arg11 x0 x1 x2 x3)
      = hRaw arg1 harg1 arg2 harg2 arg3 harg3 arg4 harg4 x0 x1 x2 x3 10 := by
  unfold kernelRun0_A.sl.r_14 kernelRun0_A.sl.r_15 kernelRun0_A.sl.r_16 kernelRun0_A.sl.r_17
  rw [gK_10 c arg1 harg1 arg2 harg2 arg3 harg3 arg4 harg4 arg9 arg10 arg11 x0 x1 x2 x3, hK_10 c arg1 harg1 arg2 harg2 arg3 harg3 arg4 harg4 arg9 arg10 arg11 x0 x1 x2 x3, cK_10 c arg1 harg1 arg2 harg2 arg3 harg3 arg4 harg4 arg9 arg10 arg11 x0 x1 x2 x3]
  rfl

theorem pK_11 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_19 c arg1 harg1 arg2 harg2 arg3 harg3 arg4 harg4 arg9 arg10 arg11 x0 x1 x2 x3
      = hRaw arg1 harg1 arg2 harg2 arg3 harg3 arg4 harg4 x0 x1 x2 x3 11 := by
  unfold kernelRun0_A.sl.r_19
  rw [gK_11 c arg1 harg1 arg2 harg2 arg3 harg3 arg4 harg4 arg9 arg10 arg11 x0 x1 x2 x3, hK_11 c arg1 harg1 arg2 harg2 arg3 harg3 arg4 harg4 arg9 arg10 arg11 x0 x1 x2 x3, cK_11 c arg1 harg1 arg2 harg2 arg3 harg3 arg4 harg4 arg9 arg10 arg11 x0 x1 x2 x3]
  rfl

theorem pK_12 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_20 c arg1 harg1 arg2 harg2 arg3 harg3 arg4 harg4 arg9 arg10 arg11 x0 x1 x2 x3
      = hRaw arg1 harg1 arg2 harg2 arg3 harg3 arg4 harg4 x0 x1 x2 x3 12 := by
  unfold kernelRun0_A.sl.r_20
  rw [gK_12 c arg1 harg1 arg2 harg2 arg3 harg3 arg4 harg4 arg9 arg10 arg11 x0 x1 x2 x3, hK_12 c arg1 harg1 arg2 harg2 arg3 harg3 arg4 harg4 arg9 arg10 arg11 x0 x1 x2 x3, cK_12 c arg1 harg1 arg2 harg2 arg3 harg3 arg4 harg4 arg9 arg10 arg11 x0 x1 x2 x3]
  rfl

theorem pK_13 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay86 (kernelRun0_A.sl.v410 c arg1 harg1 arg2 harg2 arg3 harg3 arg4 harg4 arg9 arg10 arg11 x0 x1 x2 x3) (kernelRun0_A.sl.v412 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v424 c arg1 harg1 arg2 harg2 arg3 harg3 arg4 harg4 arg9 arg10 arg11 x0 x1 x2 x3)
      = hRaw arg1 harg1 arg2 harg2 arg3 harg3 arg4 harg4 x0 x1 x2 x3 13 := by
  rw [gK_13 c arg1 harg1 arg2 harg2 arg3 harg3 arg4 harg4 arg9 arg10 arg11 x0 x1 x2 x3, hK_13 c arg1 harg1 arg2 harg2 arg3 harg3 arg4 harg4 arg9 arg10 arg11 x0 x1 x2 x3, cK_13 c arg1 harg1 arg2 harg2 arg3 harg3 arg4 harg4 arg9 arg10 arg11 x0 x1 x2 x3]
  rfl

theorem pK_14 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay91 (kernelRun0_A.sl.v440 c arg1 harg1 arg2 harg2 arg3 harg3 arg4 harg4 arg9 arg10 arg11 x0 x1 x2 x3) (kernelRun0_A.sl.v442 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v454 c arg1 harg1 arg2 harg2 arg3 harg3 arg4 harg4 arg9 arg10 arg11 x0 x1 x2 x3)
      = hRaw arg1 harg1 arg2 harg2 arg3 harg3 arg4 harg4 x0 x1 x2 x3 14 := by
  rw [gK_14 c arg1 harg1 arg2 harg2 arg3 harg3 arg4 harg4 arg9 arg10 arg11 x0 x1 x2 x3, hK_14 c arg1 harg1 arg2 harg2 arg3 harg3 arg4 harg4 arg9 arg10 arg11 x0 x1 x2 x3, cK_14 c arg1 harg1 arg2 harg2 arg3 harg3 arg4 harg4 arg9 arg10 arg11 x0 x1 x2 x3]
  rfl

theorem pK_15 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay100 (kernelRun0_A.sl.r_21 c arg1 harg1 arg2 harg2 arg3 harg3 arg4 harg4 arg9 arg10 arg11 x0 x1 x2 x3) (kernelRun0_A.sl.r_22 c arg1 harg1 arg2 harg2 arg3 harg3 arg4 harg4 arg9 arg10 arg11 x0 x1 x2 x3) (kernelRun0_A.sl.r_23 c arg1 harg1 arg2 harg2 arg3 harg3 arg4 harg4 arg9 arg10 arg11 x0 x1 x2 x3) (kernelRun0_A.sl.r_24 c arg1 harg1 arg2 harg2 arg3 harg3 arg4 harg4 arg9 arg10 arg11 x0 x1 x2 x3) (kernelRun0_A.sl.v484 c arg1 harg1 arg2 harg2 arg3 harg3 arg4 harg4 arg9 arg10 arg11 x0 x1 x2 x3)
      = hRaw arg1 harg1 arg2 harg2 arg3 harg3 arg4 harg4 x0 x1 x2 x3 15 := by
  unfold kernelRun0_A.sl.r_21 kernelRun0_A.sl.r_22 kernelRun0_A.sl.r_23 kernelRun0_A.sl.r_24
  rw [gK_15 c arg1 harg1 arg2 harg2 arg3 harg3 arg4 harg4 arg9 arg10 arg11 x0 x1 x2 x3, hK_15 c arg1 harg1 arg2 harg2 arg3 harg3 arg4 harg4 arg9 arg10 arg11 x0 x1 x2 x3, cK_15 c arg1 harg1 arg2 harg2 arg3 harg3 arg4 harg4 arg9 arg10 arg11 x0 x1 x2 x3]
  rfl

theorem pK_16 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_26 c arg1 harg1 arg2 harg2 arg3 harg3 arg4 harg4 arg9 arg10 arg11 x0 x1 x2 x3
      = hRaw arg1 harg1 arg2 harg2 arg3 harg3 arg4 harg4 x0 x1 x2 x3 16 := by
  unfold kernelRun0_A.sl.r_26
  rw [gK_16 c arg1 harg1 arg2 harg2 arg3 harg3 arg4 harg4 arg9 arg10 arg11 x0 x1 x2 x3, hK_16 c arg1 harg1 arg2 harg2 arg3 harg3 arg4 harg4 arg9 arg10 arg11 x0 x1 x2 x3, cK_16 c arg1 harg1 arg2 harg2 arg3 harg3 arg4 harg4 arg9 arg10 arg11 x0 x1 x2 x3]
  rfl

theorem pK_17 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_27 c arg1 harg1 arg2 harg2 arg3 harg3 arg4 harg4 arg9 arg10 arg11 x0 x1 x2 x3
      = hRaw arg1 harg1 arg2 harg2 arg3 harg3 arg4 harg4 x0 x1 x2 x3 17 := by
  unfold kernelRun0_A.sl.r_27
  rw [gK_17 c arg1 harg1 arg2 harg2 arg3 harg3 arg4 harg4 arg9 arg10 arg11 x0 x1 x2 x3, hK_17 c arg1 harg1 arg2 harg2 arg3 harg3 arg4 harg4 arg9 arg10 arg11 x0 x1 x2 x3, cK_17 c arg1 harg1 arg2 harg2 arg3 harg3 arg4 harg4 arg9 arg10 arg11 x0 x1 x2 x3]
  rfl

theorem pK_18 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay115 (kernelRun0_A.sl.v560 c arg1 harg1 arg2 harg2 arg3 harg3 arg4 harg4 arg9 arg10 arg11 x0 x1 x2 x3) (kernelRun0_A.sl.v562 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v574 c arg1 harg1 arg2 harg2 arg3 harg3 arg4 harg4 arg9 arg10 arg11 x0 x1 x2 x3)
      = hRaw arg1 harg1 arg2 harg2 arg3 harg3 arg4 harg4 x0 x1 x2 x3 18 := by
  rw [gK_18 c arg1 harg1 arg2 harg2 arg3 harg3 arg4 harg4 arg9 arg10 arg11 x0 x1 x2 x3, hK_18 c arg1 harg1 arg2 harg2 arg3 harg3 arg4 harg4 arg9 arg10 arg11 x0 x1 x2 x3, cK_18 c arg1 harg1 arg2 harg2 arg3 harg3 arg4 harg4 arg9 arg10 arg11 x0 x1 x2 x3]
  rfl

theorem pK_19 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay120 (kernelRun0_A.sl.v590 c arg1 harg1 arg2 harg2 arg3 harg3 arg4 harg4 arg9 arg10 arg11 x0 x1 x2 x3) (kernelRun0_A.sl.v592 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v604 c arg1 harg1 arg2 harg2 arg3 harg3 arg4 harg4 arg9 arg10 arg11 x0 x1 x2 x3)
      = hRaw arg1 harg1 arg2 harg2 arg3 harg3 arg4 harg4 x0 x1 x2 x3 19 := by
  rw [gK_19 c arg1 harg1 arg2 harg2 arg3 harg3 arg4 harg4 arg9 arg10 arg11 x0 x1 x2 x3, hK_19 c arg1 harg1 arg2 harg2 arg3 harg3 arg4 harg4 arg9 arg10 arg11 x0 x1 x2 x3, cK_19 c arg1 harg1 arg2 harg2 arg3 harg3 arg4 harg4 arg9 arg10 arg11 x0 x1 x2 x3]
  rfl

theorem pK_20 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay129 (kernelRun0_A.sl.r_28 c arg1 harg1 arg2 harg2 arg3 harg3 arg4 harg4 arg9 arg10 arg11 x0 x1 x2 x3) (kernelRun0_A.sl.r_29 c arg1 harg1 arg2 harg2 arg3 harg3 arg4 harg4 arg9 arg10 arg11 x0 x1 x2 x3) (kernelRun0_A.sl.r_30 c arg1 harg1 arg2 harg2 arg3 harg3 arg4 harg4 arg9 arg10 arg11 x0 x1 x2 x3) (kernelRun0_A.sl.r_31 c arg1 harg1 arg2 harg2 arg3 harg3 arg4 harg4 arg9 arg10 arg11 x0 x1 x2 x3) (kernelRun0_A.sl.v634 c arg1 harg1 arg2 harg2 arg3 harg3 arg4 harg4 arg9 arg10 arg11 x0 x1 x2 x3)
      = hRaw arg1 harg1 arg2 harg2 arg3 harg3 arg4 harg4 x0 x1 x2 x3 20 := by
  unfold kernelRun0_A.sl.r_28 kernelRun0_A.sl.r_29 kernelRun0_A.sl.r_30 kernelRun0_A.sl.r_31
  rw [gK_20 c arg1 harg1 arg2 harg2 arg3 harg3 arg4 harg4 arg9 arg10 arg11 x0 x1 x2 x3, hK_20 c arg1 harg1 arg2 harg2 arg3 harg3 arg4 harg4 arg9 arg10 arg11 x0 x1 x2 x3, cK_20 c arg1 harg1 arg2 harg2 arg3 harg3 arg4 harg4 arg9 arg10 arg11 x0 x1 x2 x3]
  rfl

theorem pK_21 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_33 c arg1 harg1 arg2 harg2 arg3 harg3 arg4 harg4 arg9 arg10 arg11 x0 x1 x2 x3
      = hRaw arg1 harg1 arg2 harg2 arg3 harg3 arg4 harg4 x0 x1 x2 x3 21 := by
  unfold kernelRun0_A.sl.r_33
  rw [gK_21 c arg1 harg1 arg2 harg2 arg3 harg3 arg4 harg4 arg9 arg10 arg11 x0 x1 x2 x3, hK_21 c arg1 harg1 arg2 harg2 arg3 harg3 arg4 harg4 arg9 arg10 arg11 x0 x1 x2 x3, cK_21 c arg1 harg1 arg2 harg2 arg3 harg3 arg4 harg4 arg9 arg10 arg11 x0 x1 x2 x3]
  rfl

theorem pK_22 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_34 c arg1 harg1 arg2 harg2 arg3 harg3 arg4 harg4 arg9 arg10 arg11 x0 x1 x2 x3
      = hRaw arg1 harg1 arg2 harg2 arg3 harg3 arg4 harg4 x0 x1 x2 x3 22 := by
  unfold kernelRun0_A.sl.r_34
  rw [gK_22 c arg1 harg1 arg2 harg2 arg3 harg3 arg4 harg4 arg9 arg10 arg11 x0 x1 x2 x3, hK_22 c arg1 harg1 arg2 harg2 arg3 harg3 arg4 harg4 arg9 arg10 arg11 x0 x1 x2 x3, cK_22 c arg1 harg1 arg2 harg2 arg3 harg3 arg4 harg4 arg9 arg10 arg11 x0 x1 x2 x3]
  rfl

theorem pK_23 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay144 (kernelRun0_A.sl.v710 c arg1 harg1 arg2 harg2 arg3 harg3 arg4 harg4 arg9 arg10 arg11 x0 x1 x2 x3) (kernelRun0_A.sl.v712 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v724 c arg1 harg1 arg2 harg2 arg3 harg3 arg4 harg4 arg9 arg10 arg11 x0 x1 x2 x3)
      = hRaw arg1 harg1 arg2 harg2 arg3 harg3 arg4 harg4 x0 x1 x2 x3 23 := by
  rw [gK_23 c arg1 harg1 arg2 harg2 arg3 harg3 arg4 harg4 arg9 arg10 arg11 x0 x1 x2 x3, hK_23 c arg1 harg1 arg2 harg2 arg3 harg3 arg4 harg4 arg9 arg10 arg11 x0 x1 x2 x3, cK_23 c arg1 harg1 arg2 harg2 arg3 harg3 arg4 harg4 arg9 arg10 arg11 x0 x1 x2 x3]
  rfl

theorem pK_24 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay149 (kernelRun0_A.sl.v740 c arg1 harg1 arg2 harg2 arg3 harg3 arg4 harg4 arg9 arg10 arg11 x0 x1 x2 x3) (kernelRun0_A.sl.v742 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v754 c arg1 harg1 arg2 harg2 arg3 harg3 arg4 harg4 arg9 arg10 arg11 x0 x1 x2 x3)
      = hRaw arg1 harg1 arg2 harg2 arg3 harg3 arg4 harg4 x0 x1 x2 x3 24 := by
  rw [gK_24 c arg1 harg1 arg2 harg2 arg3 harg3 arg4 harg4 arg9 arg10 arg11 x0 x1 x2 x3, hK_24 c arg1 harg1 arg2 harg2 arg3 harg3 arg4 harg4 arg9 arg10 arg11 x0 x1 x2 x3, cK_24 c arg1 harg1 arg2 harg2 arg3 harg3 arg4 harg4 arg9 arg10 arg11 x0 x1 x2 x3]
  rfl

theorem pK_25 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay158 (kernelRun0_A.sl.r_35 c arg1 harg1 arg2 harg2 arg3 harg3 arg4 harg4 arg9 arg10 arg11 x0 x1 x2 x3) (kernelRun0_A.sl.r_36 c arg1 harg1 arg2 harg2 arg3 harg3 arg4 harg4 arg9 arg10 arg11 x0 x1 x2 x3) (kernelRun0_A.sl.r_37 c arg1 harg1 arg2 harg2 arg3 harg3 arg4 harg4 arg9 arg10 arg11 x0 x1 x2 x3) (kernelRun0_A.sl.r_38 c arg1 harg1 arg2 harg2 arg3 harg3 arg4 harg4 arg9 arg10 arg11 x0 x1 x2 x3) (kernelRun0_A.sl.v784 c arg1 harg1 arg2 harg2 arg3 harg3 arg4 harg4 arg9 arg10 arg11 x0 x1 x2 x3)
      = hRaw arg1 harg1 arg2 harg2 arg3 harg3 arg4 harg4 x0 x1 x2 x3 25 := by
  unfold kernelRun0_A.sl.r_35 kernelRun0_A.sl.r_36 kernelRun0_A.sl.r_37 kernelRun0_A.sl.r_38
  rw [gK_25 c arg1 harg1 arg2 harg2 arg3 harg3 arg4 harg4 arg9 arg10 arg11 x0 x1 x2 x3, hK_25 c arg1 harg1 arg2 harg2 arg3 harg3 arg4 harg4 arg9 arg10 arg11 x0 x1 x2 x3, cK_25 c arg1 harg1 arg2 harg2 arg3 harg3 arg4 harg4 arg9 arg10 arg11 x0 x1 x2 x3]
  rfl

theorem pK_26 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_40 c arg1 harg1 arg2 harg2 arg3 harg3 arg4 harg4 arg9 arg10 arg11 x0 x1 x2 x3
      = hRaw arg1 harg1 arg2 harg2 arg3 harg3 arg4 harg4 x0 x1 x2 x3 26 := by
  unfold kernelRun0_A.sl.r_40
  rw [gK_26 c arg1 harg1 arg2 harg2 arg3 harg3 arg4 harg4 arg9 arg10 arg11 x0 x1 x2 x3, hK_26 c arg1 harg1 arg2 harg2 arg3 harg3 arg4 harg4 arg9 arg10 arg11 x0 x1 x2 x3, cK_26 c arg1 harg1 arg2 harg2 arg3 harg3 arg4 harg4 arg9 arg10 arg11 x0 x1 x2 x3]
  rfl

theorem pK_27 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_41 c arg1 harg1 arg2 harg2 arg3 harg3 arg4 harg4 arg9 arg10 arg11 x0 x1 x2 x3
      = hRaw arg1 harg1 arg2 harg2 arg3 harg3 arg4 harg4 x0 x1 x2 x3 27 := by
  unfold kernelRun0_A.sl.r_41
  rw [gK_27 c arg1 harg1 arg2 harg2 arg3 harg3 arg4 harg4 arg9 arg10 arg11 x0 x1 x2 x3, hK_27 c arg1 harg1 arg2 harg2 arg3 harg3 arg4 harg4 arg9 arg10 arg11 x0 x1 x2 x3, cK_27 c arg1 harg1 arg2 harg2 arg3 harg3 arg4 harg4 arg9 arg10 arg11 x0 x1 x2 x3]
  rfl

theorem pK_28 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay173 (kernelRun0_A.sl.v860 c arg1 harg1 arg2 harg2 arg3 harg3 arg4 harg4 arg9 arg10 arg11 x0 x1 x2 x3) (kernelRun0_A.sl.v862 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v874 c arg1 harg1 arg2 harg2 arg3 harg3 arg4 harg4 arg9 arg10 arg11 x0 x1 x2 x3)
      = hRaw arg1 harg1 arg2 harg2 arg3 harg3 arg4 harg4 x0 x1 x2 x3 28 := by
  rw [gK_28 c arg1 harg1 arg2 harg2 arg3 harg3 arg4 harg4 arg9 arg10 arg11 x0 x1 x2 x3, hK_28 c arg1 harg1 arg2 harg2 arg3 harg3 arg4 harg4 arg9 arg10 arg11 x0 x1 x2 x3, cK_28 c arg1 harg1 arg2 harg2 arg3 harg3 arg4 harg4 arg9 arg10 arg11 x0 x1 x2 x3]
  rfl

theorem pK_29 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay178 (kernelRun0_A.sl.v890 c arg1 harg1 arg2 harg2 arg3 harg3 arg4 harg4 arg9 arg10 arg11 x0 x1 x2 x3) (kernelRun0_A.sl.v892 c arg1 harg1 arg2 harg2 arg4 harg4 arg9 x0 x1 x3) (View.readAt (Elt F) arg3.view (Rect.unit ![0, 0] S256x1024.size inb_S256x1024_S256x1024_0_0).toLoadRect (harg3.unread x2)) (kernelRun0_A.sl.v904 c arg1 harg1 arg2 harg2 arg3 harg3 arg4 harg4 arg9 arg10 arg11 x0 x1 x2 x3)
      = hRaw arg1 harg1 arg2 harg2 arg3 harg3 arg4 harg4 x0 x1 x2 x3 29 := by
  rw [gK_29 c arg1 harg1 arg2 harg2 arg3 harg3 arg4 harg4 arg9 arg10 arg11 x0 x1 x2 x3, hK_29 c arg1 harg1 arg2 harg2 arg3 harg3 arg4 harg4 arg9 arg10 arg11 x0 x1 x2 x3, cK_29 c arg1 harg1 arg2 harg2 arg3 harg3 arg4 harg4 arg9 arg10 arg11 x0 x1 x2 x3]
  rfl

theorem pK_30 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    k0_pay187 (kernelRun0_A.sl.r_42 c arg1 harg1 arg2 harg2 arg3 harg3 arg4 harg4 arg9 arg10 arg11 x0 x1 x2 x3) (kernelRun0_A.sl.r_43 c arg1 harg1 arg2 harg2 arg3 harg3 arg4 harg4 arg9 arg10 arg11 x0 x1 x2 x3) (kernelRun0_A.sl.r_44 c arg1 harg1 arg2 harg2 arg3 harg3 arg4 harg4 arg9 arg10 arg11 x0 x1 x2 x3) (kernelRun0_A.sl.r_45 c arg1 harg1 arg2 harg2 arg3 harg3 arg4 harg4 arg9 arg10 arg11 x0 x1 x2 x3) (kernelRun0_A.sl.v934 c arg1 harg1 arg2 harg2 arg3 harg3 arg4 harg4 arg9 arg10 arg11 x0 x1 x2 x3)
      = hRaw arg1 harg1 arg2 harg2 arg3 harg3 arg4 harg4 x0 x1 x2 x3 30 := by
  unfold kernelRun0_A.sl.r_42 kernelRun0_A.sl.r_43 kernelRun0_A.sl.r_44 kernelRun0_A.sl.r_45
  rw [gK_30 c arg1 harg1 arg2 harg2 arg3 harg3 arg4 harg4 arg9 arg10 arg11 x0 x1 x2 x3, hK_30 c arg1 harg1 arg2 harg2 arg3 harg3 arg4 harg4 arg9 arg10 arg11 x0 x1 x2 x3, cK_30 c arg1 harg1 arg2 harg2 arg3 harg3 arg4 harg4 arg9 arg10 arg11 x0 x1 x2 x3]
  rfl

theorem pK_31 (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.r_47 c arg1 harg1 arg2 harg2 arg3 harg3 arg4 harg4 arg9 arg10 arg11 x0 x1 x2 x3
      = hRaw arg1 harg1 arg2 harg2 arg3 harg3 arg4 harg4 x0 x1 x2 x3 31 := by
  unfold kernelRun0_A.sl.r_47
  rw [gK_31 c arg1 harg1 arg2 harg2 arg3 harg3 arg4 harg4 arg9 arg10 arg11 x0 x1 x2 x3, hK_31 c arg1 harg1 arg2 harg2 arg3 harg3 arg4 harg4 arg9 arg10 arg11 x0 x1 x2 x3, cK_31 c arg1 harg1 arg2 harg2 arg3 harg3 arg4 harg4 arg9 arg10 arg11 x0 x1 x2 x3]
  rfl

/-- Rows `128 s … 128 s + 127` lie inside the 4096 rows. -/
theorem inb6 (s : ℕ) (hs : s < 32) : ∀ a : Fin 2, (![128 * s, 0] : Fin 2 → ℕ) a + S128x256.size a ≤ S4096x256.size a := by
  intro a
  match a with
  | ⟨0, _⟩ => show 128 * s + 128 ≤ 4096; omega
  | ⟨1, _⟩ => show 0 + 256 ≤ 256; omega

/-- The store of step `s` into the output array: rows `128 s … 128 s + 127`, the new hidden array. -/
def pcR (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S4096x1024 .f32) (x1 : Vec F S1024x1024 .f32) (x2 : Vec F S256x1024 .f32) (x3 : Vec F S1x1024 .f32) (s : ℕ) (hs : s < 32) : View.Piece (Elt F) S4096x256 .f32 :=
  ⟨Rect.unit (s := S4096x256) ![128 * s, 0] S128x256.size (inb6 s hs), hRaw arg1 harg1 arg2 harg2 arg3 harg3 arg4 harg4 x0 x1 x2 x3 s⟩

/-- The body's stores into the output array, last first. -/
theorem H6_eq (c : Dev nD) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg9 : Memref sig .tc .vmem S4096x1024 .f32) (arg10 : Memref sig .tc .vmem S128x256 .f32) (arg11 : Memref sig .tc .vmem S128x256 .f32) (x0 : Vec F S4096x1024 .f32) (x1 : Vec F S1024x1024 .f32) (x2 : Vec F S256x1024 .f32) (x3 : Vec F S1x1024 .f32) :
    kernelRun0_A.sl.H6_32 c arg1 harg1 arg2 harg2 arg3 harg3 arg4 harg4 arg9 arg10 arg11 x0 x1 x2 x3
      = [pcR arg1 harg1 arg2 harg2 arg3 harg3 arg4 harg4 x0 x1 x2 x3 31 (by norm_num),
      pcR arg1 harg1 arg2 harg2 arg3 harg3 arg4 harg4 x0 x1 x2 x3 30 (by norm_num),
      pcR arg1 harg1 arg2 harg2 arg3 harg3 arg4 harg4 x0 x1 x2 x3 29 (by norm_num),
      pcR arg1 harg1 arg2 harg2 arg3 harg3 arg4 harg4 x0 x1 x2 x3 28 (by norm_num),
      pcR arg1 harg1 arg2 harg2 arg3 harg3 arg4 harg4 x0 x1 x2 x3 27 (by norm_num),
      pcR arg1 harg1 arg2 harg2 arg3 harg3 arg4 harg4 x0 x1 x2 x3 26 (by norm_num),
      pcR arg1 harg1 arg2 harg2 arg3 harg3 arg4 harg4 x0 x1 x2 x3 25 (by norm_num),
      pcR arg1 harg1 arg2 harg2 arg3 harg3 arg4 harg4 x0 x1 x2 x3 24 (by norm_num),
      pcR arg1 harg1 arg2 harg2 arg3 harg3 arg4 harg4 x0 x1 x2 x3 23 (by norm_num),
      pcR arg1 harg1 arg2 harg2 arg3 harg3 arg4 harg4 x0 x1 x2 x3 22 (by norm_num),
      pcR arg1 harg1 arg2 harg2 arg3 harg3 arg4 harg4 x0 x1 x2 x3 21 (by norm_num),
      pcR arg1 harg1 arg2 harg2 arg3 harg3 arg4 harg4 x0 x1 x2 x3 20 (by norm_num),
      pcR arg1 harg1 arg2 harg2 arg3 harg3 arg4 harg4 x0 x1 x2 x3 19 (by norm_num),
      pcR arg1 harg1 arg2 harg2 arg3 harg3 arg4 harg4 x0 x1 x2 x3 18 (by norm_num),
      pcR arg1 harg1 arg2 harg2 arg3 harg3 arg4 harg4 x0 x1 x2 x3 17 (by norm_num),
      pcR arg1 harg1 arg2 harg2 arg3 harg3 arg4 harg4 x0 x1 x2 x3 16 (by norm_num),
      pcR arg1 harg1 arg2 harg2 arg3 harg3 arg4 harg4 x0 x1 x2 x3 15 (by norm_num),
      pcR arg1 harg1 arg2 harg2 arg3 harg3 arg4 harg4 x0 x1 x2 x3 14 (by norm_num),
      pcR arg1 harg1 arg2 harg2 arg3 harg3 arg4 harg4 x0 x1 x2 x3 13 (by norm_num),
      pcR arg1 harg1 arg2 harg2 arg3 harg3 arg4 harg4 x0 x1 x2 x3 12 (by norm_num),
      pcR arg1 harg1 arg2 harg2 arg3 harg3 arg4 harg4 x0 x1 x2 x3 11 (by norm_num),
      pcR arg1 harg1 arg2 harg2 arg3 harg3 arg4 harg4 x0 x1 x2 x3 10 (by norm_num),
      pcR arg1 harg1 arg2 harg2 arg3 harg3 arg4 harg4 x0 x1 x2 x3 9 (by norm_num),
      pcR arg1 harg1 arg2 harg2 arg3 harg3 arg4 harg4 x0 x1 x2 x3 8 (by norm_num),
      pcR arg1 harg1 arg2 harg2 arg3 harg3 arg4 harg4 x0 x1 x2 x3 7 (by norm_num),
      pcR arg1 harg1 arg2 harg2 arg3 harg3 arg4 harg4 x0 x1 x2 x3 6 (by norm_num),
      pcR arg1 harg1 arg2 harg2 arg3 harg3 arg4 harg4 x0 x1 x2 x3 5 (by norm_num),
      pcR arg1 harg1 arg2 harg2 arg3 harg3 arg4 harg4 x0 x1 x2 x3 4 (by norm_num),
      pcR arg1 harg1 arg2 harg2 arg3 harg3 arg4 harg4 x0 x1 x2 x3 3 (by norm_num),
      pcR arg1 harg1 arg2 harg2 arg3 harg3 arg4 harg4 x0 x1 x2 x3 2 (by norm_num),
      pcR arg1 harg1 arg2 harg2 arg3 harg3 arg4 harg4 x0 x1 x2 x3 1 (by norm_num),
      pcR arg1 harg1 arg2 harg2 arg3 harg3 arg4 harg4 x0 x1 x2 x3 0 (by norm_num)] := by
  unfold kernelRun0_A.sl.H6_32
  rw [pK_31 c arg1 harg1 arg2 harg2 arg3 harg3 arg4 harg4 arg9 arg10 arg11 x0 x1 x2 x3, pK_30 c arg1 harg1 arg2 harg2 arg3 harg3 arg4 harg4 arg9 arg10 arg11 x0 x1 x2 x3, pK_29 c arg1 harg1 arg2 harg2 arg3 harg3 arg4 harg4 arg9 arg10 arg11 x0 x1 x2 x3, pK_28 c arg1 harg1 arg2 harg2 arg3 harg3 arg4 harg4 arg9 arg10 arg11 x0 x1 x2 x3, pK_27 c arg1 harg1 arg2 harg2 arg3 harg3 arg4 harg4 arg9 arg10 arg11 x0 x1 x2 x3, pK_26 c arg1 harg1 arg2 harg2 arg3 harg3 arg4 harg4 arg9 arg10 arg11 x0 x1 x2 x3, pK_25 c arg1 harg1 arg2 harg2 arg3 harg3 arg4 harg4 arg9 arg10 arg11 x0 x1 x2 x3, pK_24 c arg1 harg1 arg2 harg2 arg3 harg3 arg4 harg4 arg9 arg10 arg11 x0 x1 x2 x3, pK_23 c arg1 harg1 arg2 harg2 arg3 harg3 arg4 harg4 arg9 arg10 arg11 x0 x1 x2 x3, pK_22 c arg1 harg1 arg2 harg2 arg3 harg3 arg4 harg4 arg9 arg10 arg11 x0 x1 x2 x3, pK_21 c arg1 harg1 arg2 harg2 arg3 harg3 arg4 harg4 arg9 arg10 arg11 x0 x1 x2 x3, pK_20 c arg1 harg1 arg2 harg2 arg3 harg3 arg4 harg4 arg9 arg10 arg11 x0 x1 x2 x3, pK_19 c arg1 harg1 arg2 harg2 arg3 harg3 arg4 harg4 arg9 arg10 arg11 x0 x1 x2 x3, pK_18 c arg1 harg1 arg2 harg2 arg3 harg3 arg4 harg4 arg9 arg10 arg11 x0 x1 x2 x3, pK_17 c arg1 harg1 arg2 harg2 arg3 harg3 arg4 harg4 arg9 arg10 arg11 x0 x1 x2 x3, pK_16 c arg1 harg1 arg2 harg2 arg3 harg3 arg4 harg4 arg9 arg10 arg11 x0 x1 x2 x3, pK_15 c arg1 harg1 arg2 harg2 arg3 harg3 arg4 harg4 arg9 arg10 arg11 x0 x1 x2 x3, pK_14 c arg1 harg1 arg2 harg2 arg3 harg3 arg4 harg4 arg9 arg10 arg11 x0 x1 x2 x3, pK_13 c arg1 harg1 arg2 harg2 arg3 harg3 arg4 harg4 arg9 arg10 arg11 x0 x1 x2 x3, pK_12 c arg1 harg1 arg2 harg2 arg3 harg3 arg4 harg4 arg9 arg10 arg11 x0 x1 x2 x3, pK_11 c arg1 harg1 arg2 harg2 arg3 harg3 arg4 harg4 arg9 arg10 arg11 x0 x1 x2 x3, pK_10 c arg1 harg1 arg2 harg2 arg3 harg3 arg4 harg4 arg9 arg10 arg11 x0 x1 x2 x3, pK_9 c arg1 harg1 arg2 harg2 arg3 harg3 arg4 harg4 arg9 arg10 arg11 x0 x1 x2 x3, pK_8 c arg1 harg1 arg2 harg2 arg3 harg3 arg4 harg4 arg9 arg10 arg11 x0 x1 x2 x3, pK_7 c arg1 harg1 arg2 harg2 arg3 harg3 arg4 harg4 arg9 arg10 arg11 x0 x1 x2 x3, pK_6 c arg1 harg1 arg2 harg2 arg3 harg3 arg4 harg4 arg9 arg10 arg11 x0 x1 x2 x3, pK_5 c arg1 harg1 arg2 harg2 arg3 harg3 arg4 harg4 arg9 arg10 arg11 x0 x1 x2 x3, pK_4 c arg1 harg1 arg2 harg2 arg3 harg3 arg4 harg4 arg9 arg10 arg11 x0 x1 x2 x3, pK_3 c arg1 harg1 arg2 harg2 arg3 harg3 arg4 harg4 arg9 arg10 arg11 x0 x1 x2 x3, pK_2 c arg1 harg1 arg2 harg2 arg3 harg3 arg4 harg4 arg9 arg10 arg11 x0 x1 x2 x3, pK_1 c arg1 harg1 arg2 harg2 arg3 harg3 arg4 harg4 arg9 arg10 arg11 x0 x1 x2 x3, pK_0 c arg1 harg1 arg2 harg2 arg3 harg3 arg4 harg4 arg9 arg10 arg11 x0 x1 x2 x3]
  try rfl

/-- The output array as one function: entry `(ρ, j)`, `ρ = 128 s + B`, is entry `(B, j)` of the new hidden array of step `s`. -/
def outR (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S4096x1024 .f32) (x1 : Vec F S1024x1024 .f32) (x2 : Vec F S256x1024 .f32) (x3 : Vec F S1x1024 .f32) : S4096x256.Idx → Elt F .f32 :=
  fun y => hRaw arg1 harg1 arg2 harg2 arg3 harg3 arg4 harg4 x0 x1 x2 x3 ((y 0).val / 128) (ix2 (⟨(y 0).val % 128, Nat.mod_lt _ (by norm_num)⟩ : Fin 128) (⟨(y 1).val, (y 1).isLt⟩ : Fin 256))

/-- The store of step `s` holds the function's values on its rows. -/
theorem pcR_ok (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (x0 : Vec F S4096x1024 .f32) (x1 : Vec F S1024x1024 .f32) (x2 : Vec F S256x1024 .f32) (x3 : Vec F S1x1024 .f32) (s : ℕ) (hs : s < 32) (x : (pcR arg1 harg1 arg2 harg2 arg3 harg3 arg4 harg4 x0 x1 x2 x3 s hs).1.shape.Idx) :
    (pcR arg1 harg1 arg2 harg2 arg3 harg3 arg4 harg4 x0 x1 x2 x3 s hs).2 x = outR arg1 harg1 arg2 harg2 arg3 harg3 arg4 harg4 x0 x1 x2 x3 ((pcR arg1 harg1 arg2 harg2 arg3 harg3 arg4 harg4 x0 x1 x2 x3 s hs).1.emb x) := by
  show hRaw arg1 harg1 arg2 harg2 arg3 harg3 arg4 harg4 x0 x1 x2 x3 s x = _
  have h0 : (x 0).val < 128 := (x 0).isLt
  have e0 : (((pcR arg1 harg1 arg2 harg2 arg3 harg3 arg4 harg4 x0 x1 x2 x3 s hs).1.emb x) 0).val = 128 * s + (x 0).val := by
    rw [Rect.emb_apply]
    show 128 * s + 1 * (x 0).val = 128 * s + (x 0).val
    omega
  have e1 : (((pcR arg1 harg1 arg2 harg2 arg3 harg3 arg4 harg4 x0 x1 x2 x3 s hs).1.emb x) 1).val = (x 1).val := by
    rw [Rect.emb_apply]
    show 0 + 1 * (x 1).val = (x 1).val
    omega
  unfold outR
  have d0 : (((pcR arg1 harg1 arg2 harg2 arg3 harg3 arg4 harg4 x0 x1 x2 x3 s hs).1.emb x) 0).val / 128 = s := by rw [e0]; omega
  rw [d0]
  congr 1
  funext a
  apply Fin.ext
  match a with
  | ⟨0, _⟩ => show (x 0).val = (((pcR arg1 harg1 arg2 harg2 arg3 harg3 arg4 harg4 x0 x1 x2 x3 s hs).1.emb x) 0).val % 128; rw [e0]; omega
  | ⟨1, _⟩ => show (x 1).val = (((pcR arg1 harg1 arg2 harg2 arg3 harg3 arg4 harg4 x0 x1 x2 x3 s hs).1.emb x) 1).val; rw [e1]

/-- What the body leaves in the hidden-state output array. -/
theorem out6_eq (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec F S4096x1024 .f32) (x1 : Vec F S1024x1024 .f32) (x2 : Vec F S256x1024 .f32) (x3 : Vec F S1x1024 .f32) (x4 : Vec F S256x512 .f32) (x5 : Vec F S1x512 .f32) :
    out0_A_6 c i arg1 harg1 arg2 harg2 arg3 harg3 arg4 harg4 arg5 harg5 arg6 harg6 arg7 harg7 arg8 harg8 arg9 harg9 arg10 harg10 arg11 harg11 x0 x1 x2 x3 x4 x5 = outR arg1 harg1 arg2 harg2 arg3 harg3 arg4 harg4 x0 x1 x2 x3 := by
  funext y
  have hc := cover0_A_6 c i arg1 harg1 arg2 harg2 arg3 harg3 arg4 harg4 arg5 harg5 arg6 harg6 arg7 harg7 arg8 harg8 arg9 harg9 arg10 harg10 arg11 harg11 x0 x1 x2 x3 x4 x5 y
  unfold out0_A_6
  rw [View.read_writes_junk_eq_canon]
  refine View.canon_apply_of_pieces (outR arg1 harg1 arg2 harg2 arg3 harg3 arg4 harg4 x0 x1 x2 x3) _ ?_ y hc
  show ∀ p ∈ kernelRun0_A.sl.H6_32 c arg1 harg1 arg2 harg2 arg3 harg3 arg4 harg4 arg9 arg10 arg11 x0 x1 x2 x3, ∀ x : p.1.shape.Idx, p.2 x = outR arg1 harg1 arg2 harg2 arg3 harg3 arg4 harg4 x0 x1 x2 x3 (p.1.emb x)
  rw [H6_eq]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact pcR_ok arg1 harg1 arg2 harg2 arg3 harg3 arg4 harg4 x0 x1 x2 x3 _ _

/-- What the body leaves in the head output array: the heads of what it left in the hidden-state array. -/
theorem out7_eq (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec F S4096x1024 .f32) (x1 : Vec F S1024x1024 .f32) (x2 : Vec F S256x1024 .f32) (x3 : Vec F S1x1024 .f32) (x4 : Vec F S256x512 .f32) (x5 : Vec F S1x512 .f32) :
    out0_A_7 c i arg1 harg1 arg2 harg2 arg3 harg3 arg4 harg4 arg5 harg5 arg6 harg6 arg7 harg7 arg8 harg8 arg9 harg9 arg10 harg10 arg11 harg11 x0 x1 x2 x3 x4 x5
      = k0_pay3 (out0_A_6 c i arg1 harg1 arg2 harg2 arg3 harg3 arg4 harg4 arg5 harg5 arg6 harg6 arg7 harg7 arg8 harg8 arg9 harg9 arg10 harg10 arg11 harg11 x0 x1 x2 x3 x4 x5)
          (View.readAt (Elt F) arg5.view (Rect.unit ![0, 0] S256x512.size inb_S256x512_S256x512_0_0).toLoadRect (harg5.unread x4))
          (View.readAt (Elt F) arg6.view (Rect.unit ![0, 0] S1x512.size inb_S1x512_S1x512_0_0).toLoadRect (harg6.unread x5)) := by
  have hv : kernelRun0_A.sl.v978 c arg1 harg1 arg2 harg2 arg3 harg3 arg4 harg4 arg7 arg9 arg10 arg11 x0 x1 x2 x3
      = out0_A_6 c i arg1 harg1 arg2 harg2 arg3 harg3 arg4 harg4 arg5 harg5 arg6 harg6 arg7 harg7 arg8 harg8 arg9 harg9 arg10 harg10 arg11 harg11 x0 x1 x2 x3 x4 x5 := by
    unfold kernelRun0_A.sl.v978 out0_A_6
    rw [View.readCov_eq_canon', View.read_writes_junk_eq_canon]
    show View.ld (View.canon (kernelRun0_A.sl.H6_32 c arg1 harg1 arg2 harg2 arg3 harg3 arg4 harg4 arg9 arg10 arg11 x0 x1 x2 x3)) (Rect.unit ![0, 0] S4096x256.size inb_S4096x256_S4096x256_0_0) = View.canon (kernelRun0_A.sl.H6_32 c arg1 harg1 arg2 harg2 arg3 harg3 arg4 harg4 arg9 arg10 arg11 x0 x1 x2 x3)
    exact View.ld_unit_zero (by funext a; match a with | ⟨0, _⟩ => rfl | ⟨1, _⟩ => rfl) _ _
  unfold out0_A_7
  rw [View.read_writes_junk_eq_canon]
  show View.canon [(⟨Rect.unit ![0, 0] S4096x512.size inb_S4096x512_S4096x512_0_0, k0_pay3 (kernelRun0_A.sl.v978 c arg1 harg1 arg2 harg2 arg3 harg3 arg4 harg4 arg7 arg9 arg10 arg11 x0 x1 x2 x3) _ _⟩ : View.Piece (Elt F) S4096x512 .f32)] = _
  rw [View.canon_unit_zero (by funext a; match a with | ⟨0, _⟩ => rfl | ⟨1, _⟩ => rfl), hv]

end Cert.ReferenceIdeal.RV

end
-- ==== Proof.RBlock.lean ====
/-
  What the reference's one grid point leaves in its two output arrays, entry by entry.

  The point holds all 128 batch rows over all 32 steps, (step, batch) flattened into 4096 rows. Entry (ρ, j) of the
  hidden-state array, ρ = 128 s + B, is row B's hidden state after step s, computed from that row's own 32 input
  vectors (rows 128 s' + B of the flattened input); entry (ρ, n) of the head array is that hidden state times the head
  weights plus the head bias.
-/
import proofs.«106864_g2000204369025975_pallaspilot1_7_1_alg».proof.Proof.Gen.ReferenceIdeal.Frame
import proofs.«106864_g2000204369025975_pallaspilot1_7_1_alg».proof.Proof.ROut

set_option maxRecDepth 16384

noncomputable section

open scoped BigOperators

namespace Cert.ReferenceIdeal.RV

open Idealize.ShloMosaic Idealize.ShloMosaic.TcCoe Idealize.ShloMosaic.ValueIdx
open Idealize.SL.Sem
open Cert.ReferenceIdeal Cert.ReferenceIdeal.Gen Cert.Lstm

/-- A load of a whole input array reads the array. -/
theorem readWhole {S : Shape} (m : Memref sig .tc .vmem S .f32) (hm : m.IsWhole) (X : Vec Ideal S .f32)
    {off : Fin S.rank → ℕ} (h : off = fun _ => 0) (inb : ∀ a, off a + S.size a ≤ S.size a) :
    View.readAt (Elt Ideal) m.view (Rect.unit off S.size inb).toLoadRect (hm.unread X) = X := by
  rw [View.readAt_eq_ld, hm.read_unread, View.ld_unit_zero h]

theorem z2 : (![0, 0] : Fin 2 → ℕ) = fun _ => 0 := by
  funext a; match a with | ⟨0, _⟩ => rfl | ⟨1, _⟩ => rfl

/-- The recurrent weights the body reads are the weight array. -/
theorem WR_eq (arg3 : Memref sig .tc .vmem S256x1024 .f32) (harg3 : arg3.IsWhole) (x2 : Vec Ideal S256x1024 .f32) :
    WR (F := Ideal) arg3 harg3 x2 = x2 := by
  unfold WR
  exact readWhole arg3 harg3 x2 z2 _

/-- Entry `(B, n)` of step `s'`'s projected inputs: batch row `B`'s input vector of that step (row `128 s' + B` of the flattened
    input) through the input weights, plus the bias. -/
theorem GR_apply (arg1 : Memref sig .tc .vmem S4096x1024 .f32) (harg1 : arg1.IsWhole) (arg2 : Memref sig .tc .vmem S1024x1024 .f32) (harg2 : arg2.IsWhole) (arg4 : Memref sig .tc .vmem S1x1024 .f32) (harg4 : arg4.IsWhole) (x0 : Vec Ideal S4096x1024 .f32) (x1 : Vec Ideal S1024x1024 .f32) (x3 : Vec Ideal S1x1024 .f32) (s' : ℕ) (B : Fin 128) (n : Fin 1024) :
    GR (F := Ideal) arg1 harg1 arg2 harg2 arg4 harg4 x0 x1 x3 s' (ix2 B n)
      = (∑ k : Fin 1024, x0 (ix2 (flatRow (tm s') B) k) * x1 (ix2 k n)) + x3 (ix2 (0 : Fin 1) n) := by
  unfold GR gxR k0_pay4
  rw [readWhole arg1 harg1 x0 z2, readWhole arg2 harg2 x1 z2, readWhole arg4 harg4 x3 z2]
  rw [shapeCast_self, shapeCast_self]
  have hidx : (Rect.unit (s := S4096x1024) ![128 * (s' % 32), 0] S128x1024.size (inbG s')).idx (ix2 B n)
      = ix2 (flatRow (tm s') B) n := by
    funext a; apply Fin.ext
    match a with
    | ⟨0, _⟩ => show 128 * (s' % 32) + 1 * B.val = 128 * (s' % 32) + B.val; omega
    | ⟨1, _⟩ => show 0 + 1 * n.val = n.val; omega
  rw [hidx]
  exact vAffine_apply (N := 4096) (K := 1024) (M := 1024) x0 x1 x3 broadcasts_S1x1024_S4096x1024 (flatRow (tm s') B) n

/-- Entry `(ρ, j)` of the hidden-state array: the row recurrence on batch row `ρ mod 128`, after step `ρ / 128`. -/
theorem out6_apply (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec Ideal S4096x1024 .f32) (x1 : Vec Ideal S1024x1024 .f32) (x2 : Vec Ideal S256x1024 .f32) (x3 : Vec Ideal S1x1024 .f32) (x4 : Vec Ideal S256x512 .f32) (x5 : Vec Ideal S1x512 .f32)
    (ρ : Fin 4096) (j : Fin 256) :
    out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 ρ j)
      = (rowState (wmat x2)
          (fun s' n => (∑ k : Fin 1024, x0 (ix2 (flatRow (tm s') (rowBatch ρ)) k) * x1 (ix2 k n)) + x3 (ix2 (0 : Fin 1) n))
          ((rowStep ρ).val + 1)).1 j := by
  have hG : (fun (s' : ℕ) (n : Fin 1024) => (GR (F := Ideal) arg1 harg1 arg2 harg2 arg4 harg4 x0 x1 x3) s' (ix2 (rowBatch ρ) n)) = (fun (s' : ℕ) (n : Fin 1024) => (∑ k : Fin 1024, x0 (ix2 (flatRow (tm s') (rowBatch ρ)) k) * x1 (ix2 k n)) + x3 (ix2 (0 : Fin 1) n)) :=
    funext fun s' => funext fun n => GR_apply arg1 harg1 arg2 harg2 arg4 harg4 x0 x1 x3 s' (rowBatch ρ) n
  have key := vState_apply witR x2 (GR (F := Ideal) arg1 harg1 arg2 harg2 arg4 harg4 x0 x1 x3) (rowBatch ρ) (rowStep ρ).val
  rw [hG] at key
  have k1 : (fun k : Fin 256 => (vState witR x2 (GR (F := Ideal) arg1 harg1 arg2 harg2 arg4 harg4 x0 x1 x3) (rowStep ρ).val).1 (ix2 (rowBatch ρ) k)) = (rowState (wmat x2) (fun (s' : ℕ) (n : Fin 1024) => (∑ k : Fin 1024, x0 (ix2 (flatRow (tm s') (rowBatch ρ)) k) * x1 (ix2 k n)) + x3 (ix2 (0 : Fin 1) n)) (rowStep ρ).val).1 :=
    congrArg Prod.fst key
  have k2 : (fun k : Fin 256 => (vState witR x2 (GR (F := Ideal) arg1 harg1 arg2 harg2 arg4 harg4 x0 x1 x3) (rowStep ρ).val).2 (ix2 (rowBatch ρ) k)) = (rowState (wmat x2) (fun (s' : ℕ) (n : Fin 1024) => (∑ k : Fin 1024, x0 (ix2 (flatRow (tm s') (rowBatch ρ)) k) * x1 (ix2 k n)) + x3 (ix2 (0 : Fin 1) n)) (rowStep ρ).val).2 :=
    congrArg Prod.snd key
  have e1 : out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 ρ j)
      = vH witR x2 ((GR (F := Ideal) arg1 harg1 arg2 harg2 arg4 harg4 x0 x1 x3) (rowStep ρ).val) (vState witR x2 (GR (F := Ideal) arg1 harg1 arg2 harg2 arg4 harg4 x0 x1 x3) (rowStep ρ).val).1 (vState witR x2 (GR (F := Ideal) arg1 harg1 arg2 harg2 arg4 harg4 x0 x1 x3) (rowStep ρ).val).2 (ix2 (rowBatch ρ) j) := by
    rw [out6_eq]
    show hRaw (F := Ideal) arg1 harg1 arg2 harg2 arg3 harg3 arg4 harg4 x0 x1 x2 x3 (rowStep ρ).val (ix2 (rowBatch ρ) j) = _
    unfold hRaw stR
    rw [WR_eq]
  have e2 := vH_apply witR x2 ((GR (F := Ideal) arg1 harg1 arg2 harg2 arg4 harg4 x0 x1 x3) (rowStep ρ).val) (vState witR x2 (GR (F := Ideal) arg1 harg1 arg2 harg2 arg4 harg4 x0 x1 x3) (rowStep ρ).val).1 (vState witR x2 (GR (F := Ideal) arg1 harg1 arg2 harg2 arg4 harg4 x0 x1 x3) (rowStep ρ).val).2 (rowBatch ρ) j
  rw [k1, k2, congrFun hG (rowStep ρ).val] at e2
  exact e1.trans e2

/-- The head payload at an index: the hidden states times the head weights, plus the head bias. -/
theorem pay3_apply (O : Vec Ideal S4096x256 .f32) (A : Vec Ideal S256x512 .f32) (r : Vec Ideal S1x512 .f32)
    (ρ : Fin 4096) (n : Fin 512) :
    k0_pay3 (F := Ideal) O A r (ix2 ρ n) = (∑ k : Fin 256, O (ix2 ρ k) * A (ix2 k n)) + r (ix2 (0 : Fin 1) n) := by
  unfold k0_pay3
  rw [shapeCast_self]
  exact vAffine_apply (N := 4096) (K := 256) (M := 512) O A r broadcasts_S1x512_S4096x512 ρ n

/-- Entry `(ρ, n)` of the head array: the hidden state of row `ρ` times the head weights, plus the head bias. -/
theorem out7_apply (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec Ideal S4096x1024 .f32) (x1 : Vec Ideal S1024x1024 .f32) (x2 : Vec Ideal S256x1024 .f32) (x3 : Vec Ideal S1x1024 .f32) (x4 : Vec Ideal S256x512 .f32) (x5 : Vec Ideal S1x512 .f32)
    (ρ : Fin 4096) (n : Fin 512) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 (ix2 ρ n)
      = (∑ k : Fin 256, out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 ρ k) * x4 (ix2 k n)) + x5 (ix2 (0 : Fin 1) n) := by
  rw [out7_eq, pay3_apply, readWhole arg5 harg5 x4 z2, readWhole arg6 harg6 x5 z2]

end Cert.ReferenceIdeal.RV

end
-- ==== Proof.RArray.lean ====
/-
  The reference's one grid point read as whole arrays.

  Every window of the region is whole, so each input block is the array the region finds, and the two output arrays
  end holding what the point leaves. The first operand is the first argument transposed to time-major and flattened:
  its row 128 s + B is the argument's row (B, s). With that, the point's hidden-state array is the row recurrence of
  every batch row at every step, and its head array is the hidden states times the head weights plus the head bias.
-/
import proofs.«106864_g2000204369025975_pallaspilot1_7_1_alg».proof.Proof.RBlock
import Idealize.ShloMosaic.Lib.Pipeline.Value
import Idealize.ShloMosaic.Lib.Tactic

set_option maxRecDepth 16384

noncomputable section

open scoped BigOperators

namespace Cert.ReferenceIdeal.RV

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.Lstm

variable (m : (ℓ : Loc nD τ sig) → Buf (Elt Idealize.ShloMosaic.Ideal) ℓ) (ρ : Dev nD → PrngReg)

/-! ## The arguments as launched -/

/-- The six argument arrays of core c: the input sequence, the input weights, the recurrent weights, the gate bias,
    the head weights and the head bias. -/
abbrev argX (c : Dev nD) : SX.Idx → EReal := m ((c.tc : Thread nD τ).loc main_arg0)
abbrev argWih (c : Dev nD) : SWih.Idx → EReal := m ((c.tc : Thread nD τ).loc main_arg1)
abbrev argWhh (c : Dev nD) : SWhh.Idx → EReal := m ((c.tc : Thread nD τ).loc main_arg2)
abbrev argB (c : Dev nD) : SB.Idx → EReal := m ((c.tc : Thread nD τ).loc main_arg3)
abbrev argFw (c : Dev nD) : SFw.Idx → EReal := m ((c.tc : Thread nD τ).loc main_arg4)
abbrev argFb (c : Dev nD) : SFb.Idx → EReal := m ((c.tc : Thread nD τ).loc main_arg5)

/-! ## The windows' blocks: each is its whole array -/

/-- The first operand's block at the one grid point is the whole flattened input. -/
theorem iblk0 (c : Dev nD) (t : Fin cfg0.N) : iblk m c 0 t = V m c main_v1 := by
  have hz' : (fun a => win0_0.index t a * main_v1.ty.shape.size a) = fun _ => 0 := funext fun a => by fin_cases a <;> rfl
  exact Memref.read_access_unit_zero (Elt Idealize.ShloMosaic.Ideal) main_v1 hz' (fun a => by rw [congrFun hz' a]; simp) (V m c main_v1)

/-- Each weight or bias window's block is the whole argument. -/
theorem iblk1 (c : Dev nD) (t : Fin cfg0.N) : iblk m c 1 t = V m c main_arg1 := by
  have hz' : (fun a => win0_1.index t a * main_arg1.ty.shape.size a) = fun _ => 0 := funext fun a => by fin_cases a <;> rfl
  exact Memref.read_access_unit_zero (Elt Idealize.ShloMosaic.Ideal) main_arg1 hz' (fun a => by rw [congrFun hz' a]; simp) (V m c main_arg1)

theorem iblk2 (c : Dev nD) (t : Fin cfg0.N) : iblk m c 2 t = V m c main_arg2 := by
  have hz' : (fun a => win0_2.index t a * main_arg2.ty.shape.size a) = fun _ => 0 := funext fun a => by fin_cases a <;> rfl
  exact Memref.read_access_unit_zero (Elt Idealize.ShloMosaic.Ideal) main_arg2 hz' (fun a => by rw [congrFun hz' a]; simp) (V m c main_arg2)

theorem iblk3 (c : Dev nD) (t : Fin cfg0.N) : iblk m c 3 t = V m c main_arg3 := by
  have hz' : (fun a => win0_3.index t a * main_arg3.ty.shape.size a) = fun _ => 0 := funext fun a => by fin_cases a <;> rfl
  exact Memref.read_access_unit_zero (Elt Idealize.ShloMosaic.Ideal) main_arg3 hz' (fun a => by rw [congrFun hz' a]; simp) (V m c main_arg3)

theorem iblk4 (c : Dev nD) (t : Fin cfg0.N) : iblk m c 4 t = V m c main_arg4 := by
  have hz' : (fun a => win0_4.index t a * main_arg4.ty.shape.size a) = fun _ => 0 := funext fun a => by fin_cases a <;> rfl
  exact Memref.read_access_unit_zero (Elt Idealize.ShloMosaic.Ideal) main_arg4 hz' (fun a => by rw [congrFun hz' a]; simp) (V m c main_arg4)

theorem iblk5 (c : Dev nD) (t : Fin cfg0.N) : iblk m c 5 t = V m c main_arg5 := by
  have hz' : (fun a => win0_5.index t a * main_arg5.ty.shape.size a) = fun _ => 0 := funext fun a => by fin_cases a <;> rfl
  exact Memref.read_access_unit_zero (Elt Idealize.ShloMosaic.Ideal) main_arg5 hz' (fun a => by rw [congrFun hz' a]; simp) (V m c main_arg5)

/-! ## The flattened input at an index -/

/-- Transposing the first two axes and flattening them: row 128 s + B of the result is row (B, s) of the operand. -/
theorem reshape_transpose_apply (x : S128x32x1024.Idx → EReal) (h1 : S128x32x1024.Transposes [1, 0, 2] S32x128x1024)
    (h2 : S32x128x1024.ShapeCasts S4096x1024) (s : Fin 32) (B : Fin 128) (k : Fin 1024) :
    shapeCast S4096x1024 (transpose S32x128x1024 [1, 0, 2] x h1) h2 (ix2 (flatRow s B) k) = x (ix3 B s k) := by
  refine (shapeCast_apply _ h2 (ix2 (flatRow s B) k) (ix3 s B k) ?_).trans ?_
  · rw [Shape.rowMajor_val_three, Shape.rowMajor_val_two]
    show (s.val * 128 + B.val) * 1024 + k.val = (128 * s.val + B.val) * 1024 + k.val
    omega
  · exact transpose_apply _ x h1 (ix3 s B k) (ix3 B s k) (fun b => match b with | ⟨0, _⟩ => rfl | ⟨1, _⟩ => rfl | ⟨2, _⟩ => rfl)

/-- The region finds its first operand at the first argument transposed and flattened. -/
theorem V_main_v1 (c : Dev nD) :
    (V m c main_v1 : S4096x1024.Idx → EReal)
      = shapeCast S4096x1024 (transpose S32x128x1024 [1, 0, 2] (m ((c.tc : Thread nD τ).loc main_arg0) : S128x32x1024.Idx → EReal)
          Facts₀.transposes_S128x32x1024_S32x128x1024_1_0_2) Facts₀.shapeCasts_S32x128x1024_S4096x1024 := by
  show StableHlo.after hostOps0 (fun b => m (c, b)) (Proc.devRef .tc main_v1) = _
  after_results
  rfl

/-- Row 128 s + B of the first operand is row (B, s) of the first argument. -/
theorem V_main_v1_apply (c : Dev nD) (s : Fin 32) (B : Fin 128) (k : Fin 1024) :
    (V m c main_v1 : S4096x1024.Idx → EReal) (ix2 (flatRow s B) k)
      = (m ((c.tc : Thread nD τ).loc main_arg0) : S128x32x1024.Idx → EReal) (ix3 B s k) := by
  rw [V_main_v1]
  exact reshape_transpose_apply _ _ _ s B k

/-! ## What the point leaves, as functions of the arguments -/

/-- The hidden-state array of the one grid point, when the first operand is a flattened input: entry (ρ, j) is
    batch row ρ mod 128's hidden state after step ρ / 128. -/
theorem out6_spec (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec Idealize.ShloMosaic.Ideal S4096x1024 .f32) (x1 : Vec Idealize.ShloMosaic.Ideal S1024x1024 .f32) (x2 : Vec Idealize.ShloMosaic.Ideal S256x1024 .f32) (x3 : Vec Idealize.ShloMosaic.Ideal S1x1024 .f32) (x4 : Vec Idealize.ShloMosaic.Ideal S256x512 .f32) (x5 : Vec Idealize.ShloMosaic.Ideal S1x512 .f32)
    (X : SX.Idx → EReal) (h0 : ∀ (s : Fin 32) (B : Fin 128) (k : Fin 1024), x0 (ix2 (flatRow s B) k) = X (ix3 B s k)) :
    out0_A_6 (F := Idealize.ShloMosaic.Ideal) c i arg1 harg1 arg2 harg2 arg3 harg3 arg4 harg4 arg5 harg5 arg6 harg6 arg7 harg7 arg8 harg8 arg9 harg9 arg10 harg10 arg11 harg11 x0 x1 x2 x3 x4 x5 = rOutF X x1 x2 x3 := by
  funext y
  rw [eq_ix2 y]
  refine (out6_apply c i arg1 harg1 arg2 harg2 arg3 harg3 arg4 harg4 arg5 harg5 arg6 harg6 arg7 harg7 arg8 harg8 arg9 harg9 arg10 harg10 arg11 harg11 x0 x1 x2 x3 x4 x5 (y 0) (y 1)).trans ?_
  show _ = (rowState (wmat x2) (proj X x1 x3 (rowBatch (y 0))) ((rowStep (y 0)).val + 1)).1 (y 1)
  refine congrArg (fun G => (rowState (wmat x2) G ((rowStep (y 0)).val + 1)).1 (y 1)) ?_
  funext s' n
  show _ = (∑ k : Fin 1024, X (ix3 (rowBatch (y 0)) (tm s') k) * x1 (ix2 k n)) + x3 (ix2 (0 : Fin 1) n)
  refine congrArg (fun a => a + x3 (ix2 (0 : Fin 1) n)) ?_
  exact Finset.sum_congr rfl fun k _ => by rw [h0]

/-- The head array of the one grid point: entry (ρ, n) is that hidden state times the head weights, plus the head bias. -/
theorem out7_spec (c : Dev nD) (i : grid0.Coords) (arg1 : Memref sig .tc .vmem S4096x1024 .f32) (harg1 : arg1.IsWhole) (arg2 : Memref sig .tc .vmem S1024x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S4096x256 .f32) (harg7 : arg7.IsWhole) (arg8 : Memref sig .tc .vmem S4096x512 .f32) (harg8 : arg8.IsWhole) (arg9 : Memref sig .tc .vmem S4096x1024 .f32) (harg9 : arg9.IsWhole) (arg10 : Memref sig .tc .vmem S128x256 .f32) (harg10 : arg10.IsWhole) (arg11 : Memref sig .tc .vmem S128x256 .f32) (harg11 : arg11.IsWhole)
    (x0 : Vec Idealize.ShloMosaic.Ideal S4096x1024 .f32) (x1 : Vec Idealize.ShloMosaic.Ideal S1024x1024 .f32) (x2 : Vec Idealize.ShloMosaic.Ideal S256x1024 .f32) (x3 : Vec Idealize.ShloMosaic.Ideal S1x1024 .f32) (x4 : Vec Idealize.ShloMosaic.Ideal S256x512 .f32) (x5 : Vec Idealize.ShloMosaic.Ideal S1x512 .f32)
    (X : SX.Idx → EReal) (h0 : ∀ (s : Fin 32) (B : Fin 128) (k : Fin 1024), x0 (ix2 (flatRow s B) k) = X (ix3 B s k)) :
    out0_A_7 (F := Idealize.ShloMosaic.Ideal) c i arg1 harg1 arg2 harg2 arg3 harg3 arg4 harg4 arg5 harg5 arg6 harg6 arg7 harg7 arg8 harg8 arg9 harg9 arg10 harg10 arg11 harg11 x0 x1 x2 x3 x4 x5 = headsF X x1 x2 x3 x4 x5 := by
  funext y
  rw [eq_ix2 y]
  refine (out7_apply c i arg1 harg1 arg2 harg2 arg3 harg3 arg4 harg4 arg5 harg5 arg6 harg6 arg7 harg7 arg8 harg8 arg9 harg9 arg10 harg10 arg11 harg11 x0 x1 x2 x3 x4 x5 (y 0) (y 1)).trans ?_
  rw [out6_spec c i arg1 harg1 arg2 harg2 arg3 harg3 arg4 harg4 arg5 harg5 arg6 harg6 arg7 harg7 arg8 harg8 arg9 harg9 arg10 harg10 arg11 harg11 x0 x1 x2 x3 x4 x5 X h0]
  rfl

/-- The first operand's block reads the first argument's rows. -/
theorem iblk0_apply (c : Dev nD) (t : Fin cfg0.N) (s : Fin 32) (B : Fin 128) (k : Fin 1024) :
    (iblk m c 0 t : S4096x1024.Idx → EReal) (ix2 (flatRow s B) k)
      = (m ((c.tc : Thread nD τ).loc main_arg0) : S128x32x1024.Idx → EReal) (ix3 B s k) := by
  rw [iblk0 m c t]
  exact V_main_v1_apply m c s B k

/-- The weight and bias blocks are the arguments as launched. -/
theorem iblk1_arg (c : Dev nD) (t : Fin cfg0.N) : (iblk m c 1 t : SWih.Idx → EReal) = m ((c.tc : Thread nD τ).loc main_arg1) :=
  (iblk1 m c t).trans (V_main_arg1 m c)
theorem iblk2_arg (c : Dev nD) (t : Fin cfg0.N) : (iblk m c 2 t : SWhh.Idx → EReal) = m ((c.tc : Thread nD τ).loc main_arg2) :=
  (iblk2 m c t).trans (V_main_arg2 m c)
theorem iblk3_arg (c : Dev nD) (t : Fin cfg0.N) : (iblk m c 3 t : SB.Idx → EReal) = m ((c.tc : Thread nD τ).loc main_arg3) :=
  (iblk3 m c t).trans (V_main_arg3 m c)
theorem iblk4_arg (c : Dev nD) (t : Fin cfg0.N) : (iblk m c 4 t : SFw.Idx → EReal) = m ((c.tc : Thread nD τ).loc main_arg4) :=
  (iblk4 m c t).trans (V_main_arg4 m c)
theorem iblk5_arg (c : Dev nD) (t : Fin cfg0.N) : (iblk m c 5 t : SFb.Idx → EReal) = m ((c.tc : Thread nD τ).loc main_arg5) :=
  (iblk5 m c t).trans (V_main_arg5 m c)

/-- The hidden-state block and the head block the one grid point leaves, as the run finds them. -/
abbrev o6 (c : Dev nD) (t : Fin cfg0.N) : Vec Idealize.ShloMosaic.Ideal S4096x256 .f32 :=
  out0_A_6 (F := Idealize.ShloMosaic.Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
abbrev o7 (c : Dev nD) (t : Fin cfg0.N) : Vec Idealize.ShloMosaic.Ideal S4096x512 .f32 :=
  out0_A_7 (F := Idealize.ShloMosaic.Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

theorem outsAt0_eq (c : Dev nD) (t : Fin cfg0.N) : outsAt0 m c t = (o6 m c t, o7 m c t) := rfl

/-- After the point the hidden-state staging buffer holds the hidden states of the arguments. -/
theorem outs6 (c : Dev nD) (t : Fin cfg0.N) : o6 m c t = rOutF (argX m c) (argWih m c) (argWhh m c) (argB m c) :=
  (out6_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (argX m c) (iblk0_apply m c t)).trans
    (by rw [iblk1_arg m c t, iblk2_arg m c t, iblk3_arg m c t])

/-- After the point the head staging buffer holds the heads of the arguments. -/
theorem outs7 (c : Dev nD) (t : Fin cfg0.N) : o7 m c t = headsF (argX m c) (argWih m c) (argWhh m c) (argB m c) (argFw m c) (argFb m c) :=
  (out7_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (argX m c) (iblk0_apply m c t)).trans
    (by rw [iblk1_arg m c t, iblk2_arg m c t, iblk3_arg m c t, iblk4_arg m c t, iblk5_arg m c t])

/-- What the body leaves in the two result windows' buffers. -/
theorem after6_block (c : Dev nD) (t : Fin cfg0.N) : (dats m 0 c).after 6 t = o6 m c t := by
  rw [after0_6, outsAt0_eq]
theorem after7_block (c : Dev nD) (t : Fin cfg0.N) : (dats m 0 c).after 7 t = o7 m c t := by
  rw [after0_7, outsAt0_eq]
theorem after6 (c : Dev nD) (t : Fin cfg0.N) : (dats m 0 c).after 6 t = rOutF (argX m c) (argWih m c) (argWhh m c) (argB m c) :=
  (after6_block m c t).trans (outs6 m c t)
theorem after7 (c : Dev nD) (t : Fin cfg0.N) : (dats m 0 c).after 7 t = headsF (argX m c) (argWih m c) (argWhh m c) (argB m c) (argFw m c) (argFb m c) :=
  (after7_block m c t).trans (outs7 m c t)

/-! ## The two result arrays after the run -/

/-- What the point writes back to the hidden-state array: the window is whole, so its block is the array. -/
theorem flushed6_eq (c : Dev nD) (t : Fin cfg0.N) :
    (dats m 0 c).flushed 6 t = ((cfg0.win 6).blk t).view.read (Elt Idealize.ShloMosaic.Ideal) (rOutF (argX m c) (argWih m c) (argWhh m c) (argB m c)) := by
  show (cfg0.win 6).cut (grid0.coords t) ((dats m 0 c).after 6 t) = _
  rw [after6]
  have hz' : (fun a => win0_6.index t a * main_v2_0.ty.shape.size a) = fun _ => 0 := funext fun a => by fin_cases a <;> rfl
  exact (Memref.read_access_unit_zero (Elt Idealize.ShloMosaic.Ideal) main_v2_0 hz' (fun a => by rw [congrFun hz' a]; simp) (rOutF (argX m c) (argWih m c) (argWhh m c) (argB m c))).symm

/-- The same for the head array. -/
theorem flushed7_eq (c : Dev nD) (t : Fin cfg0.N) :
    (dats m 0 c).flushed 7 t = ((cfg0.win 7).blk t).view.read (Elt Idealize.ShloMosaic.Ideal) (headsF (argX m c) (argWih m c) (argWhh m c) (argB m c) (argFw m c) (argFb m c)) := by
  show (cfg0.win 7).cut (grid0.coords t) ((dats m 0 c).after 7 t) = _
  rw [after7]
  have hz' : (fun a => win0_7.index t a * main_v2_1.ty.shape.size a) = fun _ => 0 := funext fun a => by fin_cases a <;> rfl
  exact (Memref.read_access_unit_zero (Elt Idealize.ShloMosaic.Ideal) main_v2_1 hz' (fun a => by rw [congrFun hz' a]; simp) (headsF (argX m c) (argWih m c) (argWhh m c) (argB m c) (argFw m c) (argFb m c))).symm

/-- The one point's block covers the hidden-state array. -/
theorem cover6 (i : S4096x256.Idx) :
    ∃ t : Fin cfg0.N, (cfg0.win 6).flush t = true ∧ i ∈ ((cfg0.win 6).blk t).view.set := by
  refine ⟨t0_0, flush0_6 t0_0, ?_⟩
  show i ∈ ((View.whole main_v2_0).slice (win0_6.rect t0_0)).set
  rw [View.set_slice_whole, Rect.mem_set_unit]
  intro a
  have h0 : (i 0).val < 4096 := (i 0).isLt
  have h1 : (i 1).val < 256 := (i 1).isLt
  match a with
  | ⟨0, _⟩ =>
    show win0_6.index t0_0 0 * win0_6.size 0 ≤ (i 0).val ∧ (i 0).val < win0_6.index t0_0 0 * win0_6.size 0 + win0_6.xsize (grid0.coords t0_0) 0
    rw [show win0_6.index t0_0 0 * win0_6.size 0 = 0 from rfl, show win0_6.xsize (grid0.coords t0_0) 0 = 4096 from rfl]; omega
  | ⟨1, _⟩ =>
    show win0_6.index t0_0 1 * win0_6.size 1 ≤ (i 1).val ∧ (i 1).val < win0_6.index t0_0 1 * win0_6.size 1 + win0_6.xsize (grid0.coords t0_0) 1
    rw [show win0_6.index t0_0 1 * win0_6.size 1 = 0 from rfl, show win0_6.xsize (grid0.coords t0_0) 1 = 256 from rfl]; omega

/-- The one point's block covers the head array. -/
theorem cover7 (i : S4096x512.Idx) :
    ∃ t : Fin cfg0.N, (cfg0.win 7).flush t = true ∧ i ∈ ((cfg0.win 7).blk t).view.set := by
  refine ⟨t0_0, flush0_7 t0_0, ?_⟩
  show i ∈ ((View.whole main_v2_1).slice (win0_7.rect t0_0)).set
  rw [View.set_slice_whole, Rect.mem_set_unit]
  intro a
  have h0 : (i 0).val < 4096 := (i 0).isLt
  have h1 : (i 1).val < 512 := (i 1).isLt
  match a with
  | ⟨0, _⟩ =>
    show win0_7.index t0_0 0 * win0_7.size 0 ≤ (i 0).val ∧ (i 0).val < win0_7.index t0_0 0 * win0_7.size 0 + win0_7.xsize (grid0.coords t0_0) 0
    rw [show win0_7.index t0_0 0 * win0_7.size 0 = 0 from rfl, show win0_7.xsize (grid0.coords t0_0) 0 = 4096 from rfl]; omega
  | ⟨1, _⟩ =>
    show win0_7.index t0_0 1 * win0_7.size 1 ≤ (i 1).val ∧ (i 1).val < win0_7.index t0_0 1 * win0_7.size 1 + win0_7.xsize (grid0.coords t0_0) 1
    rw [show win0_7.index t0_0 1 * win0_7.size 1 = 0 from rfl, show win0_7.xsize (grid0.coords t0_0) 1 = 512 from rfl]; omega

/-- The hidden-state array after the run: every batch row's hidden state at every step, (step, batch) flattened. -/
theorem final6 (c : Dev nD) : (dats m 0 c).arrAt 6 cfg0.N = rOutF (argX m c) (argWih m c) (argWhh m c) (argB m c) :=
  (dats m 0 c).arrAt_eq_of_cover 6 (rOutF (argX m c) (argWih m c) (argWhh m c) (argB m c)) (fun t _ => flushed6_eq m c t) cover6

/-- The head array after the run: the four heads side by side, (step, batch) flattened. -/
theorem final7 (c : Dev nD) : (dats m 0 c).arrAt 7 cfg0.N = headsF (argX m c) (argWih m c) (argWhh m c) (argB m c) (argFw m c) (argFb m c) :=
  (dats m 0 c).arrAt_eq_of_cover 7 (headsF (argX m c) (argWih m c) (argWhh m c) (argB m c) (argFw m c) (argFb m c)) (fun t _ => flushed7_eq m c t) cover7

end Cert.ReferenceIdeal.RV

end
-- ==== Proof.RRun.lean ====
/-
  The layout the host applies after the region, and the whole run.

  After the region each of the two result arrays, whose 4096 rows are (step, batch) flattened, is unflattened to
  [32, 128, ·] and has its first two axes exchanged to batch-major; the exchanged head array is cut along its last
  axis into four groups of 128 columns. Entry (B, s, j) of the exchanged hidden states is row 128 s + B of the
  flattened array, that is batch row B's hidden state after step s; column n of group f of the exchanged heads is
  column 128 f + n of the heads of the same batch row and step. The run's post is the frame run's, read at those
  arrays, with the six arguments as launched.
-/
import proofs.«106864_g2000204369025975_pallaspilot1_7_1_alg».proof.Proof.RArray
import Idealize.ShloMosaic.Lib.Pipeline.FrameSuffix

set_option maxRecDepth 16384

noncomputable section

open scoped BigOperators

namespace Cert.ReferenceIdeal.RV

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.Lstm

variable (m : (ℓ : Loc nD τ sig) → Buf (Elt Idealize.ShloMosaic.Ideal) ℓ) (ρ : Dev nD → PrngReg)

/-! ## Unflattening, exchanging the first two axes, and cutting the head columns -/

/-- Entry (B, s, j) of the flattened hidden states unflattened and with the first two axes exchanged is entry
    (128 s + B, j) of the flattened array: batch row B's hidden state after step s. -/
theorem unflatten_rOutF_apply (x : SX.Idx → EReal) (wih : SWih.Idx → EReal) (whh : SWhh.Idx → EReal) (b : SB.Idx → EReal)
    (h1 : S4096x256.ShapeCasts S32x128x256) (h : S32x128x256.Transposes [1, 0, 2] S128x32x256)
    (B : Fin 128) (s : Fin 32) (j : Fin 256) :
    transpose S128x32x256 [1, 0, 2] (shapeCast S32x128x256 (rOutF x wih whh b) h1) h (ix3 B s j)
      = hid x wih whh b B s j := by
  refine (transpose_apply _ _ h (ix3 B s j) (ix3 s B j) fun a => ?_).trans ?_
  · match a with
    | ⟨0, _⟩ => rfl
    | ⟨1, _⟩ => rfl
    | ⟨2, _⟩ => rfl
  · refine (shapeCast_apply _ h1 (ix3 s B j) (ix2 (flatRow s B) j) ?_).trans ?_
    · rw [Shape.rowMajor_val_two, Shape.rowMajor_val_three]
      show (128 * s.val + B.val) * 256 + j.val = (s.val * 128 + B.val) * 256 + j.val
      omega
    · show hid x wih whh b (rowBatch (flatRow s B)) (rowStep (flatRow s B)) j = hid x wih whh b B s j
      rw [rowBatch_flatRow, rowStep_flatRow]

/-- So the flattened hidden states, unflattened and exchanged, are the batch-major hidden states. -/
theorem unflatten_rOutF (x : SX.Idx → EReal) (wih : SWih.Idx → EReal) (whh : SWhh.Idx → EReal) (b : SB.Idx → EReal)
    (h1 : S4096x256.ShapeCasts S32x128x256) (h : S32x128x256.Transposes [1, 0, 2] S128x32x256) :
    transpose S128x32x256 [1, 0, 2] (shapeCast S32x128x256 (rOutF x wih whh b) h1) h = rOut x wih whh b := by
  funext i
  exact (congrArg (transpose S128x32x256 [1, 0, 2] (shapeCast S32x128x256 (rOutF x wih whh b) h1) h) (eq_ix3 i)).trans
    (unflatten_rOutF_apply x wih whh b h1 h (i 0) (i 1) (i 2))

/-- The 128 columns starting at column o of a time-major array with its first two axes exchanged: entry (B, s, n) is
    the time-major array's entry (s, B, o + n). -/
theorem head_tail (o : ℕ) (ho : o + 128 ≤ 512) (G : Fin 128 → Fin 32 → Fin 512 → EReal)
    (Z : S32x128x512.Idx → EReal) (hZ : ∀ (s : Fin 32) (B : Fin 128) (n : Fin 512), Z (ix3 s B n) = G B s n)
    (h : S32x128x512.Transposes [1, 0, 2] S128x32x512) (hs : S128x32x512.Slices ![0, 0, o] S128x32x128) :
    extractStridedSlice S128x32x128 ![0, 0, o] (transpose S128x32x512 [1, 0, 2] Z h) hs
      = fun i : S128x32x128.Idx => G (i 0) (i 1) ⟨o + (i 2).val, by have h2 : (i 2).val < 128 := (i 2).isLt; omega⟩ := by
  funext i
  have h2 : (i 2).val < 128 := (i 2).isLt
  refine (extractStridedSlice_apply _ _ hs i (ix3 (i 0) (i 1) ⟨o + (i 2).val, by omega⟩) fun a => ?_).trans ?_
  · match a with
    | ⟨0, _⟩ => show (i 0).val = 0 + (i 0).val; omega
    | ⟨1, _⟩ => show (i 1).val = 0 + (i 1).val; omega
    | ⟨2, _⟩ => rfl
  · refine (transpose_apply _ _ h _ (ix3 (i 1) (i 0) ⟨o + (i 2).val, by omega⟩) fun a => ?_).trans ?_
    · match a with
      | ⟨0, _⟩ => rfl
      | ⟨1, _⟩ => rfl
      | ⟨2, _⟩ => rfl
    · exact hZ (i 1) (i 0) ⟨o + (i 2).val, by omega⟩

/-! ## The arrays the lines after the region read -/

/-- The lines after the region find the hidden-state array at the flattened hidden states … -/
theorem arr6 (c : Dev nD) :
    (Pipeline.withArrays (cfgs 0).spec c (V0 m c) (fun w => (dats m 0 c).arrAt w (cfgs 0).N)
        (Proc.devRef .tc main_v2_0) : S4096x256.Idx → EReal) = rOutF (argX m c) (argWih m c) (argWhh m c) (argB m c) :=
  (Pipeline.withArrays_arr spec0 launch0.win.arr_inj c _ _ 6).trans (final6 m c)

/-- … and the head array at the flattened heads. -/
theorem arr7 (c : Dev nD) :
    (Pipeline.withArrays (cfgs 0).spec c (V0 m c) (fun w => (dats m 0 c).arrAt w (cfgs 0).N)
        (Proc.devRef .tc main_v2_1) : S4096x512.Idx → EReal) = headsF (argX m c) (argWih m c) (argWhh m c) (argB m c) (argFw m c) (argFb m c) :=
  (Pipeline.withArrays_arr spec0 launch0.win.arr_inj c _ _ 7).trans (final7 m c)

/-- The head array unflattened: entry (s, B, n) is column n of batch row B's heads at step s. -/
theorem unflat7 (c : Dev nD) (h1 : S4096x512.ShapeCasts S32x128x512) (s : Fin 32) (B : Fin 128) (n : Fin 512) :
    shapeCast S32x128x512
        (Pipeline.withArrays (cfgs 0).spec c (V0 m c) (fun w => (dats m 0 c).arrAt w (cfgs 0).N)
          (Proc.devRef .tc main_v2_1) : S4096x512.Idx → EReal) h1 (ix3 s B n)
      = heads (argX m c) (argWih m c) (argWhh m c) (argB m c) (argFw m c) (argFb m c) B s n := by
  refine (shapeCast_apply _ h1 (ix3 s B n) (ix2 (flatRow s B) n) ?_).trans ?_
  · rw [Shape.rowMajor_val_two, Shape.rowMajor_val_three]
    show (128 * s.val + B.val) * 512 + n.val = (s.val * 128 + B.val) * 512 + n.val
    omega
  · rw [arr7 m c]
    show heads (argX m c) (argWih m c) (argWhh m c) (argB m c) (argFw m c) (argFb m c) (rowBatch (flatRow s B)) (rowStep (flatRow s B)) n = _
    rw [rowBatch_flatRow, rowStep_flatRow]

/-! ## The results -/

/-- The last result of the program: the hidden states of all steps, batch-major. -/
theorem tail_v4 (c : Dev nD) :
    (Pipeline.afterTail₀ cfgs (dats m) 0 (V0 m) [hostOps1] c main_v4 : S128x32x256.Idx → EReal)
      = rOut (argX m c) (argWih m c) (argWhh m c) (argB m c) := by
  unfold Pipeline.afterTail₀
  show StableHlo.after hostOps1 _ (Proc.devRef .tc main_v4) = _
  after_results
  refine (congrArg (fun A : S4096x256.Idx → EReal =>
    transpose S128x32x256 [1, 0, 2] (shapeCast S32x128x256 A Facts₀.shapeCasts_S4096x256_S32x128x256)
      Facts₀.transposes_S32x128x256_S128x32x256_1_0_2) (arr6 m c)).trans ?_
  exact unflatten_rOutF _ _ _ _ _ _

/-- Head 0 of the program's results, batch-major. -/
theorem tail_v7 (c : Dev nD) :
    (Pipeline.afterTail₀ cfgs (dats m) 0 (V0 m) [hostOps1] c main_v7 : S128x32x128.Idx → EReal)
      = headOut 0 (by norm_num) (argX m c) (argWih m c) (argWhh m c) (argB m c) (argFw m c) (argFb m c) := by
  unfold Pipeline.afterTail₀
  show StableHlo.after hostOps1 _ (Proc.devRef .tc main_v7) = _
  after_results
  refine (head_tail 0 (by norm_num) (heads (argX m c) (argWih m c) (argWhh m c) (argB m c) (argFw m c) (argFb m c)) _ (fun s B n => ?_) _ _).trans ?_
  · exact unflat7 m c _ s B n
  · rfl

/-- Head 1 of the program's results, batch-major. -/
theorem tail_v8 (c : Dev nD) :
    (Pipeline.afterTail₀ cfgs (dats m) 0 (V0 m) [hostOps1] c main_v8 : S128x32x128.Idx → EReal)
      = headOut 1 (by norm_num) (argX m c) (argWih m c) (argWhh m c) (argB m c) (argFw m c) (argFb m c) := by
  unfold Pipeline.afterTail₀
  show StableHlo.after hostOps1 _ (Proc.devRef .tc main_v8) = _
  after_results
  refine (head_tail 128 (by norm_num) (heads (argX m c) (argWih m c) (argWhh m c) (argB m c) (argFw m c) (argFb m c)) _ (fun s B n => ?_) _ _).trans ?_
  · exact unflat7 m c _ s B n
  · rfl

/-- Head 2 of the program's results, batch-major. -/
theorem tail_v9 (c : Dev nD) :
    (Pipeline.afterTail₀ cfgs (dats m) 0 (V0 m) [hostOps1] c main_v9 : S128x32x128.Idx → EReal)
      = headOut 2 (by norm_num) (argX m c) (argWih m c) (argWhh m c) (argB m c) (argFw m c) (argFb m c) := by
  unfold Pipeline.afterTail₀
  show StableHlo.after hostOps1 _ (Proc.devRef .tc main_v9) = _
  after_results
  refine (head_tail 256 (by norm_num) (heads (argX m c) (argWih m c) (argWhh m c) (argB m c) (argFw m c) (argFb m c)) _ (fun s B n => ?_) _ _).trans ?_
  · exact unflat7 m c _ s B n
  · rfl

/-- Head 3 of the program's results, batch-major. -/
theorem tail_v10 (c : Dev nD) :
    (Pipeline.afterTail₀ cfgs (dats m) 0 (V0 m) [hostOps1] c main_v10 : S128x32x128.Idx → EReal)
      = headOut 3 (by norm_num) (argX m c) (argWih m c) (argWhh m c) (argB m c) (argFw m c) (argFb m c) := by
  unfold Pipeline.afterTail₀
  show StableHlo.after hostOps1 _ (Proc.devRef .tc main_v10) = _
  after_results
  refine (head_tail 384 (by norm_num) (heads (argX m c) (argWih m c) (argWhh m c) (argB m c) (argFw m c) (argFb m c)) _ (fun s B n => ?_) _ _).trans ?_
  · exact unflat7 m c _ s B n
  · rfl

/-! ## The run -/

/-- From any memory with zero counters, every weakly fair execution of the program terminates, and in every final
    state the five results hold the four heads and the hidden states of the recurrence of the six arguments, which
    are as launched. -/
theorem run (m : (ℓ : Loc nD τ sig) → Buf (Elt Idealize.ShloMosaic.Ideal) ℓ) (ρ : Dev nD → PrngReg) :
    θ_run (defs (F := Idealize.ShloMosaic.Ideal)) (onTc (τ := τ) (main (F := Idealize.ShloMosaic.Ideal))) ⟨m, fun _ => 0, ρ⟩ (fun r => ∀ c : Dev nD,
      r.2.mem ((c.tc : Thread nD τ).loc main_v7) = headOut 0 (by norm_num) (argX m c) (argWih m c) (argWhh m c) (argB m c) (argFw m c) (argFb m c)
      ∧ r.2.mem ((c.tc : Thread nD τ).loc main_v8) = headOut 1 (by norm_num) (argX m c) (argWih m c) (argWhh m c) (argB m c) (argFw m c) (argFb m c)
      ∧ r.2.mem ((c.tc : Thread nD τ).loc main_v9) = headOut 2 (by norm_num) (argX m c) (argWih m c) (argWhh m c) (argB m c) (argFw m c) (argFb m c)
      ∧ r.2.mem ((c.tc : Thread nD τ).loc main_v10) = headOut 3 (by norm_num) (argX m c) (argWih m c) (argWhh m c) (argB m c) (argFw m c) (argFb m c)
      ∧ r.2.mem ((c.tc : Thread nD τ).loc main_v4) = rOut (argX m c) (argWih m c) (argWhh m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v7 (Pipeline.mem_restRefs_of main_v7 (by decide) (by decide))).trans (tail_v7 m c),
      ((h c).2 main_v8 (Pipeline.mem_restRefs_of main_v8 (by decide) (by decide))).trans (tail_v8 m c),
      ((h c).2 main_v9 (Pipeline.mem_restRefs_of main_v9 (by decide) (by decide))).trans (tail_v9 m c),
      ((h c).2 main_v10 (Pipeline.mem_restRefs_of main_v10 (by decide) (by decide))).trans (tail_v10 m c),
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.RV

end
-- ==== Proof.lean ====
/-
  Both programs compute one recurrent cell (a projection of the inputs, 32 steps of a gated state update, and four
  classifier heads) on 128 batch rows of 32 steps each, and differ only in how the rows are laid out: the kernel works on
  two blocks of 64 batch rows, time-major with the step axis kept apart, while the reference works on all 128 rows with
  (step, batch) flattened into 4096 rows. Every quantity belonging to a batch row is a function of that row's own inputs
  and of the weights, so each program's results are the same functions `rOut` and `headOut f` of the argument arrays
  (Proof/LstmSpec.lean), entry by entry on the extended reals: the same sums over the same index in the same form, the
  same elementwise operations. No law of arithmetic is used beyond that, and the precondition is never opened.

  The three frames are the runs of the three programs with their results forgotten. The idealization rewrote no
  operation, so there is nothing to preserve. The equivalence takes the kernel's run (Proof/KRun.lean) and the
  reference's run (Proof/RRun.lean), each ending with its results at those functions of its own arguments, and
  rewrites the reference's arguments into the kernel's by the hypothesis that the two memories agree on them.
-/
import proofs.«106864_g2000204369025975_pallaspilot1_7_1_alg».proof.Defs
import proofs.«106864_g2000204369025975_pallaspilot1_7_1_alg».proof.Proof.Gen.Kernel
import proofs.«106864_g2000204369025975_pallaspilot1_7_1_alg».proof.Proof.Gen.Kernel.Frame
import proofs.«106864_g2000204369025975_pallaspilot1_7_1_alg».proof.Proof.Gen.KernelIdeal
import proofs.«106864_g2000204369025975_pallaspilot1_7_1_alg».proof.Proof.Gen.KernelIdeal.Frame
import proofs.«106864_g2000204369025975_pallaspilot1_7_1_alg».proof.Proof.Gen.ReferenceIdeal
import proofs.«106864_g2000204369025975_pallaspilot1_7_1_alg».proof.Proof.Gen.ReferenceIdeal.Frame
import proofs.«106864_g2000204369025975_pallaspilot1_7_1_alg».proof.Proof.Gen.Pre_finite_inputs
import proofs.«106864_g2000204369025975_pallaspilot1_7_1_alg».proof.Proof.KRun
import proofs.«106864_g2000204369025975_pallaspilot1_7_1_alg».proof.Proof.RRun

noncomputable section

namespace Cert.Proof

open Idealize.ShloMosaic Idealize.ShloMosaic.TcCoe Idealize.SL.Sem

/-- From memories that agree on the arguments both idealized programs end with the five results at the same functions of
    the kernel's argument arrays: the four heads and the hidden states of all steps. -/
theorem algebraic : Cert.algebraic_KernelIdeal_ReferenceIdeal := by
  intro m g m' g' _ hagree
  refine ⟨fun c => Cert.Lstm.headOut 0 (by norm_num) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.Lstm.headOut 1 (by norm_num) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Lstm.headOut 2 (by norm_num) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.Lstm.headOut 3 (by norm_num) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Lstm.rOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.KV.run m g, ?_⟩
  refine (θ_run Cert.ReferenceIdeal.defs _ _).mono (fun r h c => ?_) (Cert.ReferenceIdeal.RV.run m' g')
  obtain ⟨h0, h1, h2, h3, h4, ha⟩ := h c
  obtain ⟨e0, e1, e2, e3, e4, e5⟩ := hagree c
  dsimp only [Cert.ReferenceIdeal.RV.argX, Cert.ReferenceIdeal.RV.argWih, Cert.ReferenceIdeal.RV.argWhh, Cert.ReferenceIdeal.RV.argB, Cert.ReferenceIdeal.RV.argFw, Cert.ReferenceIdeal.RV.argFb] at h0 h1 h2 h3 h4
  rw [e0, e1, e2, e3, e4, e5] at h0 h1 h2 h3
  rw [e0, e1, e2, e3] at h4
  exact ⟨h0, h1, h2, h3, h4, ha⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
